-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_96" .f32 0x3C2AAAAB#32 ((1 / 96 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x96x224x224 : Shape := ⟨4, ![2, 96, 224, 224]⟩
abbrev S96x96 : Shape := ⟨2, ![96, 96]⟩
abbrev S96 : Shape := ⟨1, ![96]⟩
abbrev S_ : Shape := ⟨0, ![]⟩

class Facts : Prop where
  bcast_S_S2x96x224x224 : S_.BroadcastsInDim S2x96x224x224 (![] : Fin 0 → Fin S2x96x224x224.rank)
  reducesTo_S2x96x224x224_S_d0_1_2_3 : S2x96x224x224.ReducesTo [0, 1, 2, 3] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96x96 .f32) (main_arg5 : FVec F S96 .f32) (main_arg6 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96x96 .f32 := Host.absf main_arg4
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  main_v33

def fn {F : FTy → Type} [FloatOps F] (main_arg0 : FVec F S2x96x224x224 .f32) (main_arg1 : FVec F S96x96 .f32) (main_arg2 : FVec F S96x96 .f32) (main_arg3 : FVec F S96x96 .f32) (main_arg4 : FVec F S96x96 .f32) (main_arg5 : FVec F S96 .f32) (main_arg6 : FVec F S96 .f32) : IVec S_ 1 :=
  let main_v0 : FVec F S2x96x224x224 .f32 := Host.absf main_arg0
  let main_cst : FVec F S_ .f32 := constant S_ .f32 0x7F800000#32
  let main_v1 : FVec F S2x96x224x224 .f32 := broadcastInDim S2x96x224x224 ![] bcast_S_S2x96x224x224 main_cst
  let main_v2 : IVec S2x96x224x224 1 := cmpf .olt main_v0 main_v1
  let main_c : IVec S_ 1 := constantI S_ 1 1#1
  let main_v3 : IVec S_ 1 := (fun x v => Host.reduce IntOp.andi x v reducesTo_S2x96x224x224_S_d0_1_2_3 h_S_) main_v2 main_c
  let main_v4 : FVec F S96x96 .f32 := Host.absf main_arg1
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96x96 .f32 := Host.absf main_arg3
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg4 main_arg5 main_arg6 main_v13 main_v16
-- ==== Kernel.lean ====
abbrev S2x96x224x224 : Shape := ⟨4, ![2, 96, 224, 224]⟩
abbrev S96x96 : Shape := ⟨2, ![96, 96]⟩
abbrev S96 : Shape := ⟨1, ![96]⟩
abbrev S2x96x50176 : Shape := ⟨3, ![2, 96, 50176]⟩
abbrev S96x1 : Shape := ⟨2, ![96, 1]⟩
abbrev S1x96x3584 : Shape := ⟨3, ![1, 96, 3584]⟩
abbrev S96x3584 : Shape := ⟨2, ![96, 3584]⟩
abbrev S8x96 : Shape := ⟨2, ![8, 96]⟩
abbrev S8x3584 : Shape := ⟨2, ![8, 3584]⟩
abbrev S1x3584 : Shape := ⟨2, ![1, 3584]⟩
abbrev S3584x96 : Shape := ⟨2, ![3584, 96]⟩

abbrev nBuf : Space → Nat
  | .hbm => 17
  | .vmem => 16
  | .smem => 0
  | _ => 0

abbrev bufTy : (tb : Table) → Fin (tcTables nBuf tb) → BufTy
  | .hbm, ⟨0, _⟩ => ⟨S2x96x224x224, .f32⟩
  | .hbm, ⟨1, _⟩ => ⟨S96x96, .f32⟩
  | .hbm, ⟨2, _⟩ => ⟨S96x96, .f32⟩
  | .hbm, ⟨3, _⟩ => ⟨S96x96, .f32⟩
  | .hbm, ⟨4, _⟩ => ⟨S96x96, .f32⟩
  | .hbm, ⟨5, _⟩ => ⟨S96, .f32⟩
  | .hbm, ⟨6, _⟩ => ⟨S96, .f32⟩
  | .hbm, ⟨7, _⟩ => ⟨S2x96x50176, .f32⟩
  | .hbm, ⟨8, _⟩ => ⟨S96x96, .f32⟩
  | .hbm, ⟨9, _⟩ => ⟨S96x96, .bf16⟩
  | .hbm, ⟨10, _⟩ => ⟨S96x96, .f32⟩
  | .hbm, ⟨11, _⟩ => ⟨S96x96, .bf16⟩
  | .hbm, ⟨12, _⟩ => ⟨S96x1, .f32⟩
  | .hbm, ⟨13, _⟩ => ⟨S96x1, .f32⟩
  | .hbm, ⟨14, _⟩ => ⟨S96x96, .bf16⟩
  | .hbm, ⟨15, _⟩ => ⟨S2x96x50176, .f32⟩
  | .hbm, ⟨16, _⟩ => ⟨S2x96x224x224, .f32⟩
  | .local _ .vmem, ⟨0, _⟩ => ⟨S1x96x3584, .f32⟩
  | .local _ .vmem, ⟨1, _⟩ => ⟨S1x96x3584, .f32⟩
  | .local _ .vmem, ⟨2, _⟩ => ⟨S96x96, .bf16⟩
  | .local _ .vmem, ⟨3, _⟩ => ⟨S96x96, .f32⟩
  | .local _ .vmem, ⟨4, _⟩ => ⟨S96x96, .f32⟩
  | .local _ .vmem, ⟨5, _⟩ => ⟨S96x96, .bf16⟩
  | .local _ .vmem, ⟨6, _⟩ => ⟨S96x1, .f32⟩
  | .local _ .vmem, ⟨7, _⟩ => ⟨S96x96, .f32⟩
  | .local _ .vmem, ⟨8, _⟩ => ⟨S1x96x3584, .f32⟩
  | .local _ .vmem, ⟨9, _⟩ => ⟨S1x96x3584, .f32⟩
  | .local _ .vmem, ⟨10, _⟩ => ⟨S96x96, .bf16⟩
  | .local _ .vmem, ⟨11, _⟩ => ⟨S96x96, .bf16⟩
  | .local _ .vmem, ⟨12, _⟩ => ⟨S96x1, .f32⟩
  | .local _ .vmem, ⟨13, _⟩ => ⟨S96x1, .f32⟩
  | .local _ .vmem, ⟨14, _⟩ => ⟨S1x96x3584, .f32⟩
  | .local _ .vmem, ⟨15, _⟩ => ⟨S1x96x3584, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![2, 14], ![false, false]⟩

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c13_i32 : BitVec 32 := 13#32
  let v4 : BitVec 1 := Scalar.cmpi .eq arg1 c13_i32
  let v5 : BitVec 1 := Scalar.andi v3 v4
  let v40 : BitVec 32 := Scalar.extui v5
  let c0_i32_19 : BitVec 32 := 0#32
  let v41 : BitVec 1 := Scalar.cmpi .ne v40 c0_i32_19
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x96x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S96x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![2, 14], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x96x3584 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S96x96 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S96x96 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S96x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S96x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x96x3584 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S2x96x224x224_S2x96x50176 : S2x96x224x224.ShapeCasts S2x96x50176
  transposes_S96x96_S96x96_1_0 : S96x96.Transposes [1, 0] S96x96
  bitsLt_bf16_f32 : FTy.bits .bf16 < FTy.bits .f32
  shapeCasts_S96_S96x1 : S96.ShapeCasts S96x1
  shapeCasts_S2x96x50176_S2x96x224x224 : S2x96x50176.ShapeCasts S2x96x224x224
  inb_S96x1_S96x1_0_0 : ∀ a, (![0, 0] : Fin 2 → Nat) a + S96x1.size a ≤ S96x1.size a
  h_S96x1 : 0 < S96x1.numel
  shapeCasts_S96x1_S96x1 : S96x1.ShapeCasts S96x1
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96x3584_S1x96x3584_0_0_0 : ∀ a, (![0, 0, 0] : Fin 3 → Nat) a + S1x96x3584.size a ≤ S1x96x3584.size a
  h_S1x96x3584 : 0 < S1x96x3584.numel
  shapeCasts_S1x96x3584_S96x3584 : S1x96x3584.ShapeCasts S96x3584
  slices_S8x3584_o0_0_S1x3584 : S8x3584.Slices ![0, 0] S1x3584
  natLt_1_32 : 1 < 32
  broadcasts_S1x3584_S96x3584 : S1x3584.Broadcasts S96x3584
  reduces_S96x3584_S96 : S96x3584.Reduces [1] S96
  transposes_S96x3584_p1_0_S3584x96 : S96x3584.Transposes [1, 0] S3584x96
  broadcasts_S96x1_S96x96 : S96x1.Broadcasts S96x96
  transposes_S96x96_p1_0_S96x96 : S96x96.Transposes [1, 0] S96x96
  packedbf16_S96x96_S96x96_0_0 : (Rect.unit (s := S96x96) ![0, 0] S96x96.size inb_S96x96_S96x96_0_0).PackedRows (EltTy.packing .bf16)
  broadcasts_S96x1_S96x3584 : S96x1.Broadcasts S96x3584
  shapeCasts_S96x3584_S1x96x3584 : S96x3584.ShapeCasts S1x96x3584
  dot_S8x96_S96x3584_S8x3584_1_0_0_1_n_n_wf : DotDims.WF S8x96 S96x3584 S8x3584 [1] [0] [0] [1] [] []
  dot_S96x96_S96x3584_S96x3584_1_0_0_1_n_n_wf : DotDims.WF S96x96 S96x3584 S96x3584 [1] [0] [0] [1] [] []
  dot_S96x3584_S3584x96_S96x96_1_0_0_1_n_n_wf : DotDims.WF S96x3584 S3584x96 S96x96 [1] [0] [0] [1] [] []
  dot_S96x96_S96x96_S96x96_1_0_0_1_n_n_wf : DotDims.WF S96x96 S96x96 S96x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x3584.size a ≤ S2x96x50176.size a
  hwx0_0 : ∀ i : grid0.Coords, EltTy.bits .f32 = 32 ∨ (Rect.block (s := S2x96x50176) S1x96x3584.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .bf16 = 32 ∨ (Rect.block (s := S96x96) S96x96.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .bf16 = 32 ∨ (Rect.block (s := S96x96) S96x96.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x96x3584.size a ≤ S2x96x50176.size a
  hwx1_0 : ∀ i : grid1.Coords, EltTy.bits .f32 = 32 ∨ (Rect.block (s := S2x96x50176) S1x96x3584.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .bf16 = 32 ∨ (Rect.block (s := S96x96) S96x96.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .bf16 = 32 ∨ (Rect.block (s := S96x96) S96x96.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x1.size a ≤ S96x1.size a
  hwx1_3 : ∀ i : grid1.Coords, EltTy.bits .f32 = 32 ∨ (Rect.block (s := S96x1) S96x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x1.size a ≤ S96x1.size a
  hwx1_4 : ∀ i : grid1.Coords, EltTy.bits .f32 = 32 ∨ (Rect.block (s := S96x1) S96x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x96x3584.size a ≤ S2x96x50176.size a
  hwx1_5 : ∀ i : grid1.Coords, EltTy.bits .f32 = 32 ∨ (Rect.block (s := S2x96x50176) S1x96x3584.size (cc1_transform_5 i) (hinb1_5 i)).WholeWords (EltTy.packing .f32)

variable [Facts₀]

def dot_S8x96_S96x3584_S8x3584_1_0_0_1_n_n : DotDims S8x96 S96x3584 S8x3584 where
  lhsContracting := [1]
  rhsContracting := [0]
  lhsNonContracting := [0]
  rhsNonContracting := [1]
  lhsBatch := []
  rhsBatch := []
  wf := dot_S8x96_S96x3584_S8x3584_1_0_0_1_n_n_wf
def dot_S96x96_S96x3584_S96x3584_1_0_0_1_n_n : DotDims S96x96 S96x3584 S96x3584 where
  lhsContracting := [1]
  rhsContracting := [0]
  lhsNonContracting := [0]
  rhsNonContracting := [1]
  lhsBatch := []
  rhsBatch := []
  wf := dot_S96x96_S96x3584_S96x3584_1_0_0_1_n_n_wf
def dot_S96x3584_S3584x96_S96x96_1_0_0_1_n_n : DotDims S96x3584 S3584x96 S96x96 where
  lhsContracting := [1]
  rhsContracting := [0]
  lhsNonContracting := [0]
  rhsNonContracting := [1]
  lhsBatch := []
  rhsBatch := []
  wf := dot_S96x3584_S3584x96_S96x96_1_0_0_1_n_n_wf
def dot_S96x96_S96x96_S96x96_1_0_0_1_n_n : DotDims S96x96 S96x96 S96x96 where
  lhsContracting := [1]
  rhsContracting := [0]
  lhsNonContracting := [0]
  rhsNonContracting := [1]
  lhsBatch := []
  rhsBatch := []
  wf := dot_S96x96_S96x96_S96x96_1_0_0_1_n_n_wf

abbrev win0_0 : Pipeline.Window sig grid0 :=
  Pipeline.Window.ofSpec (Memref.whole main_call0_v0) S1x96x3584.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7) S96x96.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_call0_v0) S1x96x3584.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v7) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v5) S96x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v6) S96x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v8) S1x96x3584.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x96x224x224 : Shape := ⟨4, ![2, 96, 224, 224]⟩
abbrev S96x96 : Shape := ⟨2, ![96, 96]⟩
abbrev S96 : Shape := ⟨1, ![96]⟩
abbrev S2x224x224x96 : Shape := ⟨4, ![2, 224, 224, 96]⟩
abbrev S100352x96 : Shape := ⟨2, ![100352, 96]⟩
abbrev S_ : Shape := ⟨0, ![]⟩
abbrev S100352 : Shape := ⟨1, ![100352]⟩
abbrev S100352x1 : Shape := ⟨2, ![100352, 1]⟩
abbrev S1x96 : Shape := ⟨2, ![1, 96]⟩
abbrev S96x100352 : Shape := ⟨2, ![96, 100352]⟩

abbrev nBuf : Space → Nat
  | .hbm => 97
  | .vmem => 0
  | .smem => 0
  | _ => 0

abbrev bufTy : (tb : Table) → Fin (tcTables nBuf tb) → BufTy
  | .hbm, ⟨0, _⟩ => ⟨S2x96x224x224, .f32⟩
  | .hbm, ⟨1, _⟩ => ⟨S96x96, .f32⟩
  | .hbm, ⟨2, _⟩ => ⟨S96x96, .f32⟩
  | .hbm, ⟨3, _⟩ => ⟨S96x96, .f32⟩
  | .hbm, ⟨4, _⟩ => ⟨S96x96, .f32⟩
  | .hbm, ⟨5, _⟩ => ⟨S96, .f32⟩
  | .hbm, ⟨6, _⟩ => ⟨S96, .f32⟩
  | .hbm, ⟨7, _⟩ => ⟨S2x224x224x96, .f32⟩
  | .hbm, ⟨8, _⟩ => ⟨S100352x96, .f32⟩
  | .hbm, ⟨9, _⟩ => ⟨S100352x96, .f32⟩
  | .hbm, ⟨10, _⟩ => ⟨S_, .f32⟩
  | .hbm, ⟨11, _⟩ => ⟨S100352, .f32⟩
  | .hbm, ⟨12, _⟩ => ⟨S_, .f32⟩
  | .hbm, ⟨13, _⟩ => ⟨S100352, .f32⟩
  | .hbm, ⟨14, _⟩ => ⟨S100352, .i1⟩
  | .hbm, ⟨15, _⟩ => ⟨S100352x1, .i1⟩
  | .hbm, ⟨16, _⟩ => ⟨S_, .f32⟩
  | .hbm, ⟨17, _⟩ => ⟨S_, .f32⟩
  | .hbm, ⟨18, _⟩ => ⟨S100352x96, .i1⟩
  | .hbm, ⟨19, _⟩ => ⟨S100352x96, .f32⟩
  | .hbm, ⟨20, _⟩ => ⟨S100352x96, .f32⟩
  | .hbm, ⟨21, _⟩ => ⟨S100352x96, .f32⟩
  | .hbm, ⟨22, _⟩ => ⟨S_, .f32⟩
  | .hbm, ⟨23, _⟩ => ⟨S100352, .f32⟩
  | .hbm, ⟨24, _⟩ => ⟨S_, .f32⟩
  | .hbm, ⟨25, _⟩ => ⟨S100352, .f32⟩
  | .hbm, ⟨26, _⟩ => ⟨S100352, .f32⟩
  | .hbm, ⟨27, _⟩ => ⟨S100352x1, .f32⟩
  | .hbm, ⟨28, _⟩ => ⟨S100352x96, .f32⟩
  | .hbm, ⟨29, _⟩ => ⟨S100352x96, .f32⟩
  | .hbm, ⟨30, _⟩ => ⟨S100352x96, .f32⟩
  | .hbm, ⟨31, _⟩ => ⟨S_, .f32⟩
  | .hbm, ⟨32, _⟩ => ⟨S100352, .f32⟩
  | .hbm, ⟨33, _⟩ => ⟨S100352x1, .f32⟩
  | .hbm, ⟨34, _⟩ => ⟨S100352x96, .f32⟩
  | .hbm, ⟨35, _⟩ => ⟨S100352x96, .f32⟩
  | .hbm, ⟨36, _⟩ => ⟨S100352x96, .f32⟩
  | .hbm, ⟨37, _⟩ => ⟨S_, .f32⟩
  | .hbm, ⟨38, _⟩ => ⟨S_, .f32⟩
  | .hbm, ⟨39, _⟩ => ⟨S100352x96, .i1⟩
  | .hbm, ⟨40, _⟩ => ⟨S100352x96, .f32⟩
  | .hbm, ⟨41, _⟩ => ⟨S100352x96, .f32⟩
  | .hbm, ⟨42, _⟩ => ⟨S_, .f32⟩
  | .hbm, ⟨43, _⟩ => ⟨S96, .f32⟩
  | .hbm, ⟨44, _⟩ => ⟨S_, .f32⟩
  | .hbm, ⟨45, _⟩ => ⟨S96, .f32⟩
  | .hbm, ⟨46, _⟩ => ⟨S96, .f32⟩
  | .hbm, ⟨47, _⟩ => ⟨S1x96, .f32⟩
  | .hbm, ⟨48, _⟩ => ⟨S100352x96, .f32⟩
  | .hbm, ⟨49, _⟩ => ⟨S100352x96, .f32⟩
  | .hbm, ⟨50, _⟩ => ⟨S100352x96, .f32⟩
  | .hbm, ⟨51, _⟩ => ⟨S_, .f32⟩
  | .hbm, ⟨52, _⟩ => ⟨S96, .f32⟩
  | .hbm, ⟨53, _⟩ => ⟨S1x96, .f32⟩
  | .hbm, ⟨54, _⟩ => ⟨S100352x96, .f32⟩
  | .hbm, ⟨55, _⟩ => ⟨S100352x96, .f32⟩
  | .hbm, ⟨56, _⟩ => ⟨S100352x96, .f32⟩
  | .hbm, ⟨57, _⟩ => ⟨S96x100352, .f32⟩
  | .hbm, ⟨58, _⟩ => ⟨S96x96, .f32⟩
  | .hbm, ⟨59, _⟩ => ⟨S100352x96, .f32⟩
  | .hbm, ⟨60, _⟩ => ⟨S100352x96, .f32⟩
  | .hbm, ⟨61, _⟩ => ⟨S100352x96, .f32⟩
  | .hbm, ⟨62, _⟩ => ⟨S_, .f32⟩
  | .hbm, ⟨63, _⟩ => ⟨S100352, .f32⟩
  | .hbm, ⟨64, _⟩ => ⟨S100352x1, .f32⟩
  | .hbm, ⟨65, _⟩ => ⟨S_, .f32⟩
  | .hbm, ⟨66, _⟩ => ⟨S100352x1, .f32⟩
  | .hbm, ⟨67, _⟩ => ⟨S100352x1, .f32⟩
  | .hbm, ⟨68, _⟩ => ⟨S100352x96, .f32⟩
  | .hbm, ⟨69, _⟩ => ⟨S100352x96, .f32⟩
  | .hbm, ⟨70, _⟩ => ⟨S100352x96, .f32⟩
  | .hbm, ⟨71, _⟩ => ⟨S_, .f32⟩
  | .hbm, ⟨72, _⟩ => ⟨S100352, .f32⟩
  | .hbm, ⟨73, _⟩ => ⟨S100352x1, .f32⟩
  | .hbm, ⟨74, _⟩ => ⟨S_, .f32⟩
  | .hbm, ⟨75, _⟩ => ⟨S100352x1, .f32⟩
  | .hbm, ⟨76, _⟩ => ⟨S100352x1, .f32⟩
  | .hbm, ⟨77, _⟩ => ⟨S100352x96, .f32⟩
  | .hbm, ⟨78, _⟩ => ⟨S100352x96, .f32⟩
  | .hbm, ⟨79, _⟩ => ⟨S_, .f32⟩
  | .hbm, ⟨80, _⟩ => ⟨S100352x1, .f32⟩
  | .hbm, ⟨81, _⟩ => ⟨S100352x1, .f32⟩
  | .hbm, ⟨82, _⟩ => ⟨S100352x1, .f32⟩
  | .hbm, ⟨83, _⟩ => ⟨S100352x96, .f32⟩
  | .hbm, ⟨84, _⟩ => ⟨S100352x96, .f32⟩
  | .hbm, ⟨85, _⟩ => ⟨S1x96, .f32⟩
  | .hbm, ⟨86, _⟩ => ⟨S100352x96, .f32⟩
  | .hbm, ⟨87, _⟩ => ⟨S100352x96, .f32⟩
  | .hbm, ⟨88, _⟩ => ⟨S1x96, .f32⟩
  | .hbm, ⟨89, _⟩ => ⟨S100352x96, .f32⟩
  | .hbm, ⟨90, _⟩ => ⟨S100352x96, .f32⟩
  | .hbm, ⟨91, _⟩ => ⟨S_, .f32⟩
  | .hbm, ⟨92, _⟩ => ⟨S100352x96, .f32⟩
  | .hbm, ⟨93, _⟩ => ⟨S100352x96, .i1⟩
  | .hbm, ⟨94, _⟩ => ⟨S100352x96, .f32⟩
  | .hbm, ⟨95, _⟩ => ⟨S2x224x224x96, .f32⟩
  | .hbm, ⟨96, _⟩ => ⟨S2x96x224x224, .f32⟩
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_call2_v0 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]

class Facts₀ : Prop where
  transposes_S2x96x224x224_S2x224x224x96_0_2_3_1 : S2x96x224x224.Transposes [0, 2, 3, 1] S2x224x224x96
  shapeCasts_S2x224x224x96_S100352x96 : S2x224x224x96.ShapeCasts S100352x96
  reducesTo_S100352x96_S100352_d1 : S100352x96.ReducesTo [1] S100352
  h_S_ : 0 < S_.numel
  bcast_S_S100352 : S_.BroadcastsInDim S100352 (![] : Fin 0 → Fin S100352.rank)
  bcast_S100352_S100352x1_0 : S100352.BroadcastsInDim S100352x1 (![0] : Fin 1 → Fin S100352x1.rank)
  bcast_S100352x1_S100352x96_0_1 : S100352x1.BroadcastsInDim S100352x96 (![0, 1] : Fin 2 → Fin S100352x96.rank)
  bcast_S_S100352x96 : S_.BroadcastsInDim S100352x96 (![] : Fin 0 → Fin S100352x96.rank)
  reducesTo_S100352x96_S96_d0 : S100352x96.ReducesTo [0] S96
  bcast_S_S96 : S_.BroadcastsInDim S96 (![] : Fin 0 → Fin S96.rank)
  bcast_S96_S1x96_1 : S96.BroadcastsInDim S1x96 (![1] : Fin 1 → Fin S1x96.rank)
  bcast_S1x96_S100352x96_0_1 : S1x96.BroadcastsInDim S100352x96 (![0, 1] : Fin 2 → Fin S100352x96.rank)
  transposes_S100352x96_S96x100352_1_0 : S100352x96.Transposes [1, 0] S96x100352
  bcast_S_S100352x1 : S_.BroadcastsInDim S100352x1 (![] : Fin 0 → Fin S100352x1.rank)
  shapeCasts_S100352x96_S2x224x224x96 : S100352x96.ShapeCasts S2x224x224x96
  transposes_S2x224x224x96_S2x96x224x224_0_3_1_2 : S2x224x224x96.Transposes [0, 3, 1, 2] S2x96x224x224
  dot_S100352x96_S96x96_S100352x96_1_0_0_1_n_n_wf : DotDims.WF S100352x96 S96x96 S100352x96 [1] [0] [0] [1] [] []
  dot_S96x100352_S100352x96_S96x96_1_0_0_1_n_n_wf : DotDims.WF S96x100352 S100352x96 S96x96 [1] [0] [0] [1] [] []

variable [Facts₀]

def dot_S100352x96_S96x96_S100352x96_1_0_0_1_n_n : DotDims S100352x96 S96x96 S100352x96 where
  lhsContracting := [1]
  rhsContracting := [0]
  lhsNonContracting := [0]
  rhsNonContracting := [1]
  lhsBatch := []
  rhsBatch := []
  wf := dot_S100352x96_S96x96_S100352x96_1_0_0_1_n_n_wf
def dot_S96x100352_S100352x96_S96x96_1_0_0_1_n_n : DotDims S96x100352 S100352x96 S96x96 where
  lhsContracting := [1]
  rhsContracting := [0]
  lhsNonContracting := [0]
  rhsNonContracting := [1]
  lhsBatch := []
  rhsBatch := []
  wf := dot_S96x100352_S100352x96_S96x96_1_0_0_1_n_n_wf

class Facts : Prop extends Facts₀ where

variable [Facts]
-- ==== Proof.KBReduceDefs.lean ====
/-
  The first kernel (the running key-softmax statistics over the column tiles, folded at the last tile into one
  96 x 96 matrix) as one region: the branch conditions over the grid, where its output window is idle, the
  staging and scratch buffers.
-/
import proofs.«154793_g50139448213692_cont_sun_m_1014_11_alg».proof.Proof.Gen.Kernel.Launch
import proofs.«154793_g50139448213692_cont_sun_m_1014_11_alg».proof.Proof.Gen.Kernel.Skeleton
import proofs.«154793_g50139448213692_cont_sun_m_1014_11_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, fetched there or not. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, fetched there or not. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, fetched there or not. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Region

/-- The first tile: both grid coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcondFirst : ∀ t : Fin cfg0.N, condFirst (grid0.coords t) ↔ t.val % 28 = 0 :=
  (by decide +kernel : ∀ t : Fin grid0.N, condFirst (grid0.coords t) ↔ t.val % 28 = 0)

/-- The last tile. -/
abbrev condLast (i : grid0.Coords) : Prop := k0_cond2 i = 1#1
theorem hcondLast : ∀ t : Fin cfg0.N, condLast (grid0.coords t) ↔ t.val % 28 = 27 :=
  (by decide +kernel : ∀ t : Fin grid0.N, condLast (grid0.coords t) ↔ t.val % 28 = 27)

/-- The inputs are never idle. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- The output window is idle, and not written back, at every tile but the last. -/
theorem idleAt_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel
theorem liveAt_4 : ∀ t : Fin cfg0.N, condLast (grid0.coords t) → cfg0.idle 4 (grid0.coords t) = false := by decide +kernel

/-- The staging memrefs at point `t`, as the pipeline passes them. -/
abbrev ms_0 (t : Fin cfg0.N) : Memref sig .tc .vmem S1x96x3584 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S96x96 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S96x96 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S96x96 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S96x96 .bf16 := win0_4.stage (cfg0.slots t 4)
abbrev hs_4 (t : Fin cfg0.N) : (ms_4 t).IsWhole := hstage0_4 ((cfg0.slots t 4).cast nbuf0_4)
/-- The two scratch buffers carried between tiles: the running sum (a column) and the running context. -/
abbrev scS : Memref sig .tc .vmem S96x1 .f32 := Memref.whole cc0_scratch0
abbrev scG : Memref sig .tc .vmem S96x96 .f32 := Memref.whole cc0_scratch1
abbrev VS : View sig .tc .vmem S96x1 .f32 := scS.view
abbrev VG : View sig .tc .vmem S96x96 .f32 := scG.view
/-- One staging buffer of the output window, through which its contents are stated. -/
abbrev VO : View sig .tc .vmem S96x96 .bf16 := (Memref.whole cc0_stg4_0 : Memref sig .tc .vmem S96x96 .bf16).view

/-- The other scoped buffers of the core (the second kernel's staging buffers), each at some contents. -/
def OtherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's invariant before the first tile, with the two scratch buffers as memrefs owned at some contents. -/
theorem PhiA_eq (c : Dev nD) :
    (Pipeline.ΦA spec0 c : sProp 𝕄)
      = iprop(iprop((∃ d, owns (c : Thread nD τ) scS fullShare d) ∗ (∃ d, owns (c : Thread nD τ) scG fullShare d) ∗ OtherScoped (F := F) c) ∗ (∃ r, prngReg c r)) := by
  unfold Pipeline.ΦA OtherScoped; rw [scopedRest0_eq]; simp only [scS, scG, owns_whole]; try rfl

end Cert.Kernel.Reduce

end
-- ==== Proof.KBReduceA.lean ====
/- The first kernel's body at the first tile: the accumulators are reset, then added to. -/
import proofs.«154793_g50139448213692_cont_sun_m_1014_11_alg».proof.Proof.KBReduceDefs

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two scratch buffers at the first tile, as pieces (last first), with the proof that on
    whole staging buffers the body runs to the continuation holding the inputs as they were and the scratch buffers with
    those pieces written. -/
noncomputable def kernelRun_A (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : condFirst i) (hc1 : ¬condLast i)
    (x0 : Vec F S1x96x3584 .f32) (x1 : Vec F S96x96 .bf16) :
    Σ' (LS : List (View.Piece (Elt F) S96x1 .f32)), { LG : List (View.Piece (Elt F) S96x96 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LG)) -∗ K ⟨⟩))
          ⊢ wp frame (wpE (defs₀ (F := F)) Variants.none c none) E (cc0__reduce_kernel i arg2 harg2 arg3 harg3 arg4 harg4 arg5 harg5 arg6 harg6 arg7 harg7 arg8 harg8) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.Kernel.Reduce

end
-- ==== Proof.KBReduceB.lean ====
/- The first kernel's body at a middle tile: the accumulators are added to. -/
import proofs.«154793_g50139448213692_cont_sun_m_1014_11_alg».proof.Proof.KBReduceA

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two scratch buffers at a tile that is neither first nor last, as pieces, with the
    proof that the body runs to them from the scratch buffers at what the tile before left. -/
noncomputable def kernelRun_B (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : ¬condLast i)
    (x0 : Vec F S1x96x3584 .f32) (x1 : Vec F S96x96 .bf16) (xs0 : Vec F S96x1 .f32) (xs1 : Vec F S96x96 .f32) :
    Σ' (LS : List (View.Piece (Elt F) S96x1 .f32)), { LG : List (View.Piece (Elt F) S96x96 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LG)) -∗ K ⟨⟩))
          ⊢ wp frame (wpE (defs₀ (F := F)) Variants.none c none) E (cc0__reduce_kernel i arg2 harg2 arg3 harg3 arg4 harg4 arg5 harg5 arg6 harg6 arg7 harg7 arg8 harg8) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.Kernel.Reduce

end
-- ==== Proof.KBReduceC.lean ====
/- The first kernel's body at the last tile: the accumulators are added to, then folded into the output matrix. -/
import proofs.«154793_g50139448213692_cont_sun_m_1014_11_alg».proof.Proof.KBReduceB

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the output buffer and the two scratch buffers at the last tile, as pieces, with the
    proof that the body runs to them from the scratch buffers at what the tile before left. -/
noncomputable def kernelRun_C (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i)
    (x0 : Vec F S1x96x3584 .f32) (x1 : Vec F S96x96 .bf16) (x2 x3 : Vec F S96x96 .f32) (xs0 : Vec F S96x1 .f32) (xs1 : Vec F S96x96 .f32) :
    Σ' (LO : List (View.Piece (Elt F) S96x96 .bf16)) (LS : List (View.Piece (Elt F) S96x1 .f32)), { LG : List (View.Piece (Elt F) S96x96 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LG)) -∗ K ⟨⟩))
          ⊢ wp frame (wpE (defs₀ (F := F)) Variants.none c none) E (cc0__reduce_kernel i arg2 harg2 arg3 harg3 arg4 harg4 arg5 harg5 arg6 harg6 arg7 harg7 arg8 harg8) K } := by
  refine ⟨?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HS0]
    · iexists _; iexact HS0
    iexists _; iexact HS1

end Cert.Kernel.Reduce

end
-- ==== Proof.KBReduce.lean ====
/-
  The first kernel as one region: what its stores leave at each kind of tile, the running statistics after each tile by
  recursion on the tile, the invariant that carries them between tiles, the region's data and the body's obligation.
-/
import proofs.«154793_g50139448213692_cont_sun_m_1014_11_alg».proof.Proof.KBReduceC

set_option maxRecDepth 16384

noncomputable section

namespace Cert.Kernel.Reduce

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the running-sum scratch cover it. -/
theorem cover_A_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : condFirst i) (hc1 : ¬condLast i) (x0 : Vec F S1x96x3584 .f32) (x1 : Vec F S96x96 .bf16) (y : S96x1.Idx) :
    ∃ pc ∈ (kernelRun_A c i arg2 harg2 arg3 harg3 arg4 harg4 arg5 harg5 arg6 harg6 arg7 harg7 arg8 harg8 hc0 hc1 x0 x1).1, y ∈ pc.1.set :=
  View.cover_of_tiledL (kernelRun_A c i arg2 harg2 arg3 harg3 arg4 harg4 arg5 harg5 arg6 harg6 arg7 harg7 arg8 harg8 hc0 hc1 x0 x1).1 S96x1.size (by sl_kernel_rfl) y

/-- What case A leaves in the running-sum scratch: its pieces read back. -/
def out_A_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : condFirst i) (hc1 : ¬condLast i) (x0 : Vec F S1x96x3584 .f32) (x1 : Vec F S96x96 .bf16) : Vec F S96x1 .f32 :=
  VS.read (Elt F) (VS.writes (Elt F) VS.junk (kernelRun_A c i arg2 harg2 arg3 harg3 arg4 harg4 arg5 harg5 arg6 harg6 arg7 harg7 arg8 harg8 hc0 hc1 x0 x1).1)

/-- Case A's pieces for the running-context scratch cover it. -/
theorem cover_A_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : condFirst i) (hc1 : ¬condLast i) (x0 : Vec F S1x96x3584 .f32) (x1 : Vec F S96x96 .bf16) (y : S96x96.Idx) :
    ∃ pc ∈ (kernelRun_A c i arg2 harg2 arg3 harg3 arg4 harg4 arg5 harg5 arg6 harg6 arg7 harg7 arg8 harg8 hc0 hc1 x0 x1).2.1, y ∈ pc.1.set :=
  View.cover_of_tiledL (kernelRun_A c i arg2 harg2 arg3 harg3 arg4 harg4 arg5 harg5 arg6 harg6 arg7 harg7 arg8 harg8 hc0 hc1 x0 x1).2.1 S96x96.size (by sl_kernel_rfl) y

/-- What case A leaves in the running-context scratch: its pieces read back. -/
def out_A_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : condFirst i) (hc1 : ¬condLast i) (x0 : Vec F S1x96x3584 .f32) (x1 : Vec F S96x96 .bf16) : Vec F S96x96 .f32 :=
  VG.read (Elt F) (VG.writes (Elt F) VG.junk (kernelRun_A c i arg2 harg2 arg3 harg3 arg4 harg4 arg5 harg5 arg6 harg6 arg7 harg7 arg8 harg8 hc0 hc1 x0 x1).2.1)

/-- Case B's pieces for the running-sum scratch cover it. -/
theorem cover_B_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : ¬condLast i) (x0 : Vec F S1x96x3584 .f32) (x1 : Vec F S96x96 .bf16) (xs0 : Vec F S96x1 .f32) (xs1 : Vec F S96x96 .f32) (y : S96x1.Idx) :
    ∃ pc ∈ (kernelRun_B c i arg2 harg2 arg3 harg3 arg4 harg4 arg5 harg5 arg6 harg6 arg7 harg7 arg8 harg8 hc0 hc1 x0 x1 xs0 xs1).1, y ∈ pc.1.set :=
  View.cover_of_tiledL (kernelRun_B c i arg2 harg2 arg3 harg3 arg4 harg4 arg5 harg5 arg6 harg6 arg7 harg7 arg8 harg8 hc0 hc1 x0 x1 xs0 xs1).1 S96x1.size (by sl_kernel_rfl) y

/-- What case B leaves in the running-sum scratch: its pieces read back. -/
def out_B_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : ¬condLast i) (x0 : Vec F S1x96x3584 .f32) (x1 : Vec F S96x96 .bf16) (xs0 : Vec F S96x1 .f32) (xs1 : Vec F S96x96 .f32) : Vec F S96x1 .f32 :=
  VS.read (Elt F) (VS.writes (Elt F) VS.junk (kernelRun_B c i arg2 harg2 arg3 harg3 arg4 harg4 arg5 harg5 arg6 harg6 arg7 harg7 arg8 harg8 hc0 hc1 x0 x1 xs0 xs1).1)

/-- Case B's pieces for the running-context scratch cover it. -/
theorem cover_B_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : ¬condLast i) (x0 : Vec F S1x96x3584 .f32) (x1 : Vec F S96x96 .bf16) (xs0 : Vec F S96x1 .f32) (xs1 : Vec F S96x96 .f32) (y : S96x96.Idx) :
    ∃ pc ∈ (kernelRun_B c i arg2 harg2 arg3 harg3 arg4 harg4 arg5 harg5 arg6 harg6 arg7 harg7 arg8 harg8 hc0 hc1 x0 x1 xs0 xs1).2.1, y ∈ pc.1.set :=
  View.cover_of_tiledL (kernelRun_B c i arg2 harg2 arg3 harg3 arg4 harg4 arg5 harg5 arg6 harg6 arg7 harg7 arg8 harg8 hc0 hc1 x0 x1 xs0 xs1).2.1 S96x96.size (by sl_kernel_rfl) y

/-- What case B leaves in the running-context scratch: its pieces read back. -/
def out_B_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : ¬condLast i) (x0 : Vec F S1x96x3584 .f32) (x1 : Vec F S96x96 .bf16) (xs0 : Vec F S96x1 .f32) (xs1 : Vec F S96x96 .f32) : Vec F S96x96 .f32 :=
  VG.read (Elt F) (VG.writes (Elt F) VG.junk (kernelRun_B c i arg2 harg2 arg3 harg3 arg4 harg4 arg5 harg5 arg6 harg6 arg7 harg7 arg8 harg8 hc0 hc1 x0 x1 xs0 xs1).2.1)

/-- Case C's pieces for the output buffer cover it. -/
theorem cover_C_O (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) (y : S96x96.Idx) :
    ∃ pc ∈ (kernelRun_C c i arg2 harg2 arg3 harg3 arg4 harg4 arg5 harg5 arg6 harg6 arg7 harg7 arg8 harg8 hc0 hc1 x0 x1 x2 x3 xs0 xs1).1, y ∈ pc.1.set :=
  View.cover_of_tiledL (kernelRun_C c i arg2 harg2 arg3 harg3 arg4 harg4 arg5 harg5 arg6 harg6 arg7 harg7 arg8 harg8 hc0 hc1 x0 x1 x2 x3 xs0 xs1).1 S96x96.size (by sl_kernel_rfl) y

/-- What case C leaves in the output buffer: its pieces read back. -/
def out_C_O (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) : Vec F S96x96 .bf16 :=
  VO.read (Elt F) (VO.writes (Elt F) VO.junk (kernelRun_C c i arg2 harg2 arg3 harg3 arg4 harg4 arg5 harg5 arg6 harg6 arg7 harg7 arg8 harg8 hc0 hc1 x0 x1 x2 x3 xs0 xs1).1)

/-- Case C's pieces for the running-sum scratch cover it. -/
theorem cover_C_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) (y : S96x1.Idx) :
    ∃ pc ∈ (kernelRun_C c i arg2 harg2 arg3 harg3 arg4 harg4 arg5 harg5 arg6 harg6 arg7 harg7 arg8 harg8 hc0 hc1 x0 x1 x2 x3 xs0 xs1).2.1, y ∈ pc.1.set :=
  View.cover_of_tiledL (kernelRun_C c i arg2 harg2 arg3 harg3 arg4 harg4 arg5 harg5 arg6 harg6 arg7 harg7 arg8 harg8 hc0 hc1 x0 x1 x2 x3 xs0 xs1).2.1 S96x1.size (by sl_kernel_rfl) y

/-- What case C leaves in the running-sum scratch: its pieces read back. -/
def out_C_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) : Vec F S96x1 .f32 :=
  VS.read (Elt F) (VS.writes (Elt F) VS.junk (kernelRun_C c i arg2 harg2 arg3 harg3 arg4 harg4 arg5 harg5 arg6 harg6 arg7 harg7 arg8 harg8 hc0 hc1 x0 x1 x2 x3 xs0 xs1).2.1)

/-- Case C's pieces for the running-context scratch cover it. -/
theorem cover_C_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) (y : S96x96.Idx) :
    ∃ pc ∈ (kernelRun_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun_C c i arg2 harg2 arg3 harg3 arg4 harg4 arg5 harg5 arg6 harg6 arg7 harg7 arg8 harg8 hc0 hc1 x0 x1 x2 x3 xs0 xs1).2.2.1 S96x96.size (by sl_kernel_rfl) y

/-- What case C leaves in the running-context scratch: its pieces read back. -/
def out_C_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) : Vec F S96x96 .f32 :=
  VG.read (Elt F) (VG.writes (Elt F) VG.junk (kernelRun_C c i arg2 harg2 arg3 harg3 arg4 harg4 arg5 harg5 arg6 harg6 arg7 harg7 arg8 harg8 hc0 hc1 x0 x1 x2 x3 xs0 xs1).2.2.1)

section Region
variable (V : (c : Dev nD) → (b : Ref sig .tc) → Buf (Elt F) ((c : Thread nD τ).loc b))

/-- THE ACCUMULATION: what the two scratch buffers hold after the body at tile `n` — at the first tile the reset-and-add
    case, afterwards the add case (at the last tile the one that also folds) over what the tile before left. -/
def accAt (c : Dev nD) : (n : ℕ) → n < cfg0.N → Vec F S96x1 .f32 × Vec F S96x96 .f32
  | 0, hn =>
    have h0 : (⟨0, hn⟩ : Fin cfg0.N).val % 28 = 0 := Nat.zero_mod _
    have h1 : ¬(⟨0, hn⟩ : Fin cfg0.N).val % 28 = 27 := by simp
    (out_A_S c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scS (Memref.isWhole_whole _) scG (Memref.isWhole_whole _) ((hcondFirst ⟨0, hn⟩).mpr h0) (fun h => h1 ((hcondLast ⟨0, hn⟩).mp h)) (iblk V c 0 ⟨0, hn⟩) (iblk V c 1 ⟨0, hn⟩),
     out_A_G c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scS (Memref.isWhole_whole _) scG (Memref.isWhole_whole _) ((hcondFirst ⟨0, hn⟩).mpr h0) (fun h => h1 ((hcondLast ⟨0, hn⟩).mp h)) (iblk V c 0 ⟨0, hn⟩) (iblk V c 1 ⟨0, hn⟩))
  | n + 1, hn =>
    have h0 : ¬(⟨n + 1, hn⟩ : Fin cfg0.N).val % 28 = 0 := by
      have hN : n + 1 < 28 := lt_of_lt_of_eq hn (show cfg0.N = 28 from N_0); show ¬(n + 1) % 28 = 0; omega
    if h1 : (⟨n + 1, hn⟩ : Fin cfg0.N).val % 28 = 27 then
      (out_C_S c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scS (Memref.isWhole_whole _) scG (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (accAt c n (Nat.lt_of_succ_lt hn)).1 (accAt c n (Nat.lt_of_succ_lt hn)).2,
       out_C_G c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scS (Memref.isWhole_whole _) scG (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (accAt c n (Nat.lt_of_succ_lt hn)).1 (accAt c n (Nat.lt_of_succ_lt hn)).2)
    else
      (out_B_S c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scS (Memref.isWhole_whole _) scG (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (accAt c n (Nat.lt_of_succ_lt hn)).1 (accAt c n (Nat.lt_of_succ_lt hn)).2,
       out_B_G c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scS (Memref.isWhole_whole _) scG (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (accAt c n (Nat.lt_of_succ_lt hn)).1 (accAt c n (Nat.lt_of_succ_lt hn)).2)

/-- What the output buffer holds after the body at tile `n`: at the last tile the folded matrix, over what the tile before
    left in the scratch buffers; elsewhere nothing is stored there (a placeholder no one reads). -/
def outAt (c : Dev nD) : (n : ℕ) → n < cfg0.N → Vec F S96x96 .bf16
  | 0, _ => VO.read (Elt F) VO.junk
  | n + 1, hn =>
    have h0 : ¬(⟨n + 1, hn⟩ : Fin cfg0.N).val % 28 = 0 := by
      have hN : n + 1 < 28 := lt_of_lt_of_eq hn (show cfg0.N = 28 from N_0); show ¬(n + 1) % 28 = 0; omega
    if h1 : (⟨n + 1, hn⟩ : Fin cfg0.N).val % 28 = 27 then
      out_C_O c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scS (Memref.isWhole_whole _) scG (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (accAt V c n (Nat.lt_of_succ_lt hn)).1 (accAt V c n (Nat.lt_of_succ_lt hn)).2
    else VO.read (Elt F) VO.junk

/-- `accAt` at the first tile. -/
theorem accAt_A (c : Dev nD) (t : Fin cfg0.N) (h0 : t.val % 28 = 0) (h1 : ¬t.val % 28 = 27) :
    accAt V c t.val t.isLt = (out_A_S c (grid0.coords t) (ms_0 t) (hs_0 t) (ms_1 t) (hs_1 t) (ms_2 t) (hs_2 t) (ms_3 t) (hs_3 t) (ms_4 t) (hs_4 t) scS (Memref.isWhole_whole _) scG (Memref.isWhole_whole _) ((hcondFirst t).mpr h0) (fun h => h1 ((hcondLast t).mp h)) (iblk V c 0 t) (iblk V c 1 t),
      out_A_G c (grid0.coords t) (ms_0 t) (hs_0 t) (ms_1 t) (hs_1 t) (ms_2 t) (hs_2 t) (ms_3 t) (hs_3 t) (ms_4 t) (hs_4 t) scS (Memref.isWhole_whole _) scG (Memref.isWhole_whole _) ((hcondFirst t).mpr h0) (fun h => h1 ((hcondLast t).mp h)) (iblk V c 0 t) (iblk V c 1 t)) := by
  obtain ⟨n, hn⟩ := t
  cases n with
  | zero => rfl
  | succ n => exfalso; have hN : n + 1 < 28 := lt_of_lt_of_eq hn (show cfg0.N = 28 from N_0); (try dsimp only at h0); omega

/-- `accAt` at a middle tile: over what the tile before left. -/
theorem accAt_B (c : Dev nD) (t : Fin cfg0.N) (h0 : ¬t.val % 28 = 0) (h1 : ¬t.val % 28 = 27) :
    accAt V c t.val t.isLt = (out_B_S c (grid0.coords t) (ms_0 t) (hs_0 t) (ms_1 t) (hs_1 t) (ms_2 t) (hs_2 t) (ms_3 t) (hs_3 t) (ms_4 t) (hs_4 t) scS (Memref.isWhole_whole _) scG (Memref.isWhole_whole _) (fun h => h0 ((hcondFirst t).mp h)) (fun h => h1 ((hcondLast t).mp h)) (iblk V c 0 t) (iblk V c 1 t) (accAt V c (t.val - 1) (Nat.lt_of_le_of_lt (Nat.sub_le _ _) t.isLt)).1 (accAt V c (t.val - 1) (Nat.lt_of_le_of_lt (Nat.sub_le _ _) t.isLt)).2,
      out_B_G c (grid0.coords t) (ms_0 t) (hs_0 t) (ms_1 t) (hs_1 t) (ms_2 t) (hs_2 t) (ms_3 t) (hs_3 t) (ms_4 t) (hs_4 t) scS (Memref.isWhole_whole _) scG (Memref.isWhole_whole _) (fun h => h0 ((hcondFirst t).mp h)) (fun h => h1 ((hcondLast t).mp h)) (iblk V c 0 t) (iblk V c 1 t) (accAt V c (t.val - 1) (Nat.lt_of_le_of_lt (Nat.sub_le _ _) t.isLt)).1 (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `accAt` at the last tile: over what the tile before left. -/
theorem accAt_C (c : Dev nD) (t : Fin cfg0.N) (h0 : ¬t.val % 28 = 0) (h1 : t.val % 28 = 27) :
    accAt V c t.val t.isLt = (out_C_S c (grid0.coords t) (ms_0 t) (hs_0 t) (ms_1 t) (hs_1 t) (ms_2 t) (hs_2 t) (ms_3 t) (hs_3 t) (ms_4 t) (hs_4 t) scS (Memref.isWhole_whole _) scG (Memref.isWhole_whole _) (fun h => h0 ((hcondFirst t).mp h)) ((hcondLast t).mpr h1) (iblk V c 0 t) (iblk V c 1 t) (iblk V c 2 t) (iblk V c 3 t) (accAt V c (t.val - 1) (Nat.lt_of_le_of_lt (Nat.sub_le _ _) t.isLt)).1 (accAt V c (t.val - 1) (Nat.lt_of_le_of_lt (Nat.sub_le _ _) t.isLt)).2,
      out_C_G c (grid0.coords t) (ms_0 t) (hs_0 t) (ms_1 t) (hs_1 t) (ms_2 t) (hs_2 t) (ms_3 t) (hs_3 t) (ms_4 t) (hs_4 t) scS (Memref.isWhole_whole _) scG (Memref.isWhole_whole _) (fun h => h0 ((hcondFirst t).mp h)) ((hcondLast t).mpr h1) (iblk V c 0 t) (iblk V c 1 t) (iblk V c 2 t) (iblk V c 3 t) (accAt V c (t.val - 1) (Nat.lt_of_le_of_lt (Nat.sub_le _ _) t.isLt)).1 (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- `outAt` at the last tile. -/
theorem outAt_C (c : Dev nD) (t : Fin cfg0.N) (h0 : ¬t.val % 28 = 0) (h1 : t.val % 28 = 27) :
    outAt V c t.val t.isLt = out_C_O c (grid0.coords t) (ms_0 t) (hs_0 t) (ms_1 t) (hs_1 t) (ms_2 t) (hs_2 t) (ms_3 t) (hs_3 t) (ms_4 t) (hs_4 t) scS (Memref.isWhole_whole _) scG (Memref.isWhole_whole _) (fun h => h0 ((hcondFirst t).mp h)) ((hcondLast t).mpr h1) (iblk V c 0 t) (iblk V c 1 t) (iblk V c 2 t) (iblk V c 3 t) (accAt V c (t.val - 1) (Nat.lt_of_le_of_lt (Nat.sub_le _ _) t.isLt)).1 (accAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_pos h1).trans rfl

/-- The invariant before tile `n`: before the first anything may be in the scratch buffers; afterwards they hold what the
    tile before left. The other scoped buffers and the generator register ride along. -/
def PhiS (c : Dev nD) : (n : ℕ) → n ≤ cfg0.N → sProp 𝕄
  | 0, _ => Pipeline.ΦA spec0 c
  | n + 1, hn => iprop(iprop(owns (c : Thread nD τ) scS fullShare ((accAt V c n hn).1) ∗ owns (c : Thread nD τ) scG fullShare ((accAt V c n hn).2) ∗ OtherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scS fullShare ((accAt V c n hn).1) ∗ owns (c : Thread nD τ) scG fullShare ((accAt V c n hn).2) ∗ OtherScoped (F := F) c) ∗ (∃ r, prngReg c r)) := rfl

theorem PhiS_pos (c : Dev nD) (n : ℕ) (h : n ≤ cfg0.N) (hz : n ≠ 0) :
    PhiS V c n h = iprop(iprop(owns (c : Thread nD τ) scS fullShare ((accAt V c (n - 1) (by omega)).1) ∗ owns (c : Thread nD τ) scG fullShare ((accAt V c (n - 1) (by omega)).2) ∗ OtherScoped (F := F) c) ∗ (∃ r, prngReg c r)) := by
  cases n with
  | zero => exact absurd rfl hz
  | succ n => rfl

/-- The region's data on core `c`: the arrays as the region finds them; after the body each input's buffer at its block
    and the output's at `outAt`; the invariant `PhiS`; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outAt V c t.val t.isLt := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-- What the body is called with at tile `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
/-- The body at any tile: the inputs' buffers hold their blocks; the tile's position says which case it is in; the invariant
    hands the body the scratch buffers at what the tile before left (at anything at the first tile) and takes them back at
    this tile's contents; the output buffer is stored into at the last tile only. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 28 := lt_of_lt_of_eq t.isLt (show cfg0.N = 28 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  by_cases h0 : t.val % 28 = 0
  · have h1 : ¬t.val % 28 = 27 := by omega
    have hz : t.val = 0 := by omega
    rw [Dat.leavesExact_idle (dat V c) 4 t (idleAt_4 t (fun h => h1 ((hcondLast t).mp h))) (noFlush_4 t (fun h => h1 ((hcondLast t).mp h)))]
    rw [accAt_A V c t h0 h1]
    unfold out_A_S out_A_G; (try dsimp only)
    rw [PhiS_castSucc V c t, PhiS_zero V c _ _ hz, PhiA_eq]
    iintro ⟨⟨⟨HS0, HS1, Hoth⟩, Hg⟩, Ho, ⟨%d0, H0⟩, ⟨%d1, H1⟩, ⟨%d2, H2⟩, ⟨%d3, H3⟩, ⟨%d4, H4⟩⟩
    iapply ((kernelRun_A c (grid0.coords t) _ _ _ _ _ _ _ _ _ _ _ _ _ _ ((hcondFirst t).mpr h0) (fun h => h1 ((hcondLast t).mp h)) (iblk V c 0 t) (iblk V c 1 t)).2.2 Set.univ _)
    isplitl [H0]; · iexact H0
    isplitl [H1]; · iexact H1
    isplitl [HS0]; · iexact HS0
    isplitl [HS1]; · iexact HS1
    iintro ⟨H0, H1, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (cover_A_S c _ _ _ _ _ _ _ _ _ _ _ _ _ _ _ _ _ _ _)
        isplitl [HS1]
        · unfold owns; iexists _; isplitr
          swap; · iexact HS1
          ipureintro; exact View.read_writes_of_cover _ _ _ _ _ (cover_A_G c _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 28 = 27
    · rw [show (dat V c).leavesExact 4 t = owns (c : Thread nD τ) (ms_4 t) fullShare ((dat V c).after 4 t) from by
        unfold Dat.leavesExact; rw [liveAt_4 t ((hcondLast t).mpr h1)], after_4]
      rw [accAt_C V c t h0 h1, outAt_C V c t h0 h1]
      unfold out_C_O out_C_S out_C_G; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩⟩
      iapply ((kernelRun_C c (grid0.coords t) _ _ _ _ _ _ _ _ _ _ _ _ _ _ (fun h => h0 ((hcondFirst t).mp h)) ((hcondLast t).mpr h1) (iblk V c 0 t) (iblk V c 1 t) (iblk V c 2 t) (iblk V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (cover_C_S c _ _ _ _ _ _ _ _ _ _ _ _ _ _ _ _ _ _ _ _ _ _ _)
          isplitl [HS1]
          · unfold owns; iexists _; isplitr
            swap; · iexact HS1
            ipureintro; exact View.read_writes_of_cover _ _ _ _ _ (cover_C_G c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_C_O c _ _ _ _ _ _ _ _ _ _ _ _ _ _ _ _ _ _ _ _ _ _ _)
    · rw [Dat.leavesExact_idle (dat V c) 4 t (idleAt_4 t (fun h => h1 ((hcondLast t).mp h))) (noFlush_4 t (fun h => h1 ((hcondLast t).mp h)))]
      rw [accAt_B V c t h0 h1]
      unfold out_B_S out_B_G; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩⟩
      iapply ((kernelRun_B c (grid0.coords t) _ _ _ _ _ _ _ _ _ _ _ _ _ _ (fun h => h0 ((hcondFirst t).mp h)) (fun h => h1 ((hcondLast t).mp h)) (iblk V c 0 t) (iblk V c 1 t) _ _).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (cover_B_S c _ _ _ _ _ _ _ _ _ _ _ _ _ _ _ _ _ _ _ _ _)
          isplitl [HS1]
          · unfold owns; iexists _; isplitr
            swap; · iexact HS1
            ipureintro; exact View.read_writes_of_cover _ _ _ _ _ (cover_B_G c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every tile. -/
theorem body_obligation (c : Dev nD) : BodyObligation (dat (F := F) V c) (defs₀ (F := F)) Variants.none () Set.univ := fun t => by
  rw [bigSep_W0, bigSep_W0]
  exact sound_body V c t

/-- What the launch hands the region is the invariant before the first tile. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last tile the invariant gives the scoped buffers back, their contents forgotten. -/
theorem hout (c : Dev nD) : (dat V c).Φ (Fin.last cfg0.N) ⊢ Pipeline.ΦA spec0 c := by
  have ht : (Fin.last cfg0.N).val ≠ 0 := by rw [Fin.val_last]; have : cfg0.N = 28 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Region

end Cert.Kernel.Reduce

end
-- ==== Proof.KBApply.lean ====
/-
  The second kernel (attention applied, layer norm, mask) as one region: what each grid point leaves in the
  output block as a function of the input blocks, the body's run, and the region's data.
-/
import proofs.«154793_g50139448213692_cont_sun_m_1014_11_alg».proof.Proof.Gen.Kernel.Launch
import proofs.«154793_g50139448213692_cont_sun_m_1014_11_alg».proof.Proof.Gen.Kernel.Skeleton
import proofs.«154793_g50139448213692_cont_sun_m_1014_11_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Apply

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, fetched there or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, fetched there or not. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, fetched there or not. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's buffer holds its block at every point, fetched there or not. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev rX : Rect S1x96x3584 := Rect.unit (s := S1x96x3584) ![0, 0, 0] S1x96x3584.size inb_S1x96x3584_S1x96x3584_0_0_0
abbrev rW : Rect S96x96 := Rect.unit (s := S96x96) ![0, 0] S96x96.size inb_S96x96_S96x96_0_0
abbrev rC : Rect S96x1 := Rect.unit (s := S96x1) ![0, 0] S96x1.size inb_S96x1_S96x1_0_0

/-- The output block after the body, from the input blocks: the one store's payload over its rectangle. -/
def outBlk (x0 : Vec F S1x96x3584 .f32) (x1 x2 : Vec F S96x96 .bf16) (x3 x4 : Vec F S96x1 .f32) : Vec F S1x96x3584 .f32 :=
  View.canon [⟨rX, k1_pay1 (k1_pay4 (View.ld x0 rX)) (k1_pay5 (View.ld x0 rX) (View.ld x1 rW) (View.ld x2 rW))
    (k1_pay8 (View.ld x0 rX) (View.ld x1 rW) (View.ld x2 rW)) (k1_pay9 (View.ld x0 rX) (View.ld x1 rW) (View.ld x2 rW))
    (View.ld x3 rC) (View.ld x4 rC)⟩]

theorem cover (p0 : Vec F S1x96x3584 .f32) (y : S1x96x3584.Idx) :
    ∃ pc ∈ ([⟨rX, p0⟩] : List (View.Piece (Elt F) S1x96x3584 .f32)), y ∈ pc.1.set :=
  View.cover_of_tiled [⟨rX, p0⟩] S1x96x3584.size (by rfl) y

set_option maxHeartbeats 4000000 in
/-- The body on whole staging buffers: the inputs at their contents and the output at anything run to the inputs as
    they were and the output at `outBlk` of the inputs. -/
theorem sound_kernel (c : Dev nD) (E : Set ℕ) (i : grid1.Coords)
    (arg2 : Memref sig .tc .vmem S1x96x3584 .f32) (harg2 : arg2.IsWhole) (arg3 : Memref sig .tc .vmem S96x96 .bf16) (harg3 : arg3.IsWhole)
    (arg4 : Memref sig .tc .vmem S96x96 .bf16) (harg4 : arg4.IsWhole) (arg5 : Memref sig .tc .vmem S96x1 .f32) (harg5 : arg5.IsWhole)
    (arg6 : Memref sig .tc .vmem S96x1 .f32) (harg6 : arg6.IsWhole) (arg7 : Memref sig .tc .vmem S1x96x3584 .f32) (harg7 : arg7.IsWhole)
    (x0 : Vec F S1x96x3584 .f32) (x1 x2 : Vec F S96x96 .bf16) (x3 x4 : Vec F S96x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk x0 x1 x2 x3 x4)) -∗ K ⟨⟩))
      ⊢ wp frame (wpE (defs₀ (F := F)) Variants.none c none) E (cc1__apply_kernel i arg2 harg2 arg3 harg3 arg4 harg4 arg5 harg5 arg6 harg6 arg7 harg7) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The region's data on core `c`: the arrays as the region finds them; after the body each input's buffer at its
    block and the output's at `outBlk` of the input blocks; nothing carried between points; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlk (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = outBlk (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so `sound_kernel` applies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Region

end Cert.Kernel.Apply

end
-- ==== Proof.KBRun.lean ====
/-
  The whole program as a chain of four segments — the host operations that lay the operands out, the first kernel, the
  second kernel, the final reshape — and its run: every fair execution ends, and every unscoped buffer then holds what
  the chain computes (`W4`).
-/
import proofs.«154793_g50139448213692_cont_sun_m_1014_11_alg».proof.Proof.KBReduce
import proofs.«154793_g50139448213692_cont_sun_m_1014_11_alg».proof.Proof.KBApply
import proofs.«154793_g50139448213692_cont_sun_m_1014_11_alg».proof.Proof.Gen.Kernel.Regions
import Idealize.ShloMosaic.Lib.Pipeline.RegionsLoop

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first host stretch (the first kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (Reduce.dat (V1 m) c).arrAt w cfg0.N
theorem W2_arr (c : Dev nD) (w : Fin cfg0.W) :
    W2 m c (Proc.devRef .tc (Pipeline.arrRef spec0 w)) = (Reduce.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Reduce.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second kernel's exit. -/
def W3 (c : Dev nD) : Valuation τ sig (Elt F) :=
  Pipeline.withArrays spec1 c (W2 m c) fun w => (Apply.dat (V2 m) c).arrAt w cfg1.N
theorem W3_arr (c : Dev nD) (w : Fin cfg1.W) :
    W3 m c (Proc.devRef .tc (Pipeline.arrRef spec1 w)) = (Apply.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Apply.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last host stretch (the reshape of the result). -/
abbrev W4 : Dev nD → Valuation τ sig (Elt F) := fun c => StableHlo.after hostOps2 (W3 m c)

/-- `main_arg0` ends as launched: no host operation writes it and no region may change it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` ends as launched: no host operation writes it and no region may change it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` ends as launched: no host operation writes it and no region may change it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` ends as launched: no host operation writes it and no region may change it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg3) := W3_of_ne m c main_arg3 (by decide)
    _ = W1 m c (Proc.devRef .tc main_arg3) := (W2_arr m c 2).trans (((Reduce.dat (V1 m) c).arrAt_in 2 rfl _).trans (Reduce.A_eq (V1 m) c 2))
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` ends as launched: no host operation writes it and no region may change it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg4) := W3_of_ne m c main_arg4 (by decide)
    _ = W1 m c (Proc.devRef .tc main_arg4) := (W2_arr m c 3).trans (((Reduce.dat (V1 m) c).arrAt_in 3 rfl _).trans (Reduce.A_eq (V1 m) c 3))
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- `main_arg5` ends as launched: no host operation writes it and no region may change it. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- `main_arg6` ends as launched: no host operation writes it and no region may change it. -/
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The prefetched tables' admissible contents: no pipeline has a table. -/
abbrev adm : (p : Fin 2) → (pcfgs (F := F) p).Adm := fun p => (cfgs p).toPCfg_adm
/-- Both pipelines' data, each at its region's entry contents. -/
def pdats : (p : Fin 2) → (c : Dev nD) → Dat τ (Elt F) Unit ℕ (UR sig nD τ) ℕ (Pipeline.pin (pcfgs (F := F)) adm p) c
  | ⟨0, _⟩ => fun c => Reduce.dat (V1 m) c
  | ⟨1, _⟩ => fun c => Apply.dat (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 over the thread state: entered from every unscoped buffer at `W1`, left at `W2`. Its arrays are split
    out of the unscoped buffers and put back at the exit contents; the generator register goes into the region's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reduce.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reduce.hin (V1 m) c)
    unfold Pipeline.ΦA
    iintro ⟨Hp, -, Hr⟩
    isplitl [Hr]; · iexact Hr
    iexact Hp
  hout c := by
    rw [Pipeline.ownSems0_none]
    refine BIBase.Entails.trans (Reduce.hout (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the region's invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Apply.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from .rfl)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from .rfl) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- The program IS the run of the segments. -/
theorem main_run (c : Dev nD) : main (F := F) c = Pipeline.Seg.run (segs m) := (main_chain c).trans (by chain_rfl)

set_option backward.isDefEq.respectTransparency.types false in
/-- THE RUN: from any memory with zero counters every fair execution of the program ends, nothing faulting, and every
    unscoped buffer of every core then holds what the chain of segments computes. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => (show iprop(StableHlo.held (c : Thread nD τ) (Pipeline.ucRefs τ sig) (W4 m c) ∗ R c)
        ⊢ iprop(Tₙ m c ∗ ∃ W, owes (c : Thread nD τ) (0 : CellTallies nD τ sig Unit) W) from by
      iintro ⟨Hh, Hp, HO⟩
      isplitl [Hh Hp]
      · isplitl [Hh] <;> iassumption
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.Kernel.Whole

end
-- ==== Proof.KIReduceDefs.lean ====
/-
  The first kernel (the running key-softmax statistics over the column tiles, folded at the last tile into one
  96 x 96 matrix) as one region: the branch conditions over the grid, where its output window is idle, the
  staging and scratch buffers.
-/
import proofs.«154793_g50139448213692_cont_sun_m_1014_11_alg».proof.Proof.Gen.KernelIdeal.Launch
import proofs.«154793_g50139448213692_cont_sun_m_1014_11_alg».proof.Proof.Gen.KernelIdeal.Skeleton
import proofs.«154793_g50139448213692_cont_sun_m_1014_11_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, fetched there or not. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, fetched there or not. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, fetched there or not. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Region

/-- The first tile: both grid coordinates are zero. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcondFirst : ∀ t : Fin cfg0.N, condFirst (grid0.coords t) ↔ t.val % 28 = 0 :=
  (by decide +kernel : ∀ t : Fin grid0.N, condFirst (grid0.coords t) ↔ t.val % 28 = 0)

/-- The last tile. -/
abbrev condLast (i : grid0.Coords) : Prop := k0_cond2 i = 1#1
theorem hcondLast : ∀ t : Fin cfg0.N, condLast (grid0.coords t) ↔ t.val % 28 = 27 :=
  (by decide +kernel : ∀ t : Fin grid0.N, condLast (grid0.coords t) ↔ t.val % 28 = 27)

/-- The inputs are never idle. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- The output window is idle, and not written back, at every tile but the last. -/
theorem idleAt_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel
theorem liveAt_4 : ∀ t : Fin cfg0.N, condLast (grid0.coords t) → cfg0.idle 4 (grid0.coords t) = false := by decide +kernel

/-- The staging memrefs at point `t`, as the pipeline passes them. -/
abbrev ms_0 (t : Fin cfg0.N) : Memref sig .tc .vmem S1x96x3584 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S96x96 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S96x96 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S96x96 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S96x96 .bf16 := win0_4.stage (cfg0.slots t 4)
abbrev hs_4 (t : Fin cfg0.N) : (ms_4 t).IsWhole := hstage0_4 ((cfg0.slots t 4).cast nbuf0_4)
/-- The two scratch buffers carried between tiles: the running sum (a column) and the running context. -/
abbrev scS : Memref sig .tc .vmem S96x1 .f32 := Memref.whole cc0_scratch0
abbrev scG : Memref sig .tc .vmem S96x96 .f32 := Memref.whole cc0_scratch1
abbrev VS : View sig .tc .vmem S96x1 .f32 := scS.view
abbrev VG : View sig .tc .vmem S96x96 .f32 := scG.view
/-- One staging buffer of the output window, through which its contents are stated. -/
abbrev VO : View sig .tc .vmem S96x96 .bf16 := (Memref.whole cc0_stg4_0 : Memref sig .tc .vmem S96x96 .bf16).view

/-- The other scoped buffers of the core (the second kernel's staging buffers), each at some contents. -/
def OtherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's invariant before the first tile, with the two scratch buffers as memrefs owned at some contents. -/
theorem PhiA_eq (c : Dev nD) :
    (Pipeline.ΦA spec0 c : sProp 𝕄)
      = iprop(iprop((∃ d, owns (c : Thread nD τ) scS fullShare d) ∗ (∃ d, owns (c : Thread nD τ) scG fullShare d) ∗ OtherScoped (F := F) c) ∗ (∃ r, prngReg c r)) := by
  unfold Pipeline.ΦA OtherScoped; rw [scopedRest0_eq]; simp only [scS, scG, owns_whole]; try rfl

end Cert.KernelIdeal.Reduce

end
-- ==== Proof.KIReduceA.lean ====
/- The first kernel's body at the first tile: the accumulators are reset, then added to. -/
import proofs.«154793_g50139448213692_cont_sun_m_1014_11_alg».proof.Proof.KIReduceDefs

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave in the two scratch buffers at the first tile, as pieces (last first), with the proof that on
    whole staging buffers the body runs to the continuation holding the inputs as they were and the scratch buffers with
    those pieces written. -/
noncomputable def kernelRun_A (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : condFirst i) (hc1 : ¬condLast i)
    (x0 : Vec F S1x96x3584 .f32) (x1 : Vec F S96x96 .bf16) :
    Σ' (LS : List (View.Piece (Elt F) S96x1 .f32)), { LG : List (View.Piece (Elt F) S96x96 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LG)) -∗ K ⟨⟩))
          ⊢ wp frame (wpE (defs₀ (F := F)) Variants.none c none) E (cc0__reduce_kernel i arg2 harg2 arg3 harg3 arg4 harg4 arg5 harg5 arg6 harg6 arg7 harg7 arg8 harg8) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.KernelIdeal.Reduce

end
-- ==== Proof.KIReduceB.lean ====
/- The first kernel's body at a middle tile: the accumulators are added to. -/
import proofs.«154793_g50139448213692_cont_sun_m_1014_11_alg».proof.Proof.KIReduceA

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave in the two scratch buffers at a tile that is neither first nor last, as pieces, with the
    proof that the body runs to them from the scratch buffers at what the tile before left. -/
noncomputable def kernelRun_B (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : ¬condLast i)
    (x0 : Vec F S1x96x3584 .f32) (x1 : Vec F S96x96 .bf16) (xs0 : Vec F S96x1 .f32) (xs1 : Vec F S96x96 .f32) :
    Σ' (LS : List (View.Piece (Elt F) S96x1 .f32)), { LG : List (View.Piece (Elt F) S96x96 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LG)) -∗ K ⟨⟩))
          ⊢ wp frame (wpE (defs₀ (F := F)) Variants.none c none) E (cc0__reduce_kernel i arg2 harg2 arg3 harg3 arg4 harg4 arg5 harg5 arg6 harg6 arg7 harg7 arg8 harg8) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.KernelIdeal.Reduce

end
-- ==== Proof.KIReduceC.lean ====
/- The first kernel's body at the last tile: the accumulators are added to, then folded into the output matrix. -/
import proofs.«154793_g50139448213692_cont_sun_m_1014_11_alg».proof.Proof.KIReduceB

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body's stores leave in the output buffer and the two scratch buffers at the last tile, as pieces, with the
    proof that the body runs to them from the scratch buffers at what the tile before left. -/
noncomputable def kernelRun_C (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i)
    (x0 : Vec F S1x96x3584 .f32) (x1 : Vec F S96x96 .bf16) (x2 x3 : Vec F S96x96 .f32) (xs0 : Vec F S96x1 .f32) (xs1 : Vec F S96x96 .f32) :
    Σ' (LO : List (View.Piece (Elt F) S96x96 .bf16)) (LS : List (View.Piece (Elt F) S96x1 .f32)), { LG : List (View.Piece (Elt F) S96x96 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LG)) -∗ K ⟨⟩))
          ⊢ wp frame (wpE (defs₀ (F := F)) Variants.none c none) E (cc0__reduce_kernel i arg2 harg2 arg3 harg3 arg4 harg4 arg5 harg5 arg6 harg6 arg7 harg7 arg8 harg8) K } := by
  refine ⟨?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HS0]
    · iexists _; iexact HS0
    iexists _; iexact HS1

end Cert.KernelIdeal.Reduce

end
-- ==== Proof.KIReduce.lean ====
/-
  The first kernel as one region: what its stores leave at each kind of tile, the running statistics after each tile by
  recursion on the tile, the invariant that carries them between tiles, the region's data and the body's obligation.
-/
import proofs.«154793_g50139448213692_cont_sun_m_1014_11_alg».proof.Proof.KIReduceC

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Case A's pieces for the running-sum scratch cover it. -/
theorem cover_A_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : condFirst i) (hc1 : ¬condLast i) (x0 : Vec F S1x96x3584 .f32) (x1 : Vec F S96x96 .bf16) (y : S96x1.Idx) :
    ∃ pc ∈ (kernelRun_A c i arg2 harg2 arg3 harg3 arg4 harg4 arg5 harg5 arg6 harg6 arg7 harg7 arg8 harg8 hc0 hc1 x0 x1).1, y ∈ pc.1.set :=
  View.cover_of_tiledL (kernelRun_A c i arg2 harg2 arg3 harg3 arg4 harg4 arg5 harg5 arg6 harg6 arg7 harg7 arg8 harg8 hc0 hc1 x0 x1).1 S96x1.size (by sl_kernel_rfl) y

/-- What case A leaves in the running-sum scratch: its pieces read back. -/
def out_A_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : condFirst i) (hc1 : ¬condLast i) (x0 : Vec F S1x96x3584 .f32) (x1 : Vec F S96x96 .bf16) : Vec F S96x1 .f32 :=
  VS.read (Elt F) (VS.writes (Elt F) VS.junk (kernelRun_A c i arg2 harg2 arg3 harg3 arg4 harg4 arg5 harg5 arg6 harg6 arg7 harg7 arg8 harg8 hc0 hc1 x0 x1).1)

/-- Case A's pieces for the running-context scratch cover it. -/
theorem cover_A_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : condFirst i) (hc1 : ¬condLast i) (x0 : Vec F S1x96x3584 .f32) (x1 : Vec F S96x96 .bf16) (y : S96x96.Idx) :
    ∃ pc ∈ (kernelRun_A c i arg2 harg2 arg3 harg3 arg4 harg4 arg5 harg5 arg6 harg6 arg7 harg7 arg8 harg8 hc0 hc1 x0 x1).2.1, y ∈ pc.1.set :=
  View.cover_of_tiledL (kernelRun_A c i arg2 harg2 arg3 harg3 arg4 harg4 arg5 harg5 arg6 harg6 arg7 harg7 arg8 harg8 hc0 hc1 x0 x1).2.1 S96x96.size (by sl_kernel_rfl) y

/-- What case A leaves in the running-context scratch: its pieces read back. -/
def out_A_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : condFirst i) (hc1 : ¬condLast i) (x0 : Vec F S1x96x3584 .f32) (x1 : Vec F S96x96 .bf16) : Vec F S96x96 .f32 :=
  VG.read (Elt F) (VG.writes (Elt F) VG.junk (kernelRun_A c i arg2 harg2 arg3 harg3 arg4 harg4 arg5 harg5 arg6 harg6 arg7 harg7 arg8 harg8 hc0 hc1 x0 x1).2.1)

/-- Case B's pieces for the running-sum scratch cover it. -/
theorem cover_B_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : ¬condLast i) (x0 : Vec F S1x96x3584 .f32) (x1 : Vec F S96x96 .bf16) (xs0 : Vec F S96x1 .f32) (xs1 : Vec F S96x96 .f32) (y : S96x1.Idx) :
    ∃ pc ∈ (kernelRun_B c i arg2 harg2 arg3 harg3 arg4 harg4 arg5 harg5 arg6 harg6 arg7 harg7 arg8 harg8 hc0 hc1 x0 x1 xs0 xs1).1, y ∈ pc.1.set :=
  View.cover_of_tiledL (kernelRun_B c i arg2 harg2 arg3 harg3 arg4 harg4 arg5 harg5 arg6 harg6 arg7 harg7 arg8 harg8 hc0 hc1 x0 x1 xs0 xs1).1 S96x1.size (by sl_kernel_rfl) y

/-- What case B leaves in the running-sum scratch: its pieces read back. -/
def out_B_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : ¬condLast i) (x0 : Vec F S1x96x3584 .f32) (x1 : Vec F S96x96 .bf16) (xs0 : Vec F S96x1 .f32) (xs1 : Vec F S96x96 .f32) : Vec F S96x1 .f32 :=
  VS.read (Elt F) (VS.writes (Elt F) VS.junk (kernelRun_B c i arg2 harg2 arg3 harg3 arg4 harg4 arg5 harg5 arg6 harg6 arg7 harg7 arg8 harg8 hc0 hc1 x0 x1 xs0 xs1).1)

/-- Case B's pieces for the running-context scratch cover it. -/
theorem cover_B_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : ¬condLast i) (x0 : Vec F S1x96x3584 .f32) (x1 : Vec F S96x96 .bf16) (xs0 : Vec F S96x1 .f32) (xs1 : Vec F S96x96 .f32) (y : S96x96.Idx) :
    ∃ pc ∈ (kernelRun_B c i arg2 harg2 arg3 harg3 arg4 harg4 arg5 harg5 arg6 harg6 arg7 harg7 arg8 harg8 hc0 hc1 x0 x1 xs0 xs1).2.1, y ∈ pc.1.set :=
  View.cover_of_tiledL (kernelRun_B c i arg2 harg2 arg3 harg3 arg4 harg4 arg5 harg5 arg6 harg6 arg7 harg7 arg8 harg8 hc0 hc1 x0 x1 xs0 xs1).2.1 S96x96.size (by sl_kernel_rfl) y

/-- What case B leaves in the running-context scratch: its pieces read back. -/
def out_B_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : ¬condLast i) (x0 : Vec F S1x96x3584 .f32) (x1 : Vec F S96x96 .bf16) (xs0 : Vec F S96x1 .f32) (xs1 : Vec F S96x96 .f32) : Vec F S96x96 .f32 :=
  VG.read (Elt F) (VG.writes (Elt F) VG.junk (kernelRun_B c i arg2 harg2 arg3 harg3 arg4 harg4 arg5 harg5 arg6 harg6 arg7 harg7 arg8 harg8 hc0 hc1 x0 x1 xs0 xs1).2.1)

/-- Case C's pieces for the output buffer cover it. -/
theorem cover_C_O (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) (y : S96x96.Idx) :
    ∃ pc ∈ (kernelRun_C c i arg2 harg2 arg3 harg3 arg4 harg4 arg5 harg5 arg6 harg6 arg7 harg7 arg8 harg8 hc0 hc1 x0 x1 x2 x3 xs0 xs1).1, y ∈ pc.1.set :=
  View.cover_of_tiledL (kernelRun_C c i arg2 harg2 arg3 harg3 arg4 harg4 arg5 harg5 arg6 harg6 arg7 harg7 arg8 harg8 hc0 hc1 x0 x1 x2 x3 xs0 xs1).1 S96x96.size (by sl_kernel_rfl) y

/-- What case C leaves in the output buffer: its pieces read back. -/
def out_C_O (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) : Vec F S96x96 .bf16 :=
  VO.read (Elt F) (VO.writes (Elt F) VO.junk (kernelRun_C c i arg2 harg2 arg3 harg3 arg4 harg4 arg5 harg5 arg6 harg6 arg7 harg7 arg8 harg8 hc0 hc1 x0 x1 x2 x3 xs0 xs1).1)

/-- Case C's pieces for the running-sum scratch cover it. -/
theorem cover_C_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) (y : S96x1.Idx) :
    ∃ pc ∈ (kernelRun_C c i arg2 harg2 arg3 harg3 arg4 harg4 arg5 harg5 arg6 harg6 arg7 harg7 arg8 harg8 hc0 hc1 x0 x1 x2 x3 xs0 xs1).2.1, y ∈ pc.1.set :=
  View.cover_of_tiledL (kernelRun_C c i arg2 harg2 arg3 harg3 arg4 harg4 arg5 harg5 arg6 harg6 arg7 harg7 arg8 harg8 hc0 hc1 x0 x1 x2 x3 xs0 xs1).2.1 S96x1.size (by sl_kernel_rfl) y

/-- What case C leaves in the running-sum scratch: its pieces read back. -/
def out_C_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) : Vec F S96x1 .f32 :=
  VS.read (Elt F) (VS.writes (Elt F) VS.junk (kernelRun_C c i arg2 harg2 arg3 harg3 arg4 harg4 arg5 harg5 arg6 harg6 arg7 harg7 arg8 harg8 hc0 hc1 x0 x1 x2 x3 xs0 xs1).2.1)

/-- Case C's pieces for the running-context scratch cover it. -/
theorem cover_C_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) (y : S96x96.Idx) :
    ∃ pc ∈ (kernelRun_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun_C c i arg2 harg2 arg3 harg3 arg4 harg4 arg5 harg5 arg6 harg6 arg7 harg7 arg8 harg8 hc0 hc1 x0 x1 x2 x3 xs0 xs1).2.2.1 S96x96.size (by sl_kernel_rfl) y

/-- What case C leaves in the running-context scratch: its pieces read back. -/
def out_C_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) : Vec F S96x96 .f32 :=
  VG.read (Elt F) (VG.writes (Elt F) VG.junk (kernelRun_C c i arg2 harg2 arg3 harg3 arg4 harg4 arg5 harg5 arg6 harg6 arg7 harg7 arg8 harg8 hc0 hc1 x0 x1 x2 x3 xs0 xs1).2.2.1)

section Region
variable (V : (c : Dev nD) → (b : Ref sig .tc) → Buf (Elt F) ((c : Thread nD τ).loc b))

/-- THE ACCUMULATION: what the two scratch buffers hold after the body at tile `n` — at the first tile the reset-and-add
    case, afterwards the add case (at the last tile the one that also folds) over what the tile before left. -/
def accAt (c : Dev nD) : (n : ℕ) → n < cfg0.N → Vec F S96x1 .f32 × Vec F S96x96 .f32
  | 0, hn =>
    have h0 : (⟨0, hn⟩ : Fin cfg0.N).val % 28 = 0 := Nat.zero_mod _
    have h1 : ¬(⟨0, hn⟩ : Fin cfg0.N).val % 28 = 27 := by simp
    (out_A_S c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scS (Memref.isWhole_whole _) scG (Memref.isWhole_whole _) ((hcondFirst ⟨0, hn⟩).mpr h0) (fun h => h1 ((hcondLast ⟨0, hn⟩).mp h)) (iblk V c 0 ⟨0, hn⟩) (iblk V c 1 ⟨0, hn⟩),
     out_A_G c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scS (Memref.isWhole_whole _) scG (Memref.isWhole_whole _) ((hcondFirst ⟨0, hn⟩).mpr h0) (fun h => h1 ((hcondLast ⟨0, hn⟩).mp h)) (iblk V c 0 ⟨0, hn⟩) (iblk V c 1 ⟨0, hn⟩))
  | n + 1, hn =>
    have h0 : ¬(⟨n + 1, hn⟩ : Fin cfg0.N).val % 28 = 0 := by
      have hN : n + 1 < 28 := lt_of_lt_of_eq hn (show cfg0.N = 28 from N_0); show ¬(n + 1) % 28 = 0; omega
    if h1 : (⟨n + 1, hn⟩ : Fin cfg0.N).val % 28 = 27 then
      (out_C_S c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scS (Memref.isWhole_whole _) scG (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (accAt c n (Nat.lt_of_succ_lt hn)).1 (accAt c n (Nat.lt_of_succ_lt hn)).2,
       out_C_G c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scS (Memref.isWhole_whole _) scG (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (accAt c n (Nat.lt_of_succ_lt hn)).1 (accAt c n (Nat.lt_of_succ_lt hn)).2)
    else
      (out_B_S c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scS (Memref.isWhole_whole _) scG (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (accAt c n (Nat.lt_of_succ_lt hn)).1 (accAt c n (Nat.lt_of_succ_lt hn)).2,
       out_B_G c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scS (Memref.isWhole_whole _) scG (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (accAt c n (Nat.lt_of_succ_lt hn)).1 (accAt c n (Nat.lt_of_succ_lt hn)).2)

/-- What the output buffer holds after the body at tile `n`: at the last tile the folded matrix, over what the tile before
    left in the scratch buffers; elsewhere nothing is stored there (a placeholder no one reads). -/
def outAt (c : Dev nD) : (n : ℕ) → n < cfg0.N → Vec F S96x96 .bf16
  | 0, _ => VO.read (Elt F) VO.junk
  | n + 1, hn =>
    have h0 : ¬(⟨n + 1, hn⟩ : Fin cfg0.N).val % 28 = 0 := by
      have hN : n + 1 < 28 := lt_of_lt_of_eq hn (show cfg0.N = 28 from N_0); show ¬(n + 1) % 28 = 0; omega
    if h1 : (⟨n + 1, hn⟩ : Fin cfg0.N).val % 28 = 27 then
      out_C_O c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scS (Memref.isWhole_whole _) scG (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (iblk V c 3 ⟨n + 1, hn⟩) (accAt V c n (Nat.lt_of_succ_lt hn)).1 (accAt V c n (Nat.lt_of_succ_lt hn)).2
    else VO.read (Elt F) VO.junk

/-- `accAt` at the first tile. -/
theorem accAt_A (c : Dev nD) (t : Fin cfg0.N) (h0 : t.val % 28 = 0) (h1 : ¬t.val % 28 = 27) :
    accAt V c t.val t.isLt = (out_A_S c (grid0.coords t) (ms_0 t) (hs_0 t) (ms_1 t) (hs_1 t) (ms_2 t) (hs_2 t) (ms_3 t) (hs_3 t) (ms_4 t) (hs_4 t) scS (Memref.isWhole_whole _) scG (Memref.isWhole_whole _) ((hcondFirst t).mpr h0) (fun h => h1 ((hcondLast t).mp h)) (iblk V c 0 t) (iblk V c 1 t),
      out_A_G c (grid0.coords t) (ms_0 t) (hs_0 t) (ms_1 t) (hs_1 t) (ms_2 t) (hs_2 t) (ms_3 t) (hs_3 t) (ms_4 t) (hs_4 t) scS (Memref.isWhole_whole _) scG (Memref.isWhole_whole _) ((hcondFirst t).mpr h0) (fun h => h1 ((hcondLast t).mp h)) (iblk V c 0 t) (iblk V c 1 t)) := by
  obtain ⟨n, hn⟩ := t
  cases n with
  | zero => rfl
  | succ n => exfalso; have hN : n + 1 < 28 := lt_of_lt_of_eq hn (show cfg0.N = 28 from N_0); (try dsimp only at h0); omega

/-- `accAt` at a middle tile: over what the tile before left. -/
theorem accAt_B (c : Dev nD) (t : Fin cfg0.N) (h0 : ¬t.val % 28 = 0) (h1 : ¬t.val % 28 = 27) :
    accAt V c t.val t.isLt = (out_B_S c (grid0.coords t) (ms_0 t) (hs_0 t) (ms_1 t) (hs_1 t) (ms_2 t) (hs_2 t) (ms_3 t) (hs_3 t) (ms_4 t) (hs_4 t) scS (Memref.isWhole_whole _) scG (Memref.isWhole_whole _) (fun h => h0 ((hcondFirst t).mp h)) (fun h => h1 ((hcondLast t).mp h)) (iblk V c 0 t) (iblk V c 1 t) (accAt V c (t.val - 1) (Nat.lt_of_le_of_lt (Nat.sub_le _ _) t.isLt)).1 (accAt V c (t.val - 1) (Nat.lt_of_le_of_lt (Nat.sub_le _ _) t.isLt)).2,
      out_B_G c (grid0.coords t) (ms_0 t) (hs_0 t) (ms_1 t) (hs_1 t) (ms_2 t) (hs_2 t) (ms_3 t) (hs_3 t) (ms_4 t) (hs_4 t) scS (Memref.isWhole_whole _) scG (Memref.isWhole_whole _) (fun h => h0 ((hcondFirst t).mp h)) (fun h => h1 ((hcondLast t).mp h)) (iblk V c 0 t) (iblk V c 1 t) (accAt V c (t.val - 1) (Nat.lt_of_le_of_lt (Nat.sub_le _ _) t.isLt)).1 (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `accAt` at the last tile: over what the tile before left. -/
theorem accAt_C (c : Dev nD) (t : Fin cfg0.N) (h0 : ¬t.val % 28 = 0) (h1 : t.val % 28 = 27) :
    accAt V c t.val t.isLt = (out_C_S c (grid0.coords t) (ms_0 t) (hs_0 t) (ms_1 t) (hs_1 t) (ms_2 t) (hs_2 t) (ms_3 t) (hs_3 t) (ms_4 t) (hs_4 t) scS (Memref.isWhole_whole _) scG (Memref.isWhole_whole _) (fun h => h0 ((hcondFirst t).mp h)) ((hcondLast t).mpr h1) (iblk V c 0 t) (iblk V c 1 t) (iblk V c 2 t) (iblk V c 3 t) (accAt V c (t.val - 1) (Nat.lt_of_le_of_lt (Nat.sub_le _ _) t.isLt)).1 (accAt V c (t.val - 1) (Nat.lt_of_le_of_lt (Nat.sub_le _ _) t.isLt)).2,
      out_C_G c (grid0.coords t) (ms_0 t) (hs_0 t) (ms_1 t) (hs_1 t) (ms_2 t) (hs_2 t) (ms_3 t) (hs_3 t) (ms_4 t) (hs_4 t) scS (Memref.isWhole_whole _) scG (Memref.isWhole_whole _) (fun h => h0 ((hcondFirst t).mp h)) ((hcondLast t).mpr h1) (iblk V c 0 t) (iblk V c 1 t) (iblk V c 2 t) (iblk V c 3 t) (accAt V c (t.val - 1) (Nat.lt_of_le_of_lt (Nat.sub_le _ _) t.isLt)).1 (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- `outAt` at the last tile. -/
theorem outAt_C (c : Dev nD) (t : Fin cfg0.N) (h0 : ¬t.val % 28 = 0) (h1 : t.val % 28 = 27) :
    outAt V c t.val t.isLt = out_C_O c (grid0.coords t) (ms_0 t) (hs_0 t) (ms_1 t) (hs_1 t) (ms_2 t) (hs_2 t) (ms_3 t) (hs_3 t) (ms_4 t) (hs_4 t) scS (Memref.isWhole_whole _) scG (Memref.isWhole_whole _) (fun h => h0 ((hcondFirst t).mp h)) ((hcondLast t).mpr h1) (iblk V c 0 t) (iblk V c 1 t) (iblk V c 2 t) (iblk V c 3 t) (accAt V c (t.val - 1) (Nat.lt_of_le_of_lt (Nat.sub_le _ _) t.isLt)).1 (accAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_pos h1).trans rfl

/-- The invariant before tile `n`: before the first anything may be in the scratch buffers; afterwards they hold what the
    tile before left. The other scoped buffers and the generator register ride along. -/
def PhiS (c : Dev nD) : (n : ℕ) → n ≤ cfg0.N → sProp 𝕄
  | 0, _ => Pipeline.ΦA spec0 c
  | n + 1, hn => iprop(iprop(owns (c : Thread nD τ) scS fullShare ((accAt V c n hn).1) ∗ owns (c : Thread nD τ) scG fullShare ((accAt V c n hn).2) ∗ OtherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scS fullShare ((accAt V c n hn).1) ∗ owns (c : Thread nD τ) scG fullShare ((accAt V c n hn).2) ∗ OtherScoped (F := F) c) ∗ (∃ r, prngReg c r)) := rfl

theorem PhiS_pos (c : Dev nD) (n : ℕ) (h : n ≤ cfg0.N) (hz : n ≠ 0) :
    PhiS V c n h = iprop(iprop(owns (c : Thread nD τ) scS fullShare ((accAt V c (n - 1) (by omega)).1) ∗ owns (c : Thread nD τ) scG fullShare ((accAt V c (n - 1) (by omega)).2) ∗ OtherScoped (F := F) c) ∗ (∃ r, prngReg c r)) := by
  cases n with
  | zero => exact absurd rfl hz
  | succ n => rfl

/-- The region's data on core `c`: the arrays as the region finds them; after the body each input's buffer at its block
    and the output's at `outAt`; the invariant `PhiS`; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outAt V c t.val t.isLt := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-- What the body is called with at tile `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
/-- The body at any tile: the inputs' buffers hold their blocks; the tile's position says which case it is in; the invariant
    hands the body the scratch buffers at what the tile before left (at anything at the first tile) and takes them back at
    this tile's contents; the output buffer is stored into at the last tile only. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 28 := lt_of_lt_of_eq t.isLt (show cfg0.N = 28 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  by_cases h0 : t.val % 28 = 0
  · have h1 : ¬t.val % 28 = 27 := by omega
    have hz : t.val = 0 := by omega
    rw [Dat.leavesExact_idle (dat V c) 4 t (idleAt_4 t (fun h => h1 ((hcondLast t).mp h))) (noFlush_4 t (fun h => h1 ((hcondLast t).mp h)))]
    rw [accAt_A V c t h0 h1]
    unfold out_A_S out_A_G; (try dsimp only)
    rw [PhiS_castSucc V c t, PhiS_zero V c _ _ hz, PhiA_eq]
    iintro ⟨⟨⟨HS0, HS1, Hoth⟩, Hg⟩, Ho, ⟨%d0, H0⟩, ⟨%d1, H1⟩, ⟨%d2, H2⟩, ⟨%d3, H3⟩, ⟨%d4, H4⟩⟩
    iapply ((kernelRun_A c (grid0.coords t) _ _ _ _ _ _ _ _ _ _ _ _ _ _ ((hcondFirst t).mpr h0) (fun h => h1 ((hcondLast t).mp h)) (iblk V c 0 t) (iblk V c 1 t)).2.2 Set.univ _)
    isplitl [H0]; · iexact H0
    isplitl [H1]; · iexact H1
    isplitl [HS0]; · iexact HS0
    isplitl [HS1]; · iexact HS1
    iintro ⟨H0, H1, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (cover_A_S c _ _ _ _ _ _ _ _ _ _ _ _ _ _ _ _ _ _ _)
        isplitl [HS1]
        · unfold owns; iexists _; isplitr
          swap; · iexact HS1
          ipureintro; exact View.read_writes_of_cover _ _ _ _ _ (cover_A_G c _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 28 = 27
    · rw [show (dat V c).leavesExact 4 t = owns (c : Thread nD τ) (ms_4 t) fullShare ((dat V c).after 4 t) from by
        unfold Dat.leavesExact; rw [liveAt_4 t ((hcondLast t).mpr h1)], after_4]
      rw [accAt_C V c t h0 h1, outAt_C V c t h0 h1]
      unfold out_C_O out_C_S out_C_G; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩⟩
      iapply ((kernelRun_C c (grid0.coords t) _ _ _ _ _ _ _ _ _ _ _ _ _ _ (fun h => h0 ((hcondFirst t).mp h)) ((hcondLast t).mpr h1) (iblk V c 0 t) (iblk V c 1 t) (iblk V c 2 t) (iblk V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (cover_C_S c _ _ _ _ _ _ _ _ _ _ _ _ _ _ _ _ _ _ _ _ _ _ _)
          isplitl [HS1]
          · unfold owns; iexists _; isplitr
            swap; · iexact HS1
            ipureintro; exact View.read_writes_of_cover _ _ _ _ _ (cover_C_G c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_C_O c _ _ _ _ _ _ _ _ _ _ _ _ _ _ _ _ _ _ _ _ _ _ _)
    · rw [Dat.leavesExact_idle (dat V c) 4 t (idleAt_4 t (fun h => h1 ((hcondLast t).mp h))) (noFlush_4 t (fun h => h1 ((hcondLast t).mp h)))]
      rw [accAt_B V c t h0 h1]
      unfold out_B_S out_B_G; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩⟩
      iapply ((kernelRun_B c (grid0.coords t) _ _ _ _ _ _ _ _ _ _ _ _ _ _ (fun h => h0 ((hcondFirst t).mp h)) (fun h => h1 ((hcondLast t).mp h)) (iblk V c 0 t) (iblk V c 1 t) _ _).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (cover_B_S c _ _ _ _ _ _ _ _ _ _ _ _ _ _ _ _ _ _ _ _ _)
          isplitl [HS1]
          · unfold owns; iexists _; isplitr
            swap; · iexact HS1
            ipureintro; exact View.read_writes_of_cover _ _ _ _ _ (cover_B_G c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every tile. -/
theorem body_obligation (c : Dev nD) : BodyObligation (dat (F := F) V c) (defs₀ (F := F)) Variants.none () Set.univ := fun t => by
  rw [bigSep_W0, bigSep_W0]
  exact sound_body V c t

/-- What the launch hands the region is the invariant before the first tile. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last tile the invariant gives the scoped buffers back, their contents forgotten. -/
theorem hout (c : Dev nD) : (dat V c).Φ (Fin.last cfg0.N) ⊢ Pipeline.ΦA spec0 c := by
  have ht : (Fin.last cfg0.N).val ≠ 0 := by rw [Fin.val_last]; have : cfg0.N = 28 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Region

end Cert.KernelIdeal.Reduce

end
-- ==== Proof.KIApply.lean ====
/-
  The second kernel (attention applied, layer norm, mask) as one region: what each grid point leaves in the
  output block as a function of the input blocks, the body's run, and the region's data.
-/
import proofs.«154793_g50139448213692_cont_sun_m_1014_11_alg».proof.Proof.Gen.KernelIdeal.Launch
import proofs.«154793_g50139448213692_cont_sun_m_1014_11_alg».proof.Proof.Gen.KernelIdeal.Skeleton
import proofs.«154793_g50139448213692_cont_sun_m_1014_11_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Apply

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, fetched there or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, fetched there or not. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, fetched there or not. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's buffer holds its block at every point, fetched there or not. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev rX : Rect S1x96x3584 := Rect.unit (s := S1x96x3584) ![0, 0, 0] S1x96x3584.size inb_S1x96x3584_S1x96x3584_0_0_0
abbrev rW : Rect S96x96 := Rect.unit (s := S96x96) ![0, 0] S96x96.size inb_S96x96_S96x96_0_0
abbrev rC : Rect S96x1 := Rect.unit (s := S96x1) ![0, 0] S96x1.size inb_S96x1_S96x1_0_0

/-- The output block after the body, from the input blocks: the one store's payload over its rectangle. -/
def outBlk (x0 : Vec F S1x96x3584 .f32) (x1 x2 : Vec F S96x96 .bf16) (x3 x4 : Vec F S96x1 .f32) : Vec F S1x96x3584 .f32 :=
  View.canon [⟨rX, k1_pay1 (k1_pay4 (View.ld x0 rX)) (k1_pay5 (View.ld x0 rX) (View.ld x1 rW) (View.ld x2 rW))
    (k1_pay8 (View.ld x0 rX) (View.ld x1 rW) (View.ld x2 rW)) (k1_pay9 (View.ld x0 rX) (View.ld x1 rW) (View.ld x2 rW))
    (View.ld x3 rC) (View.ld x4 rC)⟩]

theorem cover (p0 : Vec F S1x96x3584 .f32) (y : S1x96x3584.Idx) :
    ∃ pc ∈ ([⟨rX, p0⟩] : List (View.Piece (Elt F) S1x96x3584 .f32)), y ∈ pc.1.set :=
  View.cover_of_tiled [⟨rX, p0⟩] S1x96x3584.size (by rfl) y

set_option maxHeartbeats 4000000 in
/-- The body on whole staging buffers: the inputs at their contents and the output at anything run to the inputs as
    they were and the output at `outBlk` of the inputs. -/
theorem sound_kernel (c : Dev nD) (E : Set ℕ) (i : grid1.Coords)
    (arg2 : Memref sig .tc .vmem S1x96x3584 .f32) (harg2 : arg2.IsWhole) (arg3 : Memref sig .tc .vmem S96x96 .bf16) (harg3 : arg3.IsWhole)
    (arg4 : Memref sig .tc .vmem S96x96 .bf16) (harg4 : arg4.IsWhole) (arg5 : Memref sig .tc .vmem S96x1 .f32) (harg5 : arg5.IsWhole)
    (arg6 : Memref sig .tc .vmem S96x1 .f32) (harg6 : arg6.IsWhole) (arg7 : Memref sig .tc .vmem S1x96x3584 .f32) (harg7 : arg7.IsWhole)
    (x0 : Vec F S1x96x3584 .f32) (x1 x2 : Vec F S96x96 .bf16) (x3 x4 : Vec F S96x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk x0 x1 x2 x3 x4)) -∗ K ⟨⟩))
      ⊢ wp frame (wpE (defs₀ (F := F)) Variants.none c none) E (cc1__apply_kernel i arg2 harg2 arg3 harg3 arg4 harg4 arg5 harg5 arg6 harg6 arg7 harg7) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The region's data on core `c`: the arrays as the region finds them; after the body each input's buffer at its
    block and the output's at `outBlk` of the input blocks; nothing carried between points; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlk (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = outBlk (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so `sound_kernel` applies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Region

end Cert.KernelIdeal.Apply

end
-- ==== Proof.KIRun.lean ====
/-
  The whole program as a chain of four segments — the host operations that lay the operands out, the first kernel, the
  second kernel, the final reshape — and its run: every fair execution ends, and every unscoped buffer then holds what
  the chain computes (`W4`).
-/
import proofs.«154793_g50139448213692_cont_sun_m_1014_11_alg».proof.Proof.KIReduce
import proofs.«154793_g50139448213692_cont_sun_m_1014_11_alg».proof.Proof.KIApply
import proofs.«154793_g50139448213692_cont_sun_m_1014_11_alg».proof.Proof.Gen.KernelIdeal.Regions
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first host stretch (the first kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (Reduce.dat (V1 m) c).arrAt w cfg0.N
theorem W2_arr (c : Dev nD) (w : Fin cfg0.W) :
    W2 m c (Proc.devRef .tc (Pipeline.arrRef spec0 w)) = (Reduce.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Reduce.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second kernel's exit. -/
def W3 (c : Dev nD) : Valuation τ sig (Elt F) :=
  Pipeline.withArrays spec1 c (W2 m c) fun w => (Apply.dat (V2 m) c).arrAt w cfg1.N
theorem W3_arr (c : Dev nD) (w : Fin cfg1.W) :
    W3 m c (Proc.devRef .tc (Pipeline.arrRef spec1 w)) = (Apply.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Apply.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last host stretch (the reshape of the result). -/
abbrev W4 : Dev nD → Valuation τ sig (Elt F) := fun c => StableHlo.after hostOps2 (W3 m c)

/-- `main_arg0` ends as launched: no host operation writes it and no region may change it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` ends as launched: no host operation writes it and no region may change it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` ends as launched: no host operation writes it and no region may change it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` ends as launched: no host operation writes it and no region may change it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg3) := W3_of_ne m c main_arg3 (by decide)
    _ = W1 m c (Proc.devRef .tc main_arg3) := (W2_arr m c 2).trans (((Reduce.dat (V1 m) c).arrAt_in 2 rfl _).trans (Reduce.A_eq (V1 m) c 2))
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` ends as launched: no host operation writes it and no region may change it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg4) := W3_of_ne m c main_arg4 (by decide)
    _ = W1 m c (Proc.devRef .tc main_arg4) := (W2_arr m c 3).trans (((Reduce.dat (V1 m) c).arrAt_in 3 rfl _).trans (Reduce.A_eq (V1 m) c 3))
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- `main_arg5` ends as launched: no host operation writes it and no region may change it. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- `main_arg6` ends as launched: no host operation writes it and no region may change it. -/
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The prefetched tables' admissible contents: no pipeline has a table. -/
abbrev adm : (p : Fin 2) → (pcfgs (F := F) p).Adm := fun p => (cfgs p).toPCfg_adm
/-- Both pipelines' data, each at its region's entry contents. -/
def pdats : (p : Fin 2) → (c : Dev nD) → Dat τ (Elt F) Unit ℕ (UR sig nD τ) ℕ (Pipeline.pin (pcfgs (F := F)) adm p) c
  | ⟨0, _⟩ => fun c => Reduce.dat (V1 m) c
  | ⟨1, _⟩ => fun c => Apply.dat (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 over the thread state: entered from every unscoped buffer at `W1`, left at `W2`. Its arrays are split
    out of the unscoped buffers and put back at the exit contents; the generator register goes into the region's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reduce.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reduce.hin (V1 m) c)
    unfold Pipeline.ΦA
    iintro ⟨Hp, -, Hr⟩
    isplitl [Hr]; · iexact Hr
    iexact Hp
  hout c := by
    rw [Pipeline.ownSems0_none]
    refine BIBase.Entails.trans (Reduce.hout (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the region's invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Apply.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from .rfl)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from .rfl) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- The program IS the run of the segments. -/
theorem main_run (c : Dev nD) : main (F := F) c = Pipeline.Seg.run (segs m) := (main_chain c).trans (by chain_rfl)

set_option backward.isDefEq.respectTransparency.types false in
/-- THE RUN: from any memory with zero counters every fair execution of the program ends, nothing faulting, and every
    unscoped buffer of every core then holds what the chain of segments computes. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => (show iprop(StableHlo.held (c : Thread nD τ) (Pipeline.ucRefs τ sig) (W4 m c) ∗ R c)
        ⊢ iprop(Tₙ m c ∗ ∃ W, owes (c : Thread nD τ) (0 : CellTallies nD τ sig Unit) W) from by
      iintro ⟨Hh, Hp, HO⟩
      isplitl [Hh Hp]
      · isplitl [Hh] <;> iassumption
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.KernelIdeal.Whole

end
-- ==== Proof.KIReducePieces.lean ====
/-
  What the first kernel's stores leave, named: at each kind of tile the running-sum column, the running-context matrix
  and (at the last tile) the folded output matrix, as the body's pure arithmetic of what it loaded.
-/
import proofs.«154793_g50139448213692_cont_sun_m_1014_11_alg».proof.Proof.KIReduce
import Idealize.ShloMosaic.Lib.Pipeline.Value

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

/-- A middle tile adds the tile's sum to the running sum. -/
theorem pieceB_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : ¬condLast i) (x0 : Vec F S1x96x3584 .f32) (x1 : Vec F S96x96 .bf16) (xs0 : Vec F S96x1 .f32) (xs1 : Vec F S96x96 .f32) :
    out_B_S c i arg2 harg2 arg3 harg3 arg4 harg4 arg5 harg5 arg6 harg6 arg7 harg7 arg8 harg8 hc0 hc1 x0 x1 xs0 xs1 = k0_pay9 x0 x1 xs0 := by
  unfold out_B_S
  rw [View.read_writes_eq_canon _ _ _ (cover_B_S c i arg2 harg2 arg3 harg3 arg4 harg4 arg5 harg5 arg6 harg6 arg7 harg7 arg8 harg8 hc0 hc1 x0 x1 xs0 xs1)]
  unfold kernelRun_B; dsimp only
  sl_unfold_words
  simp only [View.canon_unit_zero (S := S96x1) hz2, View.canon_unit_zero (S := S96x96) hz2, View.canon_cons_unit_zero (S := S96x1) hz2, View.canon_cons_unit_zero (S := S96x96) hz2, View.readCov_unit_zero (S := S96x1) _ hz2, View.readCov_unit_zero (S := S96x96) _ hz2, View.readAt_eq_ld, harg2.read_unread, harg3.read_unread, harg7.read_unread, View.ld_unit_zero (S := S1x96x3584) hz3, View.ld_unit_zero (S := S96x96) hz2, View.ld_unit_zero (S := S96x1) hz2]
  rfl

/-- A middle tile adds the tile's context to the running context. -/
theorem pieceB_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : ¬condLast i) (x0 : Vec F S1x96x3584 .f32) (x1 : Vec F S96x96 .bf16) (xs0 : Vec F S96x1 .f32) (xs1 : Vec F S96x96 .f32) :
    out_B_G c i arg2 harg2 arg3 harg3 arg4 harg4 arg5 harg5 arg6 harg6 arg7 harg7 arg8 harg8 hc0 hc1 x0 x1 xs0 xs1 = k0_pay1 (k0_pay8 x0 x1) xs1 (k0_pay10 x0) := by
  unfold out_B_G
  rw [View.read_writes_eq_canon _ _ _ (cover_B_G c i arg2 harg2 arg3 harg3 arg4 harg4 arg5 harg5 arg6 harg6 arg7 harg7 arg8 harg8 hc0 hc1 x0 x1 xs0 xs1)]
  unfold kernelRun_B; dsimp only
  sl_unfold_words
  simp only [View.canon_unit_zero (S := S96x1) hz2, View.canon_unit_zero (S := S96x96) hz2, View.canon_cons_unit_zero (S := S96x1) hz2, View.canon_cons_unit_zero (S := S96x96) hz2, View.readCov_unit_zero (S := S96x1) _ hz2, View.readCov_unit_zero (S := S96x96) _ hz2, View.readAt_eq_ld, harg2.read_unread, harg3.read_unread, harg8.read_unread, View.ld_unit_zero (S := S1x96x3584) hz3, View.ld_unit_zero (S := S96x96) hz2, View.ld_unit_zero (S := S96x1) hz2]
  rfl

/-- The first tile adds the tile's sum to zero. -/
theorem pieceA_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : condFirst i) (hc1 : ¬condLast i) (x0 : Vec F S1x96x3584 .f32) (x1 : Vec F S96x96 .bf16) :
    out_A_S c i arg2 harg2 arg3 harg3 arg4 harg4 arg5 harg5 arg6 harg6 arg7 harg7 arg8 harg8 hc0 hc1 x0 x1 = k0_pay9 x0 x1 (k0_pay3 (F := F)) := by
  unfold out_A_S
  rw [View.read_writes_eq_canon _ _ _ (cover_A_S c i arg2 harg2 arg3 harg3 arg4 harg4 arg5 harg5 arg6 harg6 arg7 harg7 arg8 harg8 hc0 hc1 x0 x1)]
  unfold kernelRun_A; dsimp only
  sl_unfold_words
  simp only [View.canon_unit_zero (S := S96x1) hz2, View.canon_unit_zero (S := S96x96) hz2, View.canon_cons_unit_zero (S := S96x1) hz2, View.canon_cons_unit_zero (S := S96x96) hz2, View.readCov_unit_zero (S := S96x1) _ hz2, View.readCov_unit_zero (S := S96x96) _ hz2, View.readAt_eq_ld, harg2.read_unread, harg3.read_unread, View.ld_unit_zero (S := S1x96x3584) hz3, View.ld_unit_zero (S := S96x96) hz2, View.ld_unit_zero (S := S96x1) hz2]
  rfl

/-- The first tile adds the tile's context to zero. -/
theorem pieceA_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : condFirst i) (hc1 : ¬condLast i) (x0 : Vec F S1x96x3584 .f32) (x1 : Vec F S96x96 .bf16) :
    out_A_G c i arg2 harg2 arg3 harg3 arg4 harg4 arg5 harg5 arg6 harg6 arg7 harg7 arg8 harg8 hc0 hc1 x0 x1 = k0_pay1 (k0_pay8 x0 x1) (k0_pay4 (F := F)) (k0_pay10 x0) := by
  unfold out_A_G
  rw [View.read_writes_eq_canon _ _ _ (cover_A_G c i arg2 harg2 arg3 harg3 arg4 harg4 arg5 harg5 arg6 harg6 arg7 harg7 arg8 harg8 hc0 hc1 x0 x1)]
  unfold kernelRun_A; dsimp only
  sl_unfold_words
  simp only [View.canon_unit_zero (S := S96x1) hz2, View.canon_unit_zero (S := S96x96) hz2, View.canon_cons_unit_zero (S := S96x1) hz2, View.canon_cons_unit_zero (S := S96x96) hz2, View.readCov_unit_zero (S := S96x1) _ hz2, View.readCov_unit_zero (S := S96x96) _ hz2, View.readAt_eq_ld, harg2.read_unread, harg3.read_unread, View.ld_unit_zero (S := S1x96x3584) hz3, View.ld_unit_zero (S := S96x96) hz2, View.ld_unit_zero (S := S96x1) hz2]
  rfl

/-- The last tile adds like a middle one, -/
theorem pieceC_S (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) :
    out_C_S c i arg2 harg2 arg3 harg3 arg4 harg4 arg5 harg5 arg6 harg6 arg7 harg7 arg8 harg8 hc0 hc1 x0 x1 x2 x3 xs0 xs1 = k0_pay9 x0 x1 xs0 := by
  unfold out_C_S
  rw [View.read_writes_eq_canon _ _ _ (cover_C_S c i arg2 harg2 arg3 harg3 arg4 harg4 arg5 harg5 arg6 harg6 arg7 harg7 arg8 harg8 hc0 hc1 x0 x1 x2 x3 xs0 xs1)]
  unfold kernelRun_C; dsimp only
  sl_unfold_words
  simp only [View.canon_unit_zero (S := S96x1) hz2, View.canon_unit_zero (S := S96x96) hz2, View.canon_cons_unit_zero (S := S96x1) hz2, View.canon_cons_unit_zero (S := S96x96) hz2, View.readCov_unit_zero (S := S96x1) _ hz2, View.readCov_unit_zero (S := S96x96) _ hz2, View.readAt_eq_ld, harg2.read_unread, harg3.read_unread, harg7.read_unread, View.ld_unit_zero (S := S1x96x3584) hz3, View.ld_unit_zero (S := S96x96) hz2, View.ld_unit_zero (S := S96x1) hz2]
  rfl

theorem pieceC_G (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) :
    out_C_G c i arg2 harg2 arg3 harg3 arg4 harg4 arg5 harg5 arg6 harg6 arg7 harg7 arg8 harg8 hc0 hc1 x0 x1 x2 x3 xs0 xs1 = k0_pay1 (k0_pay8 x0 x1) xs1 (k0_pay10 x0) := by
  unfold out_C_G
  rw [View.read_writes_eq_canon _ _ _ (cover_C_G c i arg2 harg2 arg3 harg3 arg4 harg4 arg5 harg5 arg6 harg6 arg7 harg7 arg8 harg8 hc0 hc1 x0 x1 x2 x3 xs0 xs1)]
  unfold kernelRun_C; dsimp only
  sl_unfold_words
  simp only [View.canon_unit_zero (S := S96x1) hz2, View.canon_unit_zero (S := S96x96) hz2, View.canon_cons_unit_zero (S := S96x1) hz2, View.canon_cons_unit_zero (S := S96x96) hz2, View.readCov_unit_zero (S := S96x1) _ hz2, View.readCov_unit_zero (S := S96x96) _ hz2, View.readAt_eq_ld, harg2.read_unread, harg3.read_unread, harg8.read_unread, View.ld_unit_zero (S := S1x96x3584) hz3, View.ld_unit_zero (S := S96x96) hz2, View.ld_unit_zero (S := S96x1) hz2]
  rfl

/-- and folds the final sums, the value weights and the output weights into the output matrix. -/
theorem pieceC_O (c : Dev nD) (i : grid0.Coords) (arg2 : Memref sig .tc .vmem S1x96x3584 .f32) (harg2 : arg2.IsWhole) (arg3 : Memref sig .tc .vmem S96x96 .bf16) (harg3 : arg3.IsWhole) (arg4 : Memref sig .tc .vmem S96x96 .f32) (harg4 : arg4.IsWhole) (arg5 : Memref sig .tc .vmem S96x96 .f32) (harg5 : arg5.IsWhole) (arg6 : Memref sig .tc .vmem S96x96 .bf16) (harg6 : arg6.IsWhole) (arg7 : Memref sig .tc .vmem S96x1 .f32) (harg7 : arg7.IsWhole) (arg8 : Memref sig .tc .vmem S96x96 .f32) (harg8 : arg8.IsWhole) (hc0 : ¬condFirst i) (hc1 : condLast i) (x0 : Vec F S1x96x3584 .f32) (x1 : Vec F S96x96 .bf16) (x2 x3 : Vec F S96x96 .f32) (xs0 : Vec F S96x1 .f32) (xs1 : Vec F S96x96 .f32) :
    out_C_O c i arg2 harg2 arg3 harg3 arg4 harg4 arg5 harg5 arg6 harg6 arg7 harg7 arg8 harg8 hc0 hc1 x0 x1 x2 x3 xs0 xs1 = k0_pay2 (k0_pay9 x0 x1 xs0) (k0_pay9 x0 x1 xs0) (k0_pay1 (k0_pay8 x0 x1) xs1 (k0_pay10 x0)) x2 x3 := by
  unfold out_C_O
  rw [View.read_writes_eq_canon _ _ _ (cover_C_O c i arg2 harg2 arg3 harg3 arg4 harg4 arg5 harg5 arg6 harg6 arg7 harg7 arg8 harg8 hc0 hc1 x0 x1 x2 x3 xs0 xs1)]
  unfold kernelRun_C; dsimp only
  sl_unfold_words
  simp only [View.canon_unit_zero (S := S96x1) hz2, View.canon_unit_zero (S := S96x96) hz2, View.canon_cons_unit_zero (S := S96x1) hz2, View.canon_cons_unit_zero (S := S96x96) hz2, View.readCov_unit_zero (S := S96x1) _ hz2, View.readCov_unit_zero (S := S96x96) _ hz2, View.readAt_eq_ld, harg2.read_unread, harg3.read_unread, harg4.read_unread, harg5.read_unread, harg7.read_unread, harg8.read_unread, View.ld_unit_zero (S := S1x96x3584) hz3, View.ld_unit_zero (S := S96x96) hz2, View.ld_unit_zero (S := S96x1) hz2]
  rfl

end Cert.KernelIdeal.Reduce

end
-- ==== Proof.KIReduceValue1.lean ====
/-
  The first kernel's blocks as parts of its arrays: a tile of the feature map is 3584 consecutive pixels of one batch,
  the three weight windows are their whole arrays at every tile, and the one write-back (after the last tile) fills the
  whole output matrix.
-/
import proofs.«154793_g50139448213692_cont_sun_m_1014_11_alg».proof.Proof.KIReducePieces
import Idealize.ShloMosaic.Lib.ValueIdx

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

section Region
variable (V : (c : Dev nD) → (b : Ref sig .tc) → Buf (Elt F) ((c : Thread nD τ).loc b))

/-- Where tile `t` sits: batch `t / 14`, column tile `t % 14`. -/
theorem idx0 : ∀ t : Fin cfg0.N, win0_0.index t 0 = t.val / 14 ∧ win0_0.index t 1 = 0 ∧ win0_0.index t 2 = t.val % 14 :=
  (by decide +kernel : ∀ t : Fin grid0.N, win0_0.index t 0 = t.val / 14 ∧ win0_0.index t 1 = 0 ∧ win0_0.index t 2 = t.val % 14)

/-- Tile `t` of the feature map, read at feature `cc` and lane `l`: pixel `(t % 14) * 3584 + l` of batch `t / 14`. -/
theorem iblk0_apply (c : Dev nD) (t : Fin cfg0.N) (x : S1x96x3584.Idx) (k : S2x96x50176.Idx)
    (hk0 : (k 0).val = t.val / 14 + (x 0).val) (hk1 : (k 1).val = (x 1).val) (hk2 : (k 2).val = t.val % 14 * 3584 + (x 2).val) :
    (iblk V c 0 t : Vec F S1x96x3584 .f32) x = (V c main_call0_v0 : S2x96x50176.Idx → Elt F .f32) k := by
  obtain ⟨h0, h1, h2⟩ := idx0 t
  unfold iblk
  rw [View.read_apply]
  show V c main_call0_v0 _ = V c main_call0_v0 _
  congr 1
  funext a
  apply Fin.ext
  match a with
  | ⟨0, _⟩ => show win0_0.index t 0 * 1 + 1 * (x 0).val = (k 0).val; rw [h0, hk0]; omega
  | ⟨1, _⟩ => show win0_0.index t 1 * 96 + 1 * (x 1).val = (k 1).val; rw [h1, hk1]; omega
  | ⟨2, _⟩ => show win0_0.index t 2 * 3584 + 1 * (x 2).val = (k 2).val; rw [h2, hk2]; omega

/-- The transposed key weights' window is the whole matrix at every tile. -/
theorem iblk1_eq (c : Dev nD) (t : Fin cfg0.N) : (iblk V c 1 t : Vec F S96x96 .bf16) = V c main_call0_v4 := by
  have hz' : (fun a => win0_1.index t a * main_call0_v4.ty.shape.size a) = fun _ => 0 :=
    funext fun a => (by decide +kernel : ∀ (t : Fin grid0.N) (a : Fin 2), win0_1.index t a * main_call0_v4.ty.shape.size a = 0) t a
  exact Memref.read_access_unit_zero (Elt F) main_call0_v4 hz' (fun a => by rw [congrFun hz' a]; simp) (V c main_call0_v4)

/-- The value weights' window likewise. -/
theorem iblk2_eq (c : Dev nD) (t : Fin cfg0.N) : (iblk V c 2 t : Vec F S96x96 .f32) = V c main_arg3 := by
  have hz' : (fun a => win0_2.index t a * main_arg3.ty.shape.size a) = fun _ => 0 :=
    funext fun a => (by decide +kernel : ∀ (t : Fin grid0.N) (a : Fin 2), win0_2.index t a * main_arg3.ty.shape.size a = 0) t a
  exact Memref.read_access_unit_zero (Elt F) main_arg3 hz' (fun a => by rw [congrFun hz' a]; simp) (V c main_arg3)

/-- The output weights' window likewise. -/
theorem iblk3_eq (c : Dev nD) (t : Fin cfg0.N) : (iblk V c 3 t : Vec F S96x96 .f32) = V c main_arg4 := by
  have hz' : (fun a => win0_3.index t a * main_arg4.ty.shape.size a) = fun _ => 0 :=
    funext fun a => (by decide +kernel : ∀ (t : Fin grid0.N) (a : Fin 2), win0_3.index t a * main_arg4.ty.shape.size a = 0) t a
  exact Memref.read_access_unit_zero (Elt F) main_arg4 hz' (fun a => by rw [congrFun hz' a]; simp) (V c main_arg4)

/-- The last tile. -/
abbrev tLast : Fin cfg0.N := ⟨27, by rw [show cfg0.N = 28 from N_0]; decide⟩

/-- The one write-back, after the last tile, writes what that tile's fold left: block (0, 0) of the 96 x 96 matrix is the matrix. -/
theorem flushed_eq (c : Dev nD) (t : Fin cfg0.N) (hf : (cfg0.win 4).flush t = true) :
    (dat V c).flushed 4 t = ((cfg0.win 4).blk t).view.read (Elt F) (outAt V c tLast.val tLast.isLt) := by
  have hN : cfg0.N = 28 := N_0
  have h1 : t.val = 27 := by have := (flush0_4 t).mp hf; have := t.isLt; omega
  obtain rfl : t = tLast := Fin.ext h1
  show (cfg0.win 4).cut (grid0.coords tLast) ((dat V c).after 4 tLast) = _
  rw [after_4]
  have hz' : (fun a => win0_4.index tLast a * main_call0_v7.ty.shape.size a) = fun _ => 0 := funext fun a => by fin_cases a <;> decide +kernel
  exact (Memref.read_access_unit_zero (Elt F) main_call0_v7 hz' (fun a => by rw [congrFun hz' a]; simp) (outAt V c tLast.val tLast.isLt)).symm

/-- So the output matrix ends holding what the last tile's fold left. -/
theorem final_A (c : Dev nD) : (dat V c).arrAt 4 cfg0.N = outAt V c tLast.val tLast.isLt :=
  (dat V c).arrAt_eq_of_cover 4 (outAt V c tLast.val tLast.isLt) (flushed_eq V c) fun i =>
    ⟨tLast, (flush0_4 tLast).mpr rfl, by
      show i ∈ ((View.whole main_call0_v7).slice (win0_4.rect tLast)).set
      rw [View.set_slice_whole, Rect.mem_set_unit]
      intro a
      have h0 : (i 0 : Nat) < 96 := (i 0).isLt
      have h1 : (i 1 : Nat) < 96 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 96 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 96 from by decide +kernel]; omega⟩

end Region

end Cert.KernelIdeal.Reduce

end
-- ==== Proof.Spec.lean ====
/-
  The two programs as mathematics, over the extended reals.

  A token is a row `x n` of 96 features; `T` is the (finite) type of tokens. Both programs compute a
  linear-attention block followed by a layer normalisation, and zero the rows of dead tokens (a token is
  dead when all its features are zero, i.e. the sum of their absolute values is not positive):

  * `Fused`: the tiled form. The key softmax over tokens is kept as an unnormalised sum `S` and an
    unnormalised context `G`, no maximum is subtracted, the value and output projections are folded into one
    96 x 96 matrix `A`, the query softmax is divided out after the product with `A`, the variance is
    E[o^2] - E[o]^2 clipped at zero, the reciprocal square root and the mask are folded into one factor.
  * `Plain`: the textbook form. Softmaxes subtract their maximum, dead tokens get the score -infinity,
    the variance is the mean squared deviation, the result is selected by the mask at the end.

  `eps`, `c96`, `inv96` are the three non-trivial constants (the variance offset, ninety-six, and its
  reciprocal); the statements that use them say what they assume of them.
-/
import Idealize.ShloMosaic.PureOps.Ideal

noncomputable section

namespace Cert.Attn

open Idealize.ShloMosaic

variable {T : Type} [Fintype T]
variable (x : T → Fin 96 → EReal) (Wq Wk Wv Wo : Fin 96 → Fin 96 → EReal) (γ β : Fin 96 → EReal)
variable (eps c96 inv96 : EReal)

/-- The sum of the absolute values of a token's features. -/
def absSum (n : T) : EReal := ∑ c, max (x n c) (-(x n c))

/-- A token is live when that sum is positive. -/
def Live (n : T) : Prop := 0 < absSum x n

instance (n : T) : Decidable (Live x n) := by unfold Live; infer_instance

/-- The mask as a number. -/
def msk (n : T) : EReal := if Live x n then 1 else 0

namespace Fused

/-- Key scores. -/
def kl (n : T) (c' : Fin 96) : EReal := ∑ c, Wk c c' * x n c
/-- Unnormalised key weights, zero at dead tokens. -/
def e (n : T) (c' : Fin 96) : EReal := Ideal.exp (kl x Wk n c') * msk x n
/-- Their sum over all tokens. -/
def S (c' : Fin 96) : EReal := ∑ n, e x Wk n c'
/-- The unnormalised context against the raw features. -/
def G (c' c : Fin 96) : EReal := ∑ n, e x Wk n c' * x n c
/-- ... projected by the value weights. -/
def u (c' d : Fin 96) : EReal := ∑ c, G x Wk c' c * Wv c d
/-- The normaliser, replaced by one where it is not positive. -/
def ssafe (c' : Fin 96) : EReal := if 0 < S x Wk c' then S x Wk c' else 1
/-- The context. -/
def ctx (c' d : Fin 96) : EReal := Ideal.div (u x Wk Wv c' d) (ssafe x Wk c')
/-- The context projected by the output weights, transposed. -/
def A (f c' : Fin 96) : EReal := ∑ d, ctx x Wk Wv c' d * Wo d f
/-- Query scores. -/
def ql (n : T) (c' : Fin 96) : EReal := ∑ c, Wq c c' * x n c
/-- Unnormalised query weights. -/
def eq (n : T) (c' : Fin 96) : EReal := Ideal.exp (ql x Wq n c')
/-- Their sum over the features. -/
def sq (n : T) : EReal := ∑ c', eq x Wq n c'
/-- The unnormalised attention output. -/
def raw (n : T) (f : Fin 96) : EReal := ∑ c', A x Wk Wv Wo f c' * eq x Wq n c'
/-- Residual plus attention. -/
def out (n : T) (f : Fin 96) : EReal := x n f + Ideal.div (raw x Wq Wk Wv Wo n f) (sq x Wq n)
/-- The mean over the features. -/
def mu (n : T) : EReal := ∑ f, inv96 * out x Wq Wk Wv Wo n f
/-- The mean of the squares. -/
def m2 (n : T) : EReal := ∑ f, inv96 * (out x Wq Wk Wv Wo n f * out x Wq Wk Wv Wo n f)
/-- The variance, clipped at zero. -/
def var (n : T) : EReal := max (m2 x Wq Wk Wv Wo inv96 n - mu x Wq Wk Wv Wo inv96 n * mu x Wq Wk Wv Wo inv96 n) 0
/-- The scale with the mask folded in. -/
def rfac (n : T) : EReal := Ideal.rsqrt (var x Wq Wk Wv Wo inv96 n + eps) * msk x n
/-- The result. -/
def res (n : T) (f : Fin 96) : EReal :=
  (out x Wq Wk Wv Wo n f - mu x Wq Wk Wv Wo inv96 n) * rfac x Wq Wk Wv Wo eps inv96 n * γ f + β f * msk x n

end Fused

namespace Plain

/-- The token with a dead row zeroed. -/
def tok (n : T) (c : Fin 96) : EReal := if Live x n then x n c else 0
/-- Query scores. -/
def ql (n : T) (c' : Fin 96) : EReal := ∑ c, tok x n c * Wq c c'
/-- Their maximum over the features (never below -infinity). -/
def mq (n : T) : EReal := max ⊥ (Finset.univ.sup fun c' => ql x Wq n c')
/-- Shifted query weights. -/
def eq (n : T) (c' : Fin 96) : EReal := Ideal.exp (ql x Wq n c' - mq x Wq n)
/-- The query softmax. -/
def q (n : T) (c' : Fin 96) : EReal := Ideal.div (eq x Wq n c') (∑ c'', eq x Wq n c'')
/-- Key scores, -infinity at dead tokens. -/
def kl (n : T) (c' : Fin 96) : EReal := if Live x n then ∑ c, tok x n c * Wk c c' else ⊥
/-- Their maximum over the tokens. -/
def mk (c' : Fin 96) : EReal := max ⊥ (Finset.univ.sup fun n => kl x Wk n c')
/-- Shifted key weights. -/
def ek (n : T) (c' : Fin 96) : EReal := Ideal.exp (kl x Wk n c' - mk x Wk c')
/-- The key softmax over tokens. -/
def k (n : T) (c' : Fin 96) : EReal := Ideal.div (ek x Wk n c') (∑ n', ek x Wk n' c')
/-- Values. -/
def v (n : T) (d : Fin 96) : EReal := ∑ c, tok x n c * Wv c d
/-- The context. -/
def ctx (c' d : Fin 96) : EReal := ∑ n, k x Wk n c' * v x Wv n d
/-- Query times context. -/
def t1 (n : T) (d : Fin 96) : EReal := ∑ c', q x Wq n c' * ctx x Wk Wv c' d
/-- ... projected by the output weights. -/
def attn (n : T) (f : Fin 96) : EReal := ∑ d, t1 x Wq Wk Wv n d * Wo d f
/-- Residual plus attention. -/
def out (n : T) (f : Fin 96) : EReal := tok x n f + attn x Wq Wk Wv Wo n f
/-- The mean over the features. -/
def mu (n : T) : EReal := Ideal.div (∑ f, out x Wq Wk Wv Wo n f) c96
/-- The deviation from the mean. -/
def dev (n : T) (f : Fin 96) : EReal := out x Wq Wk Wv Wo n f - mu x Wq Wk Wv Wo c96 n
/-- The variance. -/
def var (n : T) : EReal := Ideal.div (∑ f, dev x Wq Wk Wv Wo c96 n f * dev x Wq Wk Wv Wo c96 n f) c96
/-- The normalised row. -/
def normed (n : T) (f : Fin 96) : EReal :=
  Ideal.div (dev x Wq Wk Wv Wo c96 n f) (Ideal.sqrt (var x Wq Wk Wv Wo c96 n + eps)) * γ f + β f
/-- The result: dead tokens zeroed. -/
def res (n : T) (f : Fin 96) : EReal := if Live x n then normed x Wq Wk Wv Wo γ β eps c96 n f else 0

end Plain

/-- What the equality of the two forms assumes: every input is a real number, and the three constants are
    a positive real, ninety-six, and its reciprocal. -/
structure Finite : Prop where
  x : ∀ n c, ∃ r : ℝ, x n c = (r : EReal)
  Wq : ∀ a b, ∃ r : ℝ, Wq a b = (r : EReal)
  Wk : ∀ a b, ∃ r : ℝ, Wk a b = (r : EReal)
  Wv : ∀ a b, ∃ r : ℝ, Wv a b = (r : EReal)
  Wo : ∀ a b, ∃ r : ℝ, Wo a b = (r : EReal)
  γ : ∀ a, ∃ r : ℝ, γ a = (r : EReal)
  β : ∀ a, ∃ r : ℝ, β a = (r : EReal)
  eps : ∃ r : ℝ, 0 < r ∧ eps = (r : EReal)
  c96 : c96 = ((96 : ℝ) : EReal)
  inv96 : inv96 = ((1 / 96 : ℝ) : EReal)

end Cert.Attn

end
-- ==== Proof.TileSpec.lean ====
/-
  The second kernel's arithmetic on one group of tokens, with the folded 96 x 96 matrix `A` given: what
  `Fused.res` computes once `A` is known. `Fused.res` is this at `A := Fused.A`.
-/
import proofs.«154793_g50139448213692_cont_sun_m_1014_11_alg».proof.Proof.Spec

noncomputable section

namespace Cert.Attn.Tile

open Idealize.ShloMosaic

variable {T : Type} [Fintype T]
variable (x : T → Fin 96 → EReal) (Wq : Fin 96 → Fin 96 → EReal) (A : Fin 96 → Fin 96 → EReal) (γ β : Fin 96 → EReal)
variable (eps inv96 : EReal)

/-- The unnormalised attention output against a given matrix. -/
def raw (n : T) (f : Fin 96) : EReal := ∑ c', A f c' * Fused.eq x Wq n c'
/-- Residual plus attention. -/
def out (n : T) (f : Fin 96) : EReal := x n f + Ideal.div (raw x Wq A n f) (Fused.sq x Wq n)
/-- The mean over the features. -/
def mu (n : T) : EReal := ∑ f, inv96 * out x Wq A n f
/-- The mean of the squares. -/
def m2 (n : T) : EReal := ∑ f, inv96 * (out x Wq A n f * out x Wq A n f)
/-- The variance, clipped at zero. -/
def var (n : T) : EReal := max (m2 x Wq A inv96 n - mu x Wq A inv96 n * mu x Wq A inv96 n) 0
/-- The scale with the mask folded in. -/
def rfac (n : T) : EReal := Ideal.rsqrt (var x Wq A inv96 n + eps) * msk x n
/-- The result. -/
def res (n : T) (f : Fin 96) : EReal :=
  (out x Wq A n f - mu x Wq A inv96 n) * rfac x Wq A eps inv96 n * γ f + β f * msk x n

/-- The fused form is the tile form at its own folded matrix. -/
theorem fused_res (Wk Wv Wo : Fin 96 → Fin 96 → EReal) (n : T) (f : Fin 96) :
    Fused.res x Wq Wk Wv Wo γ β eps inv96 n f = res x Wq (Fused.A x Wk Wv Wo) γ β eps inv96 n f := rfl

/-- The folded matrix from the running statistics: the sums `S`, `G` of the first kernel, the value and output weights. -/
def foldA (S : Fin 96 → EReal) (G : Fin 96 → Fin 96 → EReal) (Wv Wo : Fin 96 → Fin 96 → EReal) (f c' : Fin 96) : EReal :=
  ∑ d, Ideal.div (∑ c, G c' c * Wv c d) (if 0 < S c' then S c' else 1) * Wo d f

/-- The fused form's matrix is the fold of its own statistics. -/
theorem fused_A (Wk Wv Wo : Fin 96 → Fin 96 → EReal) (f c' : Fin 96) :
    Fused.A x Wk Wv Wo f c' = foldA (Fused.S x Wk) (Fused.G x Wk) Wv Wo f c' := rfl

end Cert.Attn.Tile

end
-- ==== Proof.KIReducePay.lean ====
import proofs.«154793_g50139448213692_cont_sun_m_1014_11_alg».proof.Proof.Gen.KernelIdeal.Skeleton
import proofs.«154793_g50139448213692_cont_sun_m_1014_11_alg».proof.Proof.TileSpec
import Idealize.ShloMosaic.Lib.ValueIdx
import Idealize.ShloMosaic.Lib.ValueLayout
import Idealize.ShloMosaic.Lib.Pipeline.Value
import Idealize.ShloMosaic.PureOps.Ideal.Laws

/-!
  The arithmetic of the first kernel read at an index, at the extended reals: the zero initial values, the
  unnormalised key weights of one tile of tokens, their running sum over the tokens, the running context
  against the raw features, and the folded 96 x 96 matrix.
-/

noncomputable section

namespace Cert.KernelIdeal.ReducePay

open Cert.KernelIdeal Cert.KernelIdeal.Gen Idealize.ShloMosaic ValueIdx

/-- The tokens of one tile of the feature map, `[1, 96 features, 3584 tokens]`, one row of features each. -/
def tileRows (x8 : Vec Ideal S1x96x3584 .f32) : Fin 3584 → Fin 96 → EReal := fun l c => x8 (ix3 (0 : Fin 1) c l)

/-- The key weights, stored transposed. -/
def wT (x19 : Vec Ideal S96x96 .bf16) : Fin 96 → Fin 96 → EReal := fun c c' => x19 (ix2 c' c)

/-! ## Words and literals -/

/-- The literal one. -/
theorem ofBits_one_f32 : Ideal.ofBits .f32 0x3F800000#32 = 1 := by
  simp [Ideal.ofBits, Ideal.ieee, -EReal.coe_mul]
  norm_num

/-- A condition bit widened and converted to a float is one or zero. -/
theorem sitofp_extui_ofBool (b : Bool) :
    FloatOps.sitofp (F := Ideal) .f32 ((BitVec.ofBool b).setWidth 32) = if b then 1 else 0 := by
  cases b
  · have h : ((BitVec.ofBool false).setWidth 32 : BitVec 32).toInt = 0 := by decide
    show (((((BitVec.ofBool false).setWidth 32 : BitVec 32).toInt : ℤ) : ℝ) : EReal) = _
    rw [h]; simp
  · have h : ((BitVec.ofBool true).setWidth 32 : BitVec 32).toInt = 1 := by decide
    show (((((BitVec.ofBool true).setWidth 32 : BitVec 32).toInt : ℤ) : ℝ) : EReal) = _
    rw [h]; simp

/-! ## The zero initial values -/

theorem pay3_apply (c' : Fin 96) : k0_pay3 (F := Ideal) (ix2 c' (0 : Fin 1)) = 0 := by
  unfold k0_pay3
  rw [shapeCast_self]
  exact Ideal.ofBits_zero_f32

theorem pay4_apply (c' c : Fin 96) : k0_pay4 (F := Ideal) (ix2 c' c) = 0 := by
  unfold k0_pay4
  rw [shapeCast_self]
  exact Ideal.ofBits_zero_f32

/-! ## The tile read as a matrix -/

theorem pay5_apply (x8 : Vec Ideal S1x96x3584 .f32) (c : Fin 96) (l : Fin 3584) :
    k0_pay5 (F := Ideal) x8 (ix2 c l) = tileRows x8 l c := by
  unfold k0_pay5
  exact shapeCast_1ab_ab_apply x8 _ c l

theorem pay6_apply (x8 : Vec Ideal S1x96x3584 .f32) (c : Fin 96) (l : Fin 3584) :
    k0_pay6 (F := Ideal) x8 (ix2 c l) = tileRows x8 l c := by
  unfold k0_pay6
  exact pay5_apply x8 c l

theorem pay10_apply (x8 : Vec Ideal S1x96x3584 .f32) (l : Fin 3584) (c : Fin 96) :
    k0_pay10 (F := Ideal) x8 (ix2 l c) = tileRows x8 l c := by
  unfold k0_pay10
  refine (transpose_ix2_apply (k0_pay6 (F := Ideal) x8) _ l c).trans ?_
  exact pay6_apply x8 c l

/-! ## The four matrix products read at an index -/

/-! ### [8, 96] x [96, 3584]: the rows of ones against the absolute values -/

theorem mmOnes_lhs0 (i : S8x3584.Idx) (q : dot_S8x96_S96x3584_S8x3584_1_0_0_1_n_n.contr.Idx) :
    (dot_S8x96_S96x3584_S8x3584_1_0_0_1_n_n.lhsIdx i q 0).val = (i 0).val := by
  unfold DotDims.lhsIdx
  rw [dif_neg (show ¬(0 : Fin S8x96.rank) ∈ dot_S8x96_S96x3584_S8x3584_1_0_0_1_n_n.lhsBatch by decide),
    dif_pos (show (0 : Fin S8x96.rank) ∈ dot_S8x96_S96x3584_S8x3584_1_0_0_1_n_n.lhsNonContracting by decide)]
  rfl
theorem mmOnes_lhs1 (i : S8x3584.Idx) (q : dot_S8x96_S96x3584_S8x3584_1_0_0_1_n_n.contr.Idx) :
    (dot_S8x96_S96x3584_S8x3584_1_0_0_1_n_n.lhsIdx i q 1).val = (q ⟨0, by decide⟩).val :=
  dot_S8x96_S96x3584_S8x3584_1_0_0_1_n_n.lhsIdx_val_of_single rfl i q
theorem mmOnes_rhs0 (i : S8x3584.Idx) (q : dot_S8x96_S96x3584_S8x3584_1_0_0_1_n_n.contr.Idx) :
    (dot_S8x96_S96x3584_S8x3584_1_0_0_1_n_n.rhsIdx i q 0).val = (q ⟨0, by decide⟩).val :=
  dot_S8x96_S96x3584_S8x3584_1_0_0_1_n_n.rhsIdx_val_of_single rfl i q
theorem mmOnes_rhs1 (i : S8x3584.Idx) (q : dot_S8x96_S96x3584_S8x3584_1_0_0_1_n_n.contr.Idx) :
    (dot_S8x96_S96x3584_S8x3584_1_0_0_1_n_n.rhsIdx i q 1).val = (i 1).val := by
  unfold DotDims.rhsIdx
  rw [dif_neg (show ¬(1 : Fin S96x3584.rank) ∈ dot_S8x96_S96x3584_S8x3584_1_0_0_1_n_n.rhsBatch by decide),
    dif_pos (show (1 : Fin S96x3584.rank) ∈ dot_S8x96_S96x3584_S8x3584_1_0_0_1_n_n.rhsNonContracting by decide)]
  rfl

/-- The product into a zero accumulator, read at `(p, r)`: the sum over the contracted coordinate. -/
theorem mmOnes_apply {φ₁ φ₂ : FTy} (lhs : FVec Ideal S8x96 φ₁) (rhs : FVec Ideal S96x3584 φ₂) (p : Fin 8) (r : Fin 3584) :
    matmul dot_S8x96_S96x3584_S8x3584_1_0_0_1_n_n none lhs rhs (constant (F := Ideal) S8x3584 .f32 0x00000000#32) (ix2 p r)
      = ∑ q : Fin 96, lhs (ix2 p q) * rhs (ix2 q r) := by
  simp only [matmul]
  rw [Ideal.matmul_constant_zero_apply,
    ← Equiv.sum_comp (contrEquiv1 dot_S8x96_S96x3584_S8x3584_1_0_0_1_n_n 96 rfl rfl).symm]
  refine Finset.sum_congr rfl fun q _ => ?_
  have hq := contrEquiv1_symm_val dot_S8x96_S96x3584_S8x3584_1_0_0_1_n_n 96 rfl rfl q
  have el : dot_S8x96_S96x3584_S8x3584_1_0_0_1_n_n.lhsIdx (ix2 p r) ((contrEquiv1 dot_S8x96_S96x3584_S8x3584_1_0_0_1_n_n 96 rfl rfl).symm q) = ix2 p q :=
    funext fun a => Fin.ext (by
      match a with
      | ⟨0, _⟩ => exact mmOnes_lhs0 _ _
      | ⟨1, _⟩ => exact (mmOnes_lhs1 _ _).trans hq)
  have er : dot_S8x96_S96x3584_S8x3584_1_0_0_1_n_n.rhsIdx (ix2 p r) ((contrEquiv1 dot_S8x96_S96x3584_S8x3584_1_0_0_1_n_n 96 rfl rfl).symm q) = ix2 q r :=
    funext fun a => Fin.ext (by
      match a with
      | ⟨0, _⟩ => exact (mmOnes_rhs0 _ _).trans hq
      | ⟨1, _⟩ => exact mmOnes_rhs1 _ _)
  rw [el, er]

/-! ### [96, 96] x [96, 3584]: the key weights against the tile -/

theorem mmKey_lhs0 (i : S96x3584.Idx) (q : dot_S96x96_S96x3584_S96x3584_1_0_0_1_n_n.contr.Idx) :
    (dot_S96x96_S96x3584_S96x3584_1_0_0_1_n_n.lhsIdx i q 0).val = (i 0).val := by
  unfold DotDims.lhsIdx
  rw [dif_neg (show ¬(0 : Fin S96x96.rank) ∈ dot_S96x96_S96x3584_S96x3584_1_0_0_1_n_n.lhsBatch by decide),
    dif_pos (show (0 : Fin S96x96.rank) ∈ dot_S96x96_S96x3584_S96x3584_1_0_0_1_n_n.lhsNonContracting by decide)]
  rfl
theorem mmKey_lhs1 (i : S96x3584.Idx) (q : dot_S96x96_S96x3584_S96x3584_1_0_0_1_n_n.contr.Idx) :
    (dot_S96x96_S96x3584_S96x3584_1_0_0_1_n_n.lhsIdx i q 1).val = (q ⟨0, by decide⟩).val :=
  dot_S96x96_S96x3584_S96x3584_1_0_0_1_n_n.lhsIdx_val_of_single rfl i q
theorem mmKey_rhs0 (i : S96x3584.Idx) (q : dot_S96x96_S96x3584_S96x3584_1_0_0_1_n_n.contr.Idx) :
    (dot_S96x96_S96x3584_S96x3584_1_0_0_1_n_n.rhsIdx i q 0).val = (q ⟨0, by decide⟩).val :=
  dot_S96x96_S96x3584_S96x3584_1_0_0_1_n_n.rhsIdx_val_of_single rfl i q
theorem mmKey_rhs1 (i : S96x3584.Idx) (q : dot_S96x96_S96x3584_S96x3584_1_0_0_1_n_n.contr.Idx) :
    (dot_S96x96_S96x3584_S96x3584_1_0_0_1_n_n.rhsIdx i q 1).val = (i 1).val := by
  unfold DotDims.rhsIdx
  rw [dif_neg (show ¬(1 : Fin S96x3584.rank) ∈ dot_S96x96_S96x3584_S96x3584_1_0_0_1_n_n.rhsBatch by decide),
    dif_pos (show (1 : Fin S96x3584.rank) ∈ dot_S96x96_S96x3584_S96x3584_1_0_0_1_n_n.rhsNonContracting by decide)]
  rfl

/-- The product into a zero accumulator, read at `(p, r)`: the sum over the contracted coordinate. -/
theorem mmKey_apply {φ₁ φ₂ : FTy} (lhs : FVec Ideal S96x96 φ₁) (rhs : FVec Ideal S96x3584 φ₂) (p : Fin 96) (r : Fin 3584) :
    matmul dot_S96x96_S96x3584_S96x3584_1_0_0_1_n_n none lhs rhs (constant (F := Ideal) S96x3584 .f32 0x00000000#32) (ix2 p r)
      = ∑ q : Fin 96, lhs (ix2 p q) * rhs (ix2 q r) := by
  simp only [matmul]
  rw [Ideal.matmul_constant_zero_apply,
    ← Equiv.sum_comp (contrEquiv1 dot_S96x96_S96x3584_S96x3584_1_0_0_1_n_n 96 rfl rfl).symm]
  refine Finset.sum_congr rfl fun q _ => ?_
  have hq := contrEquiv1_symm_val dot_S96x96_S96x3584_S96x3584_1_0_0_1_n_n 96 rfl rfl q
  have el : dot_S96x96_S96x3584_S96x3584_1_0_0_1_n_n.lhsIdx (ix2 p r) ((contrEquiv1 dot_S96x96_S96x3584_S96x3584_1_0_0_1_n_n 96 rfl rfl).symm q) = ix2 p q :=
    funext fun a => Fin.ext (by
      match a with
      | ⟨0, _⟩ => exact mmKey_lhs0 _ _
      | ⟨1, _⟩ => exact (mmKey_lhs1 _ _).trans hq)
  have er : dot_S96x96_S96x3584_S96x3584_1_0_0_1_n_n.rhsIdx (ix2 p r) ((contrEquiv1 dot_S96x96_S96x3584_S96x3584_1_0_0_1_n_n 96 rfl rfl).symm q) = ix2 q r :=
    funext fun a => Fin.ext (by
      match a with
      | ⟨0, _⟩ => exact (mmKey_rhs0 _ _).trans hq
      | ⟨1, _⟩ => exact mmKey_rhs1 _ _)
  rw [el, er]

/-! ### [96, 3584] x [3584, 96]: the key weights of the tokens against the transposed tile -/

theorem mmCtx_lhs0 (i : S96x96.Idx) (q : dot_S96x3584_S3584x96_S96x96_1_0_0_1_n_n.contr.Idx) :
    (dot_S96x3584_S3584x96_S96x96_1_0_0_1_n_n.lhsIdx i q 0).val = (i 0).val := by
  unfold DotDims.lhsIdx
  rw [dif_neg (show ¬(0 : Fin S96x3584.rank) ∈ dot_S96x3584_S3584x96_S96x96_1_0_0_1_n_n.lhsBatch by decide),
    dif_pos (show (0 : Fin S96x3584.rank) ∈ dot_S96x3584_S3584x96_S96x96_1_0_0_1_n_n.lhsNonContracting by decide)]
  rfl
theorem mmCtx_lhs1 (i : S96x96.Idx) (q : dot_S96x3584_S3584x96_S96x96_1_0_0_1_n_n.contr.Idx) :
    (dot_S96x3584_S3584x96_S96x96_1_0_0_1_n_n.lhsIdx i q 1).val = (q ⟨0, by decide⟩).val :=
  dot_S96x3584_S3584x96_S96x96_1_0_0_1_n_n.lhsIdx_val_of_single rfl i q
theorem mmCtx_rhs0 (i : S96x96.Idx) (q : dot_S96x3584_S3584x96_S96x96_1_0_0_1_n_n.contr.Idx) :
    (dot_S96x3584_S3584x96_S96x96_1_0_0_1_n_n.rhsIdx i q 0).val = (q ⟨0, by decide⟩).val :=
  dot_S96x3584_S3584x96_S96x96_1_0_0_1_n_n.rhsIdx_val_of_single rfl i q
theorem mmCtx_rhs1 (i : S96x96.Idx) (q : dot_S96x3584_S3584x96_S96x96_1_0_0_1_n_n.contr.Idx) :
    (dot_S96x3584_S3584x96_S96x96_1_0_0_1_n_n.rhsIdx i q 1).val = (i 1).val := by
  unfold DotDims.rhsIdx
  rw [dif_neg (show ¬(1 : Fin S3584x96.rank) ∈ dot_S96x3584_S3584x96_S96x96_1_0_0_1_n_n.rhsBatch by decide),
    dif_pos (show (1 : Fin S3584x96.rank) ∈ dot_S96x3584_S3584x96_S96x96_1_0_0_1_n_n.rhsNonContracting by decide)]
  rfl

/-- The product into a zero accumulator, read at `(p, r)`: the sum over the contracted coordinate. -/
theorem mmCtx_apply {φ₁ φ₂ : FTy} (lhs : FVec Ideal S96x3584 φ₁) (rhs : FVec Ideal S3584x96 φ₂) (p : Fin 96) (r : Fin 96) :
    matmul dot_S96x3584_S3584x96_S96x96_1_0_0_1_n_n none lhs rhs (constant (F := Ideal) S96x96 .f32 0x00000000#32) (ix2 p r)
      = ∑ q : Fin 3584, lhs (ix2 p q) * rhs (ix2 q r) := by
  simp only [matmul]
  rw [Ideal.matmul_constant_zero_apply,
    ← Equiv.sum_comp (contrEquiv1 dot_S96x3584_S3584x96_S96x96_1_0_0_1_n_n 3584 rfl rfl).symm]
  refine Finset.sum_congr rfl fun q _ => ?_
  have hq := contrEquiv1_symm_val dot_S96x3584_S3584x96_S96x96_1_0_0_1_n_n 3584 rfl rfl q
  have el : dot_S96x3584_S3584x96_S96x96_1_0_0_1_n_n.lhsIdx (ix2 p r) ((contrEquiv1 dot_S96x3584_S3584x96_S96x96_1_0_0_1_n_n 3584 rfl rfl).symm q) = ix2 p q :=
    funext fun a => Fin.ext (by
      match a with
      | ⟨0, _⟩ => exact mmCtx_lhs0 _ _
      | ⟨1, _⟩ => exact (mmCtx_lhs1 _ _).trans hq)
  have er : dot_S96x3584_S3584x96_S96x96_1_0_0_1_n_n.rhsIdx (ix2 p r) ((contrEquiv1 dot_S96x3584_S3584x96_S96x96_1_0_0_1_n_n 3584 rfl rfl).symm q) = ix2 q r :=
    funext fun a => Fin.ext (by
      match a with
      | ⟨0, _⟩ => exact (mmCtx_rhs0 _ _).trans hq
      | ⟨1, _⟩ => exact mmCtx_rhs1 _ _)
  rw [el, er]

/-! ### [96, 96] x [96, 96] -/

theorem mmSq_lhs0 (i : S96x96.Idx) (q : dot_S96x96_S96x96_S96x96_1_0_0_1_n_n.contr.Idx) :
    (dot_S96x96_S96x96_S96x96_1_0_0_1_n_n.lhsIdx i q 0).val = (i 0).val := by
  unfold DotDims.lhsIdx
  rw [dif_neg (show ¬(0 : Fin S96x96.rank) ∈ dot_S96x96_S96x96_S96x96_1_0_0_1_n_n.lhsBatch by decide),
    dif_pos (show (0 : Fin S96x96.rank) ∈ dot_S96x96_S96x96_S96x96_1_0_0_1_n_n.lhsNonContracting by decide)]
  rfl
theorem mmSq_lhs1 (i : S96x96.Idx) (q : dot_S96x96_S96x96_S96x96_1_0_0_1_n_n.contr.Idx) :
    (dot_S96x96_S96x96_S96x96_1_0_0_1_n_n.lhsIdx i q 1).val = (q ⟨0, by decide⟩).val :=
  dot_S96x96_S96x96_S96x96_1_0_0_1_n_n.lhsIdx_val_of_single rfl i q
theorem mmSq_rhs0 (i : S96x96.Idx) (q : dot_S96x96_S96x96_S96x96_1_0_0_1_n_n.contr.Idx) :
    (dot_S96x96_S96x96_S96x96_1_0_0_1_n_n.rhsIdx i q 0).val = (q ⟨0, by decide⟩).val :=
  dot_S96x96_S96x96_S96x96_1_0_0_1_n_n.rhsIdx_val_of_single rfl i q
theorem mmSq_rhs1 (i : S96x96.Idx) (q : dot_S96x96_S96x96_S96x96_1_0_0_1_n_n.contr.Idx) :
    (dot_S96x96_S96x96_S96x96_1_0_0_1_n_n.rhsIdx i q 1).val = (i 1).val := by
  unfold DotDims.rhsIdx
  rw [dif_neg (show ¬(1 : Fin S96x96.rank) ∈ dot_S96x96_S96x96_S96x96_1_0_0_1_n_n.rhsBatch by decide),
    dif_pos (show (1 : Fin S96x96.rank) ∈ dot_S96x96_S96x96_S96x96_1_0_0_1_n_n.rhsNonContracting by decide)]
  rfl

/-- The product into a zero accumulator, read at `(p, r)`: the sum over the contracted coordinate. -/
theorem mmSq_apply {φ₁ φ₂ : FTy} (lhs : FVec Ideal S96x96 φ₁) (rhs : FVec Ideal S96x96 φ₂) (p : Fin 96) (r : Fin 96) :
    matmul dot_S96x96_S96x96_S96x96_1_0_0_1_n_n none lhs rhs (constant (F := Ideal) S96x96 .f32 0x00000000#32) (ix2 p r)
      = ∑ q : Fin 96, lhs (ix2 p q) * rhs (ix2 q r) := by
  simp only [matmul]
  rw [Ideal.matmul_constant_zero_apply,
    ← Equiv.sum_comp (contrEquiv1 dot_S96x96_S96x96_S96x96_1_0_0_1_n_n 96 rfl rfl).symm]
  refine Finset.sum_congr rfl fun q _ => ?_
  have hq := contrEquiv1_symm_val dot_S96x96_S96x96_S96x96_1_0_0_1_n_n 96 rfl rfl q
  have el : dot_S96x96_S96x96_S96x96_1_0_0_1_n_n.lhsIdx (ix2 p r) ((contrEquiv1 dot_S96x96_S96x96_S96x96_1_0_0_1_n_n 96 rfl rfl).symm q) = ix2 p q :=
    funext fun a => Fin.ext (by
      match a with
      | ⟨0, _⟩ => exact mmSq_lhs0 _ _
      | ⟨1, _⟩ => exact (mmSq_lhs1 _ _).trans hq)
  have er : dot_S96x96_S96x96_S96x96_1_0_0_1_n_n.rhsIdx (ix2 p r) ((contrEquiv1 dot_S96x96_S96x96_S96x96_1_0_0_1_n_n 96 rfl rfl).symm q) = ix2 q r :=
    funext fun a => Fin.ext (by
      match a with
      | ⟨0, _⟩ => exact (mmSq_rhs0 _ _).trans hq
      | ⟨1, _⟩ => exact mmSq_rhs1 _ _)
  rw [el, er]

/-! ## Two layout operations on a column -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The mask -/

/-- A comparison "above zero", widened and converted, is one where it holds … -/
theorem maskWord_pos (a : EReal) (h : 0 < a) :
    FloatOps.sitofp (F := Ideal) .f32 ((Ideal.cmp .ogt a (Ideal.ofBits .f32 0x00000000#32)).setWidth 32) = 1 := by
  rw [Ideal.ofBits_zero_f32]
  show FloatOps.sitofp (F := Ideal) .f32 ((BitVec.ofBool (decide (0 < a))).setWidth 32) = _
  rw [sitofp_extui_ofBool, decide_eq_true h]
  rfl

/-- … and zero where it does not. -/
theorem maskWord_neg (a : EReal) (h : ¬ 0 < a) :
    FloatOps.sitofp (F := Ideal) .f32 ((Ideal.cmp .ogt a (Ideal.ofBits .f32 0x00000000#32)).setWidth 32) = 0 := by
  rw [Ideal.ofBits_zero_f32]
  show FloatOps.sitofp (F := Ideal) .f32 ((BitVec.ofBool (decide (0 < a))).setWidth 32) = _
  rw [sitofp_extui_ofBool, decide_eq_false h]
  rfl

/-- A row of ones times the absolute values: the sum of the absolute values of the token's features. -/
theorem onesRow_apply (y : FVec Ideal S96x3584 .f32) (r : Fin 8) (l : Fin 3584) :
    matmul dot_S8x96_S96x3584_S8x3584_1_0_0_1_n_n none
        (broadcast S8x96 (Scalar.ofBits (F := Ideal) .f32 0x3F800000#32)) (absf y)
        (constant (F := Ideal) S8x3584 .f32 0x00000000#32) (ix2 r l)
      = ∑ c : Fin 96, max (y (ix2 c l)) (-(y (ix2 c l))) := by
  refine (mmOnes_apply _ _ r l).trans ?_
  refine Finset.sum_congr rfl fun c _ => ?_
  show Ideal.ofBits .f32 0x3F800000#32 * max (y (ix2 c l)) (-(y (ix2 c l))) = _
  rw [ofBits_one_f32, one_mul]

/-- The mask of the spec is the test "the sum of the absolute values is positive". -/
theorem msk_pos (x : Fin 3584 → Fin 96 → EReal) (l : Fin 3584)
    (h : 0 < ∑ c : Fin 96, max (x l c) (-(x l c))) : Cert.Attn.msk x l = 1 := by
  unfold Cert.Attn.msk
  exact if_pos h

theorem msk_neg (x : Fin 3584 → Fin 96 → EReal) (l : Fin 3584)
    (h : ¬ 0 < ∑ c : Fin 96, max (x l c) (-(x l c))) : Cert.Attn.msk x l = 0 := by
  unfold Cert.Attn.msk
  exact if_neg h

/-! ## The unnormalised key weights -/

theorem pay7_apply (x8 : Vec Ideal S1x96x3584 .f32) (x19 : Vec Ideal S96x96 .bf16) (c' : Fin 96) (l : Fin 3584) :
    k0_pay7 (F := Ideal) x8 x19 (ix2 c' l)
      = Cert.Attn.Fused.e (T := Fin 3584) (tileRows x8) (wT x19) l c' := by
  unfold k0_pay7
  refine (mulf_apply _ _ _).trans ?_
  unfold Cert.Attn.Fused.e
  congr 1
  · -- the exponential of the key score
    show Ideal.exp (matmul (F := Ideal) dot_S96x96_S96x3584_S96x3584_1_0_0_1_n_n none _ _ _ (ix2 c' l)) = _
    congr 1
    rw [shapeCast_self]
    refine (mmKey_apply _ _ c' l).trans ?_
    unfold Cert.Attn.Fused.kl
    refine Finset.sum_congr rfl fun c _ => ?_
    rw [pay6_apply]
    rfl
  · -- the mask
    refine (broadcastTo_1b_ab_apply _ _ c' l).trans ?_
    have hs : (extractStridedSlice S1x3584 ![0, 0]
        (matmul dot_S8x96_S96x3584_S8x3584_1_0_0_1_n_n none
          (broadcast S8x96 (Scalar.ofBits (F := Ideal) .f32 0x3F800000#32)) (absf (k0_pay5 (F := Ideal) x8))
          (constant (F := Ideal) S8x3584 .f32 0x00000000#32)) slices_S8x3584_o0_0_S1x3584) (ix2 (0 : Fin 1) l)
        = ∑ c : Fin 96, max (tileRows x8 l c) (-(tileRows x8 l c)) := by
      refine (slice2_axis0_apply 0 _ _ (0 : Fin 1) l (0 : Fin 8) rfl).trans ?_
      refine (onesRow_apply _ 0 l).trans ?_
      refine Finset.sum_congr rfl fun c _ => ?_
      rw [pay5_apply]
    by_cases h : 0 < ∑ c : Fin 96, max (tileRows x8 l c) (-(tileRows x8 l c))
    · rw [msk_pos _ _ h]
      refine Eq.trans ?_ (maskWord_pos _ h)
      rw [← hs]
      rfl
    · rw [msk_neg _ _ h]
      refine Eq.trans ?_ (maskWord_neg _ h)
      rw [← hs]
      rfl

theorem pay8_apply (x8 : Vec Ideal S1x96x3584 .f32) (x19 : Vec Ideal S96x96 .bf16) (c' : Fin 96) (l : Fin 3584) :
    k0_pay8 (F := Ideal) x8 x19 (ix2 c' l)
      = Cert.Attn.Fused.e (T := Fin 3584) (tileRows x8) (wT x19) l c' := by
  unfold k0_pay8
  exact pay7_apply x8 x19 c' l

/-! ## The running sum of the key weights over the tokens -/

theorem pay9_apply (x8 : Vec Ideal S1x96x3584 .f32) (x19 : Vec Ideal S96x96 .bf16) (v26 : Vec Ideal S96x1 .f32)
    (c' : Fin 96) :
    k0_pay9 (F := Ideal) x8 x19 v26 (ix2 c' (0 : Fin 1))
      = v26 (ix2 c' (0 : Fin 1)) + Cert.Attn.Fused.S (T := Fin 3584) (tileRows x8) (wT x19) c' := by
  unfold k0_pay9
  rw [shapeCast_self]
  refine (addf_apply _ _ _).trans ?_
  congr 1
  refine (shapeCast_a_a1_apply _ _ c' (0 : Fin 1)).trans ?_
  refine (Ideal.multiReduction_add_single _ _ _ _ _ (ix1 c')).trans ?_
  unfold Cert.Attn.Fused.S
  show (∑ l : Fin 3584, k0_pay7 (F := Ideal) x8 x19 (reduces_S96x3584_S96.lift (ix1 c') l)) = _
  refine Finset.sum_congr rfl fun l _ => ?_
  have hl : reduces_S96x3584_S96.lift (ix1 c') l = ix2 c' l := funext fun a => Fin.ext (by
    match a with
    | ⟨0, _⟩ => rfl
    | ⟨1, _⟩ => rfl)
  rw [hl]
  exact pay7_apply x8 x19 c' l

/-! ## The running context against the raw features -/

theorem pay1_apply (x8 : Vec Ideal S1x96x3584 .f32) (x19 : Vec Ideal S96x96 .bf16) (v33 : Vec Ideal S96x96 .f32)
    (c' c : Fin 96) :
    k0_pay1 (F := Ideal) (k0_pay8 (F := Ideal) x8 x19) v33 (k0_pay10 (F := Ideal) x8) (ix2 c' c)
      = v33 (ix2 c' c) + Cert.Attn.Fused.G (T := Fin 3584) (tileRows x8) (wT x19) c' c := by
  unfold k0_pay1
  rw [shapeCast_self]
  refine (addf_apply _ _ _).trans ?_
  congr 1
  refine (mmCtx_apply _ _ c' c).trans ?_
  unfold Cert.Attn.Fused.G
  refine Finset.sum_congr rfl fun l _ => ?_
  rw [pay10_apply, pay8_apply]

/-! ## The folded matrix -/

/-- The normaliser replaced by one where it is not positive. -/
theorem safe_apply (s : EReal) :
    Scalar.select (Ideal.cmp .ogt s (Ideal.ofBits .f32 0x00000000#32)) s (Ideal.ofBits .f32 0x3F800000#32)
      = if 0 < s then s else 1 := by
  rw [Ideal.ofBits_zero_f32, ofBits_one_f32]
  by_cases h : 0 < s
  · have hc : Ideal.cmp .ogt s 0 = 1#1 := by
      show BitVec.ofBool (decide (0 < s)) = 1#1
      rw [decide_eq_true h]; rfl
    rw [if_pos h, hc]
    exact select_one _ _
  · have hc : Ideal.cmp .ogt s 0 = 0#1 := by
      show BitVec.ofBool (decide (0 < s)) = 0#1
      rw [decide_eq_false h]; rfl
    rw [if_neg h, hc]
    exact select_zero _ _

theorem pay2_apply (v42 : Vec Ideal S96x1 .f32) (v48 v49 v53 : Vec Ideal S96x96 .f32) (f c' : Fin 96) :
    k0_pay2 (F := Ideal) v42 v42 v48 v49 v53 (ix2 f c')
      = Cert.Attn.Tile.foldA (fun c' => v42 (ix2 c' (0 : Fin 1))) (fun c' c => v48 (ix2 c' c))
          (fun c d => v49 (ix2 c d)) (fun d f => v53 (ix2 d f)) f c' := by
  unfold k0_pay2
  refine (truncf_apply (φ := .f32) (ψ := .bf16) _ _ _).trans ?_
  refine (transpose_ix2_apply _ _ f c').trans ?_
  refine (mmSq_apply _ _ c' f).trans ?_
  unfold Cert.Attn.Tile.foldA
  refine Finset.sum_congr rfl fun d _ => ?_
  congr 1
  refine (divf_apply _ _ _).trans ?_
  congr 1
  · exact mmSq_apply _ _ c' d
  · refine (broadcastTo_a1_ab_apply _ _ c' d).trans ?_
    exact safe_apply (v42 (ix2 c' (0 : Fin 1)))

end Cert.KernelIdeal.ReducePay

end
-- ==== Proof.LibGridSum.lean ====
/-
  A running sum kept over the points of a grid.

  A kernel that visits the points `0, 1, …, N-1` of a grid in order and keeps one accumulator — a starting value `z` plus
  the first point's term after the first point, the previous value plus the point's term after every later one — holds,
  after point `n`, the value `z` plus the sum of the terms of the points `0 … n`.  Only associativity of the addition is
  used, so the statement holds in every additive commutative monoid; the extended reals, infinities included, are one.
-/
import Mathlib.Algebra.BigOperators.Fin

namespace Cert.GridSum

variable {M : Type*} [AddCommMonoid M]

/-- The accumulator after point `n`: `z + f 0` after the first point, the previous value plus `f n` after point `n`. -/
def running {N : ℕ} (z : M) (f : Fin N → M) : (n : ℕ) → n < N → M
  | 0, h => z + f ⟨0, h⟩
  | n + 1, h => running z f n (Nat.lt_of_succ_lt h) + f ⟨n + 1, h⟩

/-- After point `n` the accumulator is the starting value plus the sum of the terms of the points up to `n`. -/
theorem running_eq_sum {N : ℕ} (z : M) (f : Fin N → M) :
    ∀ (n : ℕ) (h : n < N), running z f n h = z + ∑ b : Fin (n + 1), f ⟨b.val, lt_of_lt_of_le b.isLt h⟩
  | 0, h => by
    rw [running, Fin.sum_univ_one]
    rfl
  | n + 1, h => by
    rw [running, running_eq_sum z f n, add_assoc, Fin.sum_univ_castSucc (n := n + 1)]
    rfl

/-- After the last point it is the starting value plus the sum over the whole grid. -/
theorem running_last {N : ℕ} (z : M) (f : Fin (N + 1) → M) :
    running z f N (Nat.lt_succ_self N) = z + ∑ b, f b :=
  running_eq_sum z f N _

end Cert.GridSum
-- ==== Proof.LibTileSum.lean ====
/-
  A sum over `Q * w` consecutive positions taken tile by tile: `Q` tiles of `w` positions each, position
  `b * w + l` being lane `l` of tile `b`. Only commutativity and associativity of the addition are used, so the
  statement holds in every additive commutative monoid.
-/
import Mathlib.Algebra.BigOperators.Fin
import Mathlib.Logic.Equiv.Fin.Basic
import Mathlib.Tactic

namespace Cert.TileSum

variable {M : Type*} [AddCommMonoid M]

/-- Position `b * w + l` of `Q * w`. -/
def pos {Q w : ℕ} (b : Fin Q) (l : Fin w) : Fin (Q * w) :=
  ⟨b.val * w + l.val, by
    have hb := b.isLt; have hl := l.isLt
    calc b.val * w + l.val < b.val * w + w := by omega
      _ = (b.val + 1) * w := by ring
      _ ≤ Q * w := Nat.mul_le_mul_right w hb⟩

/-- The sum over all positions is the sum over the tiles of the sums over their lanes. -/
theorem sum_tiles {Q w : ℕ} (g : Fin (Q * w) → M) :
    ∑ n, g n = ∑ b : Fin Q, ∑ l : Fin w, g (pos b l) := by
  rw [← Fintype.sum_prod_type' (fun b l => g (pos b l))]
  refine (Fintype.sum_equiv finProdFinEquiv _ _ fun p => ?_).symm
  congr 1
  apply Fin.ext
  simp only [finProdFinEquiv_apply_val, pos]
  ring

end Cert.TileSum
-- ==== Proof.Layout.lean ====
/-
  How the arrays hold the tokens. The feature map is `X[b, c, h, w]` over [2, 96, 224, 224]; token number
  `n = b * 50176 + h * 224 + w` (batch-major, then the pixel in row-major order) has the features
  `X[b, ·, h, w]`. Matrices and vectors are read at their coordinates.
-/
import Idealize.ShloMosaic.Lib.ValueIdx
import proofs.«154793_g50139448213692_cont_sun_m_1014_11_alg».proof.Proof.Spec

noncomputable section

namespace Cert.Attn

open Idealize.ShloMosaic Idealize.ShloMosaic.ValueIdx

/-- The batch of token `n`. -/
def tokB (n : Fin 100352) : Fin 2 := ⟨n.val / 50176, by have := n.isLt; omega⟩
/-- The pixel of token `n` inside its batch, in row-major order. -/
def tokP (n : Fin 100352) : Fin 50176 := ⟨n.val % 50176, by omega⟩
/-- The pixel's row. -/
def tokH (n : Fin 100352) : Fin 224 := ⟨n.val % 50176 / 224, by omega⟩
/-- The pixel's column. -/
def tokW (n : Fin 100352) : Fin 224 := ⟨n.val % 224, by omega⟩

/-- The token at batch `b`, row `h`, column `w`. -/
def tokOf (b : Fin 2) (h w : Fin 224) : Fin 100352 :=
  ⟨b.val * 50176 + h.val * 224 + w.val, by have := b.isLt; have := h.isLt; have := w.isLt; omega⟩

theorem tokB_tokOf (b : Fin 2) (h w : Fin 224) : tokB (tokOf b h w) = b := by
  apply Fin.ext; have := h.isLt; have := w.isLt; simp only [tokB, tokOf]; omega
theorem tokH_tokOf (b : Fin 2) (h w : Fin 224) : tokH (tokOf b h w) = h := by
  apply Fin.ext; have := h.isLt; have := w.isLt; simp only [tokH, tokOf]; omega
theorem tokW_tokOf (b : Fin 2) (h w : Fin 224) : tokW (tokOf b h w) = w := by
  apply Fin.ext; have := h.isLt; have := w.isLt; simp only [tokW, tokOf]; omega
theorem tokP_tokOf (b : Fin 2) (h w : Fin 224) : (tokP (tokOf b h w)).val = h.val * 224 + w.val := by
  have := h.isLt; have := w.isLt; simp only [tokP, tokOf]; omega

/-- The tokens of a feature map, one row of 96 features each. -/
def rows (X : (⟨4, ![2, 96, 224, 224]⟩ : Shape).Idx → EReal) : Fin 100352 → Fin 96 → EReal :=
  fun n c => X (ix4 (tokB n) c (tokH n) (tokW n))

/-- A 96 x 96 matrix at its coordinates. -/
def mat (W : (⟨2, ![96, 96]⟩ : Shape).Idx → EReal) : Fin 96 → Fin 96 → EReal := fun a b => W (ix2 a b)

/-- A vector of 96 at its coordinate. -/
def vec (g : (⟨1, ![96]⟩ : Shape).Idx → EReal) : Fin 96 → EReal := fun a => g (ix1 a)

end Cert.Attn

end
-- ==== Proof.KIReduceValue2.lean ====
/-
  The first kernel's running statistics in closed form, over the extended reals: after tile `n` the running-sum column
  and the running-context matrix are the sums of the tiles' contributions so far; after the last tile they are the sums over
  all 100352 tokens, and the output matrix is their fold with the value and output weights.
-/
import proofs.«154793_g50139448213692_cont_sun_m_1014_11_alg».proof.Proof.KIReduceValue1
import proofs.«154793_g50139448213692_cont_sun_m_1014_11_alg».proof.Proof.KIReducePay
import proofs.«154793_g50139448213692_cont_sun_m_1014_11_alg».proof.Proof.LibGridSum
import proofs.«154793_g50139448213692_cont_sun_m_1014_11_alg».proof.Proof.LibTileSum
import proofs.«154793_g50139448213692_cont_sun_m_1014_11_alg».proof.Proof.Layout

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.ReducePay Cert.Attn

/-- A token's unnormalised key weights depend on the token's own row only. -/
theorem msk_congr {T T' : Type} [Fintype T] [Fintype T'] {x : T → Fin 96 → EReal} {y : T' → Fin 96 → EReal} {n : T} {n' : T'}
    (h : x n = y n') : msk x n = msk y n' := by
  have hl : Live x n ↔ Live y n' := by unfold Live absSum; rw [h]
  unfold msk; exact if_congr hl rfl rfl

theorem e_congr {T T' : Type} [Fintype T] [Fintype T'] {x : T → Fin 96 → EReal} {y : T' → Fin 96 → EReal} (Wk : Fin 96 → Fin 96 → EReal)
    {n : T} {n' : T'} (h : x n = y n') (c' : Fin 96) : Fused.e x Wk n c' = Fused.e y Wk n' c' := by
  unfold Fused.e Fused.kl; rw [h, msk_congr h]

section Region
variable (V : (c : Dev nD) → (b : Ref sig .tc) → Buf (Elt Ideal) ((c : Thread nD τ).loc b)) (c : Dev nD)

/-- The tokens as the first kernel's feature-map operand [2, 96, 50176] holds them. -/
def xg : Fin 100352 → Fin 96 → EReal := fun n cc => (V c main_call0_v0 : S2x96x50176.Idx → EReal) (ix3 (tokB n) cc (tokP n))
/-- The key weights, from their transposed operand. -/
def wk : Fin 96 → Fin 96 → EReal := wT (V c main_call0_v4)

/-- Tile `t`'s contribution to the running sum and to the running context. -/
def tS (t : Fin cfg0.N) (c' : Fin 96) : EReal := Fused.S (T := Fin 3584) (tileRows (iblk V c 0 t)) (wk V c) c'
def tG (t : Fin cfg0.N) (c' cc : Fin 96) : EReal := Fused.G (T := Fin 3584) (tileRows (iblk V c 0 t)) (wk V c) c' cc

theorem accAt_succ_C (n : ℕ) (hn : n + 1 < cfg0.N) (h1 : (n + 1) % 28 = 27) :
    accAt V c (n + 1) hn = (k0_pay9 (iblk V c 0 ⟨n + 1, hn⟩) (iblk V c 1 ⟨n + 1, hn⟩) (accAt V c n (Nat.lt_of_succ_lt hn)).1,
      k0_pay1 (k0_pay8 (iblk V c 0 ⟨n + 1, hn⟩) (iblk V c 1 ⟨n + 1, hn⟩)) (accAt V c n (Nat.lt_of_succ_lt hn)).2 (k0_pay10 (iblk V c 0 ⟨n + 1, hn⟩))) := by
  refine ((dif_pos h1 : accAt V c (n + 1) hn = _)).trans ?_
  rw [pieceC_S, pieceC_G]

theorem accAt_succ_B (n : ℕ) (hn : n + 1 < cfg0.N) (h1 : ¬(n + 1) % 28 = 27) :
    accAt V c (n + 1) hn = (k0_pay9 (iblk V c 0 ⟨n + 1, hn⟩) (iblk V c 1 ⟨n + 1, hn⟩) (accAt V c n (Nat.lt_of_succ_lt hn)).1,
      k0_pay1 (k0_pay8 (iblk V c 0 ⟨n + 1, hn⟩) (iblk V c 1 ⟨n + 1, hn⟩)) (accAt V c n (Nat.lt_of_succ_lt hn)).2 (k0_pay10 (iblk V c 0 ⟨n + 1, hn⟩))) := by
  refine ((dif_neg h1 : accAt V c (n + 1) hn = _)).trans ?_
  rw [pieceB_S, pieceB_G]

theorem accAt_zero (hn : 0 < cfg0.N) :
    accAt V c 0 hn = (k0_pay9 (iblk V c 0 ⟨0, hn⟩) (iblk V c 1 ⟨0, hn⟩) (k0_pay3 (F := Ideal)),
      k0_pay1 (k0_pay8 (iblk V c 0 ⟨0, hn⟩) (iblk V c 1 ⟨0, hn⟩)) (k0_pay4 (F := Ideal)) (k0_pay10 (iblk V c 0 ⟨0, hn⟩))) := by
  show (out_A_S _ _ _ _ _ _ _ _ _ _ _ _ _ _ _ _ _ _ _ _, out_A_G _ _ _ _ _ _ _ _ _ _ _ _ _ _ _ _ _ _ _ _) = _
  rw [pieceA_S, pieceA_G]

/-- One step for every tile after the first, whichever kind it is. -/
theorem accAt_succ (n : ℕ) (hn : n + 1 < cfg0.N) :
    accAt V c (n + 1) hn = (k0_pay9 (iblk V c 0 ⟨n + 1, hn⟩) (iblk V c 1 ⟨n + 1, hn⟩) (accAt V c n (Nat.lt_of_succ_lt hn)).1,
      k0_pay1 (k0_pay8 (iblk V c 0 ⟨n + 1, hn⟩) (iblk V c 1 ⟨n + 1, hn⟩)) (accAt V c n (Nat.lt_of_succ_lt hn)).2 (k0_pay10 (iblk V c 0 ⟨n + 1, hn⟩))) := by
  by_cases h1 : (n + 1) % 28 = 27
  · exact accAt_succ_C V c n hn h1
  · exact accAt_succ_B V c n hn h1

/-- The running sum after tile `n`. -/
theorem acc_S : ∀ (n : ℕ) (hn : n < cfg0.N) (c' : Fin 96),
    (accAt V c n hn).1 (ix2 c' (0 : Fin 1)) = GridSum.running 0 (fun t => tS V c t c') n hn
  | 0, hn, c' => by
    rw [accAt_zero]; dsimp only; rw [pay9_apply, pay3_apply, iblk1_eq]; rfl
  | n + 1, hn, c' => by
    rw [accAt_succ]; dsimp only; rw [pay9_apply, iblk1_eq, acc_S n (Nat.lt_of_succ_lt hn) c']; rfl

/-- The running context after tile `n`. -/
theorem acc_G : ∀ (n : ℕ) (hn : n < cfg0.N) (c' cc : Fin 96),
    (accAt V c n hn).2 (ix2 c' cc) = GridSum.running 0 (fun t => tG V c t c' cc) n hn
  | 0, hn, c', cc => by
    rw [accAt_zero]; dsimp only; rw [pay1_apply, pay4_apply, iblk1_eq]; rfl
  | n + 1, hn, c', cc => by
    rw [accAt_succ]; dsimp only; rw [pay1_apply, iblk1_eq, acc_G n (Nat.lt_of_succ_lt hn) c' cc]; rfl

/-- Lane `l` of tile `b` is token `b * 3584 + l`. -/
theorem tile_row (b : Fin 28) (hb : b.val < cfg0.N) (l : Fin 3584) :
    xg V c (TileSum.pos (Q := 28) (w := 3584) b l) = tileRows (iblk V c 0 ⟨b.val, hb⟩) l := by
  funext cc
  have hbl := b.isLt; have hl := l.isLt
  refine (iblk0_apply V c ⟨b.val, hb⟩ (ix3 (0 : Fin 1) cc l) (ix3 (tokB (TileSum.pos (Q := 28) (w := 3584) b l)) cc (tokP (TileSum.pos (Q := 28) (w := 3584) b l))) ?_ ?_ ?_).symm
  · show (TileSum.pos (Q := 28) (w := 3584) b l).val / 50176 = b.val / 14 + 0
    simp only [TileSum.pos]; omega
  · rfl
  · show (TileSum.pos (Q := 28) (w := 3584) b l).val % 50176 = b.val % 14 * 3584 + l.val
    simp only [TileSum.pos]; omega

/-- After the last tile the running sum is the sum over all tokens, -/
theorem S_last (c' : Fin 96) : (accAt V c tLast.val tLast.isLt).1 (ix2 c' (0 : Fin 1)) = Fused.S (xg V c) (wk V c) c' := by
  rw [acc_S, GridSum.running_eq_sum, zero_add]
  unfold Fused.S
  rw [TileSum.sum_tiles (Q := 28) (w := 3584) (fun n => Fused.e (xg V c) (wk V c) n c')]
  refine Finset.sum_congr rfl fun b _ => ?_
  unfold tS Fused.S
  refine Finset.sum_congr rfl fun l _ => ?_
  exact (e_congr (wk V c) (tile_row V c b _ l) c').symm

/-- and the running context likewise. -/
theorem G_last (c' cc : Fin 96) : (accAt V c tLast.val tLast.isLt).2 (ix2 c' cc) = Fused.G (xg V c) (wk V c) c' cc := by
  rw [acc_G, GridSum.running_eq_sum, zero_add]
  unfold Fused.G
  rw [TileSum.sum_tiles (Q := 28) (w := 3584) (fun n => Fused.e (xg V c) (wk V c) n c' * xg V c n cc)]
  refine Finset.sum_congr rfl fun b _ => ?_
  unfold tG Fused.G
  refine Finset.sum_congr rfl fun l _ => ?_
  rw [e_congr (wk V c) (tile_row V c b _ l) c', tile_row V c b _ l]

/-- THE FIRST KERNEL'S RESULT: the output matrix is the fold of the sums over all tokens with the value and output weights. -/
theorem final_A_apply (f c' : Fin 96) :
    ((dat V c).arrAt 4 cfg0.N : S96x96.Idx → EReal) (ix2 f c')
      = Tile.foldA (Fused.S (xg V c) (wk V c)) (Fused.G (xg V c) (wk V c))
          (fun cc d => (V c main_arg3 : S96x96.Idx → EReal) (ix2 cc d)) (fun d f => (V c main_arg4 : S96x96.Idx → EReal) (ix2 d f)) f c' := by
  rw [final_A]
  have hO : outAt V c tLast.val tLast.isLt = k0_pay2 (accAt V c tLast.val tLast.isLt).1 (accAt V c tLast.val tLast.isLt).1
      (accAt V c tLast.val tLast.isLt).2 (iblk V c 2 tLast) (iblk V c 3 tLast) := by
    rw [outAt_C V c tLast (by decide) (by decide), pieceC_O, show accAt V c tLast.val tLast.isLt = _ from accAt_succ V c 26 tLast.isLt]
    rfl
  rw [hO, pay2_apply, iblk2_eq, iblk3_eq]
  have hS : (fun c' => (accAt V c tLast.val tLast.isLt).1 (ix2 c' (0 : Fin 1))) = Fused.S (xg V c) (wk V c) := funext (S_last V c)
  have hG : (fun c' cc => (accAt V c tLast.val tLast.isLt).2 (ix2 c' cc)) = Fused.G (xg V c) (wk V c) := funext fun c' => funext (G_last V c c')
  rw [hS, hG]

end Region

end Cert.KernelIdeal.Reduce

end
-- ==== Proof.KIValue1.lean ====
/-
  What the operands of the two kernels hold, read at an index: the host operations before the first kernel lay the feature
  map out as [2, 96, 50176], transpose the query and key weights and turn the two vectors into columns; the first kernel
  changes its output matrix only; the second its output array only; the last host operation reshapes that array back.
-/
import proofs.«154793_g50139448213692_cont_sun_m_1014_11_alg».proof.Proof.KIRun
import proofs.«154793_g50139448213692_cont_sun_m_1014_11_alg».proof.Proof.KIReduceValue2
import proofs.«154793_g50139448213692_cont_sun_m_1014_11_alg».proof.Proof.Layout
import Idealize.ShloMosaic.Lib.Pipeline.Value
import Idealize.ShloMosaic.Lib.StableHlo.Run
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn

variable (m : (ℓ : Loc nD τ sig) → Buf (Elt Ideal) ℓ) (c : Dev nD)

/-- The feature map as the kernels see it: pixels of a batch in row-major order. -/
theorem V1_v0 : (V1 m c main_call0_v0 : S2x96x50176.Idx → EReal)
    = shapeCast S2x96x50176 (m ((c.tc : Thread nD τ).loc main_arg0)) shapeCasts_S2x96x224x224_S2x96x50176 := by
  show StableHlo.after hostOps0 (W0 m c) (Proc.devRef .tc main_call0_v0) = _
  after_results
  rfl

/-- The query weights transposed. -/
theorem V1_v2 : (V1 m c main_call0_v2 : S96x96.Idx → EReal)
    = (truncf (F := Ideal) .bf16 (transpose S96x96 [1, 0] (m ((c.tc : Thread nD τ).loc main_arg1) : S96x96.Idx → EReal) transposes_S96x96_S96x96_1_0) bitsLt_bf16_f32 : S96x96.Idx → EReal) := by
  show StableHlo.after hostOps0 (W0 m c) (Proc.devRef .tc main_call0_v2) = _
  after_results
  rfl

/-- The key weights transposed. -/
theorem V1_v4 : (V1 m c main_call0_v4 : S96x96.Idx → EReal)
    = (truncf (F := Ideal) .bf16 (transpose S96x96 [1, 0] (m ((c.tc : Thread nD τ).loc main_arg2) : S96x96.Idx → EReal) transposes_S96x96_S96x96_1_0) bitsLt_bf16_f32 : S96x96.Idx → EReal) := by
  show StableHlo.after hostOps0 (W0 m c) (Proc.devRef .tc main_call0_v4) = _
  after_results
  rfl

/-- The scale vector as a column. -/
theorem V1_v5 : (V1 m c main_call0_v5 : S96x1.Idx → EReal)
    = shapeCast S96x1 (m ((c.tc : Thread nD τ).loc main_arg5)) shapeCasts_S96_S96x1 := by
  show StableHlo.after hostOps0 (W0 m c) (Proc.devRef .tc main_call0_v5) = _
  after_results
  rfl

/-- The shift vector as a column. -/
theorem V1_v6 : (V1 m c main_call0_v6 : S96x1.Idx → EReal)
    = shapeCast S96x1 (m ((c.tc : Thread nD τ).loc main_arg6)) shapeCasts_S96_S96x1 := by
  show StableHlo.after hostOps0 (W0 m c) (Proc.devRef .tc main_call0_v6) = _
  after_results
  rfl

/-- The value and output weights are untouched. -/
theorem V1_arg3 : V1 m c main_arg3 = m ((c.tc : Thread nD τ).loc main_arg3) := by
  show StableHlo.after hostOps0 (W0 m c) (Proc.devRef .tc main_arg3) = _
  after_results
theorem V1_arg4 : V1 m c main_arg4 = m ((c.tc : Thread nD τ).loc main_arg4) := by
  show StableHlo.after hostOps0 (W0 m c) (Proc.devRef .tc main_arg4) = _
  after_results

/-- The result is the second kernel's output array reshaped. -/
theorem W4_v0 : (W4 m c (Proc.devRef .tc main_v0) : S2x96x224x224.Idx → EReal)
    = shapeCast S2x96x224x224 (W3 m c (Proc.devRef .tc main_call0_v8)) shapeCasts_S2x96x50176_S2x96x224x224 := by
  show StableHlo.after hostOps2 (W3 m c) (Proc.devRef .tc main_v0) = _
  after_results
  rfl

/-- What the first kernel leaves in the buffers the second reads. -/
theorem V2_v0 : V2 m c main_call0_v0 = V1 m c main_call0_v0 :=
  (W2_arr m c 0).trans (((Reduce.dat (V1 m) c).arrAt_in 0 rfl _).trans (Reduce.A_eq (V1 m) c 0))
theorem V2_v2 : V2 m c main_call0_v2 = V1 m c main_call0_v2 := W2_of_ne m c main_call0_v2 (by decide)
theorem V2_v5 : V2 m c main_call0_v5 = V1 m c main_call0_v5 := W2_of_ne m c main_call0_v5 (by decide)
theorem V2_v6 : V2 m c main_call0_v6 = V1 m c main_call0_v6 := W2_of_ne m c main_call0_v6 (by decide)
theorem V2_v7 : V2 m c main_call0_v7 = (Reduce.dat (V1 m) c).arrAt 4 cfg0.N := W2_arr m c 4

/-- The feature map's entry at batch `b`, feature `cc`, pixel `p`. -/
theorem V1_v0_apply (b : Fin 2) (cc : Fin 96) (p : Fin 50176) (h w : Fin 224) (hp : p.val = h.val * 224 + w.val) :
    (V1 m c main_call0_v0 : S2x96x50176.Idx → EReal) (ix3 b cc p)
      = (m ((c.tc : Thread nD τ).loc main_arg0) : S2x96x224x224.Idx → EReal) (ix4 b cc h w) := by
  rw [V1_v0]
  refine shapeCast_apply _ shapeCasts_S2x96x224x224_S2x96x50176 (ix3 b cc p) (ix4 b cc h w) ?_
  rw [Shape.rowMajor_val_three, Shape.rowMajor_val_four]
  have hb := b.isLt; have hc := cc.isLt; have hh := h.isLt; have hw := w.isLt
  show ((b.val * 96 + cc.val) * 224 + h.val) * 224 + w.val = (b.val * 96 + cc.val) * 50176 + p.val
  rw [hp]; ring

end Cert.KernelIdeal.Whole

end
-- ==== Proof.ApplyValue1.lean ====
/- The second kernel's body read at an index: layout operations, the matrix products, the mask and the residual. -/
import proofs.«154793_g50139448213692_cont_sun_m_1014_11_alg».proof.Proof.KIApply
import proofs.«154793_g50139448213692_cont_sun_m_1014_11_alg».proof.Proof.TileSpec

import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ApplyValue

open Cert.KernelIdeal Cert.KernelIdeal.Gen Cert.Attn
open Idealize.ShloMosaic Idealize.ShloMosaic.ValueIdx

/-! ## Words, layout operations and the two products read at an index -/

/-- The word of one. -/
theorem ofBits_one : Ideal.ofBits .f32 0x3F800000#32 = (1 : EReal) := by
  simp [Ideal.ofBits, Ideal.ieee, -EReal.coe_mul]
  norm_num

/-- A column [a, 1] spread over b columns reads, at (i, j), the column at i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The first row of an [8, n] array cut out as [1, n]. -/
theorem firstRow_apply {α : Type} (v : S8x3584.Idx → α) (l : Fin 3584) :
    extractStridedSlice S1x3584 ![0, 0] v slices_S8x3584_o0_0_S1x3584 (ix2 (0 : Fin 1) l) = v (ix2 (0 : Fin 8) l) := by
  refine extractStridedSlice_apply _ v _ _ (ix2 (0 : Fin 8) l) fun ax => ?_
  match ax with
  | ⟨0, _⟩ => rfl
  | ⟨1, _⟩ => show l.val = 0 + l.val; omega

theorem lhs8_0 (i : S8x3584.Idx) (q : dot_S8x96_S96x3584_S8x3584_1_0_0_1_n_n.contr.Idx) : (dot_S8x96_S96x3584_S8x3584_1_0_0_1_n_n.lhsIdx i q 0).val = (i 0).val := by
  unfold DotDims.lhsIdx
  rw [dif_neg (show ¬(0 : Fin S8x96.rank) ∈ dot_S8x96_S96x3584_S8x3584_1_0_0_1_n_n.lhsBatch by decide),
    dif_pos (show (0 : Fin S8x96.rank) ∈ dot_S8x96_S96x3584_S8x3584_1_0_0_1_n_n.lhsNonContracting by decide)]
  rfl
theorem lhs8_1 (i : S8x3584.Idx) (q : dot_S8x96_S96x3584_S8x3584_1_0_0_1_n_n.contr.Idx) : (dot_S8x96_S96x3584_S8x3584_1_0_0_1_n_n.lhsIdx i q 1).val = (q ⟨0, by decide⟩).val :=
  dot_S8x96_S96x3584_S8x3584_1_0_0_1_n_n.lhsIdx_val_of_single rfl i q
theorem rhs8_0 (i : S8x3584.Idx) (q : dot_S8x96_S96x3584_S8x3584_1_0_0_1_n_n.contr.Idx) : (dot_S8x96_S96x3584_S8x3584_1_0_0_1_n_n.rhsIdx i q 0).val = (q ⟨0, by decide⟩).val :=
  dot_S8x96_S96x3584_S8x3584_1_0_0_1_n_n.rhsIdx_val_of_single rfl i q
theorem rhs8_1 (i : S8x3584.Idx) (q : dot_S8x96_S96x3584_S8x3584_1_0_0_1_n_n.contr.Idx) : (dot_S8x96_S96x3584_S8x3584_1_0_0_1_n_n.rhsIdx i q 1).val = (i 1).val := by
  unfold DotDims.rhsIdx
  rw [dif_neg (show ¬(1 : Fin S96x3584.rank) ∈ dot_S8x96_S96x3584_S8x3584_1_0_0_1_n_n.rhsBatch by decide),
    dif_pos (show (1 : Fin S96x3584.rank) ∈ dot_S8x96_S96x3584_S8x3584_1_0_0_1_n_n.rhsNonContracting by decide)]
  rfl

/-- The product [8, 96] x [96, 3584] into a zero accumulator, at (r, l): the sum over the 96 contracted positions. -/
theorem mm8_apply {φ₁ φ₂ : FTy} (L : FVec Ideal S8x96 φ₁) (R : FVec Ideal S96x3584 φ₂) (r : Fin 8) (l : Fin 3584) :
    matmul dot_S8x96_S96x3584_S8x3584_1_0_0_1_n_n none L R (constant S8x3584 .f32 0x00000000#32) (ix2 r l) = ∑ k : Fin 96, L (ix2 r k) * R (ix2 k l) := by
  show FloatOps.matmul dot_S8x96_S96x3584_S8x3584_1_0_0_1_n_n none L R (constant S8x3584 .f32 0x00000000#32) (ix2 r l) = _
  rw [Ideal.matmul_constant_zero_apply, ← Equiv.sum_comp (ValueIdx.contrEquiv1 dot_S8x96_S96x3584_S8x3584_1_0_0_1_n_n 96 rfl rfl).symm]
  refine Finset.sum_congr rfl fun k _ => ?_
  have hk := ValueIdx.contrEquiv1_symm_val dot_S8x96_S96x3584_S8x3584_1_0_0_1_n_n 96 rfl rfl k
  have el : dot_S8x96_S96x3584_S8x3584_1_0_0_1_n_n.lhsIdx (ix2 r l) ((ValueIdx.contrEquiv1 dot_S8x96_S96x3584_S8x3584_1_0_0_1_n_n 96 rfl rfl).symm k) = ix2 r k :=
    funext fun a => Fin.ext (by
      match a with
      | ⟨0, _⟩ => exact lhs8_0 _ _
      | ⟨1, _⟩ => exact (lhs8_1 _ _).trans hk)
  have er : dot_S8x96_S96x3584_S8x3584_1_0_0_1_n_n.rhsIdx (ix2 r l) ((ValueIdx.contrEquiv1 dot_S8x96_S96x3584_S8x3584_1_0_0_1_n_n 96 rfl rfl).symm k) = ix2 k l :=
    funext fun a => Fin.ext (by
      match a with
      | ⟨0, _⟩ => exact (rhs8_0 _ _).trans hk
      | ⟨1, _⟩ => exact rhs8_1 _ _)
  rw [el, er]

theorem lhs96_0 (i : S96x3584.Idx) (q : dot_S96x96_S96x3584_S96x3584_1_0_0_1_n_n.contr.Idx) : (dot_S96x96_S96x3584_S96x3584_1_0_0_1_n_n.lhsIdx i q 0).val = (i 0).val := by
  unfold DotDims.lhsIdx
  rw [dif_neg (show ¬(0 : Fin S96x96.rank) ∈ dot_S96x96_S96x3584_S96x3584_1_0_0_1_n_n.lhsBatch by decide),
    dif_pos (show (0 : Fin S96x96.rank) ∈ dot_S96x96_S96x3584_S96x3584_1_0_0_1_n_n.lhsNonContracting by decide)]
  rfl
theorem lhs96_1 (i : S96x3584.Idx) (q : dot_S96x96_S96x3584_S96x3584_1_0_0_1_n_n.contr.Idx) : (dot_S96x96_S96x3584_S96x3584_1_0_0_1_n_n.lhsIdx i q 1).val = (q ⟨0, by decide⟩).val :=
  dot_S96x96_S96x3584_S96x3584_1_0_0_1_n_n.lhsIdx_val_of_single rfl i q
theorem rhs96_0 (i : S96x3584.Idx) (q : dot_S96x96_S96x3584_S96x3584_1_0_0_1_n_n.contr.Idx) : (dot_S96x96_S96x3584_S96x3584_1_0_0_1_n_n.rhsIdx i q 0).val = (q ⟨0, by decide⟩).val :=
  dot_S96x96_S96x3584_S96x3584_1_0_0_1_n_n.rhsIdx_val_of_single rfl i q
theorem rhs96_1 (i : S96x3584.Idx) (q : dot_S96x96_S96x3584_S96x3584_1_0_0_1_n_n.contr.Idx) : (dot_S96x96_S96x3584_S96x3584_1_0_0_1_n_n.rhsIdx i q 1).val = (i 1).val := by
  unfold DotDims.rhsIdx
  rw [dif_neg (show ¬(1 : Fin S96x3584.rank) ∈ dot_S96x96_S96x3584_S96x3584_1_0_0_1_n_n.rhsBatch by decide),
    dif_pos (show (1 : Fin S96x3584.rank) ∈ dot_S96x96_S96x3584_S96x3584_1_0_0_1_n_n.rhsNonContracting by decide)]
  rfl

/-- The product [96, 96] x [96, 3584] into a zero accumulator, at (r, l): the sum over the 96 contracted positions. -/
theorem mm96_apply {φ₁ φ₂ : FTy} (L : FVec Ideal S96x96 φ₁) (R : FVec Ideal S96x3584 φ₂) (r : Fin 96) (l : Fin 3584) :
    matmul dot_S96x96_S96x3584_S96x3584_1_0_0_1_n_n none L R (constant S96x3584 .f32 0x00000000#32) (ix2 r l) = ∑ k : Fin 96, L (ix2 r k) * R (ix2 k l) := by
  show FloatOps.matmul dot_S96x96_S96x3584_S96x3584_1_0_0_1_n_n none L R (constant S96x3584 .f32 0x00000000#32) (ix2 r l) = _
  rw [Ideal.matmul_constant_zero_apply, ← Equiv.sum_comp (ValueIdx.contrEquiv1 dot_S96x96_S96x3584_S96x3584_1_0_0_1_n_n 96 rfl rfl).symm]
  refine Finset.sum_congr rfl fun k _ => ?_
  have hk := ValueIdx.contrEquiv1_symm_val dot_S96x96_S96x3584_S96x3584_1_0_0_1_n_n 96 rfl rfl k
  have el : dot_S96x96_S96x3584_S96x3584_1_0_0_1_n_n.lhsIdx (ix2 r l) ((ValueIdx.contrEquiv1 dot_S96x96_S96x3584_S96x3584_1_0_0_1_n_n 96 rfl rfl).symm k) = ix2 r k :=
    funext fun a => Fin.ext (by
      match a with
      | ⟨0, _⟩ => exact lhs96_0 _ _
      | ⟨1, _⟩ => exact (lhs96_1 _ _).trans hk)
  have er : dot_S96x96_S96x3584_S96x3584_1_0_0_1_n_n.rhsIdx (ix2 r l) ((ValueIdx.contrEquiv1 dot_S96x96_S96x3584_S96x3584_1_0_0_1_n_n 96 rfl rfl).symm k) = ix2 k l :=
    funext fun a => Fin.ext (by
      match a with
      | ⟨0, _⟩ => exact (rhs96_0 _ _).trans hk
      | ⟨1, _⟩ => exact rhs96_1 _ _)
  rw [el, er]

/-! ## The mask and the residual stream of one block -/

/-- A bit widened to a word and read as a signed number: one if it is set, else zero. -/
theorem sitofp_extui_ofBool (P : Prop) [Decidable P] :
    FloatOps.sitofp (F := Ideal) .f32 ((BitVec.ofBool (decide P)).setWidth 32) = if P then (1 : EReal) else 0 := by
  by_cases h : P
  · rw [if_pos h, decide_eq_true h]
    show (((1 : ℤ) : ℝ) : EReal) = 1
    simp
  · rw [if_neg h, decide_eq_false h]
    show (((0 : ℤ) : ℝ) : EReal) = 0
    simp

section Block
variable (x0 : FVec Ideal S1x96x3584 .f32) (x1 x2 : FVec Ideal S96x96 .bf16) (x3 x4 : FVec Ideal S96x1 .f32)

/-- The block seen as 3584 tokens of 96 features. -/
abbrev tokens : Fin 3584 → Fin 96 → EReal := fun l c => x0 (ix3 (0 : Fin 1) c l)
/-- The query weights, stored transposed. -/
abbrev wq : Fin 96 → Fin 96 → EReal := fun c c' => x1 (ix2 c' c)
/-- The folded matrix. -/
abbrev am : Fin 96 → Fin 96 → EReal := fun f c' => x2 (ix2 f c')

/-- The block without its unit axis. -/
theorem pay2_apply (c : Fin 96) (l : Fin 3584) : k1_pay2 (F := Ideal) x0 (ix2 c l) = x0 (ix3 (0 : Fin 1) c l) := by
  unfold k1_pay2
  exact shapeCast_1ab_ab_apply x0 _ c l

/-- The rows of ones. -/
theorem pay3_apply (r : Fin 8) (c : Fin 96) : k1_pay3 (F := Ideal) (ix2 r c) = 1 := by
  unfold k1_pay3
  exact ofBits_one

/-- The mask of a token: the ones row times the absolute values is their sum over the features. -/
theorem pay4_apply (l : Fin 3584) : k1_pay4 (F := Ideal) x0 (ix2 (0 : Fin 1) l) = msk (tokens x0) l := by
  have hs : ∑ k : Fin 96, k1_pay3 (F := Ideal) (ix2 (0 : Fin 8) k) * absf (k1_pay2 (F := Ideal) x0) (ix2 k l) = absSum (tokens x0) l := by
    unfold absSum
    refine Finset.sum_congr rfl fun k _ => ?_
    rw [pay3_apply, one_mul]
    show max (k1_pay2 (F := Ideal) x0 (ix2 k l)) (-(k1_pay2 (F := Ideal) x0 (ix2 k l))) = _
    rw [pay2_apply]
  unfold k1_pay4
  simp only [sitofp_apply, extui_apply, cmpf_apply, broadcast_apply]
  rw [firstRow_apply, mm8_apply, hs]
  rw [Ideal.ofBits_def, Ideal.ofBits_zero_f32]
  unfold msk
  by_cases h : Live (tokens x0) l
  · rw [if_pos h]; exact (sitofp_extui_ofBool (0 < absSum (tokens x0) l)).trans (if_pos h)
  · rw [if_neg h]; exact (sitofp_extui_ofBool (0 < absSum (tokens x0) l)).trans (if_neg h)

/-- The exponentials of the query scores, as the body computes them. -/
def eqv : FVec Ideal S96x3584 .bf16 :=
  truncf .bf16 (exp (matmul dot_S96x96_S96x3584_S96x3584_1_0_0_1_n_n none (shapeCast S96x96 x1 shapeCasts_S96x96_S96x96)
    (truncf .bf16 (k1_pay2 (F := Ideal) x0) bitsLt_bf16_f32) (constant S96x3584 .f32 0x00000000#32))) bitsLt_bf16_f32

/-- They are the unnormalised query weights of the tokens. -/
theorem eqv_apply (c' : Fin 96) (l : Fin 3584) : eqv x0 x1 (ix2 c' l) = Fused.eq (tokens x0) (wq x1) l c' := by
  unfold eqv
  show Ideal.exp (matmul dot_S96x96_S96x3584_S96x3584_1_0_0_1_n_n none (shapeCast S96x96 x1 shapeCasts_S96x96_S96x96)
    (truncf .bf16 (k1_pay2 (F := Ideal) x0) bitsLt_bf16_f32) (constant S96x3584 .f32 0x00000000#32) (ix2 c' l)) = _
  rw [mm96_apply]
  unfold Fused.eq Fused.ql
  refine congrArg Ideal.exp (Finset.sum_congr rfl fun k _ => ?_)
  rw [shapeCast_self]
  show x1 (ix2 c' k) * k1_pay2 (F := Ideal) x0 (ix2 k l) = _
  rw [pay2_apply]

/-- The residual stream in those terms. -/
theorem pay5_eq : k1_pay5 (F := Ideal) x0 x1 x2 = addf (k1_pay2 (F := Ideal) x0)
    (divf (matmul dot_S96x96_S96x3584_S96x3584_1_0_0_1_n_n none (shapeCast S96x96 x2 shapeCasts_S96x96_S96x96) (eqv x0 x1) (constant S96x3584 .f32 0x00000000#32))
      (broadcastTo S96x3584 (extractStridedSlice S1x3584 ![0, 0]
        (matmul dot_S8x96_S96x3584_S8x3584_1_0_0_1_n_n none (truncf .bf16 (k1_pay3 (F := Ideal)) bitsLt_bf16_f32) (eqv x0 x1) (constant S8x3584 .f32 0x00000000#32))
        slices_S8x3584_o0_0_S1x3584) broadcasts_S1x3584_S96x3584)) := rfl

/-- The residual stream: the token plus the attention output divided by the query normaliser. -/
theorem pay5_apply (f : Fin 96) (l : Fin 3584) :
    k1_pay5 (F := Ideal) x0 x1 x2 (ix2 f l) = Tile.out (tokens x0) (wq x1) (am x2) l f := by
  have hsq : ∑ k : Fin 96, truncf .bf16 (k1_pay3 (F := Ideal)) bitsLt_bf16_f32 (ix2 (0 : Fin 8) k) * eqv x0 x1 (ix2 k l)
      = Fused.sq (tokens x0) (wq x1) l := by
    unfold Fused.sq
    refine Finset.sum_congr rfl fun k _ => ?_
    rw [eqv_apply]
    show k1_pay3 (F := Ideal) (ix2 (0 : Fin 8) k) * _ = _
    rw [pay3_apply, one_mul]
  have hraw : ∑ k : Fin 96, shapeCast S96x96 x2 shapeCasts_S96x96_S96x96 (ix2 f k) * eqv x0 x1 (ix2 k l)
      = Tile.raw (tokens x0) (wq x1) (am x2) l f := by
    unfold Tile.raw
    refine Finset.sum_congr rfl fun k _ => ?_
    rw [eqv_apply, shapeCast_self]
  rw [pay5_eq]
  simp only [addf_apply, divf_apply]
  rw [pay2_apply, mm96_apply, hraw, broadcastTo_1b_ab_apply, firstRow_apply, mm8_apply, hsq]
  rfl

end Block

end Cert.KernelIdeal.ApplyValue

end
-- ==== Proof.ApplyValue2.lean ====
/- The second kernel's body read at an index: the layer normalisation and the stored block. -/
import proofs.«154793_g50139448213692_cont_sun_m_1014_11_alg».proof.Proof.KIApply
import proofs.«154793_g50139448213692_cont_sun_m_1014_11_alg».proof.Proof.TileSpec
import proofs.«154793_g50139448213692_cont_sun_m_1014_11_alg».proof.Proof.ApplyValue1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ApplyValue

open Cert.KernelIdeal Cert.KernelIdeal.Gen Cert.Attn
open Idealize.ShloMosaic Idealize.ShloMosaic.ValueIdx

/-! ## The layer normalisation of one block and the stored value -/

/-- The reciprocal of ninety-six, a named constant of the kernel, and the variance offset's word. -/
abbrev inv96 : EReal := Named.named (F := Ideal) Cert.KernelIdeal.κ "inv_96" (φ := .f32) 0x3C2AAAAB#32
abbrev wEps : EReal := Ideal.ofBits .f32 0x3727C5AC#32

theorem rsqrt_apply {s : Shape} {φ : FTy} (a : FVec Ideal s φ) (i : s.Idx) : rsqrt a i = Ideal.rsqrt (a i) := rfl

section Block
variable (x0 : FVec Ideal S1x96x3584 .f32) (x1 x2 : FVec Ideal S96x96 .bf16) (x3 x4 : FVec Ideal S96x1 .f32)

/-- The rows of the reciprocal. -/
theorem pay6_apply (r : Fin 8) (c : Fin 96) : k1_pay6 (F := Ideal) (ix2 r c) = inv96 := rfl

/-- The mean over the features: the reciprocal row times the residual stream. -/
theorem pay7_apply (l : Fin 3584) :
    k1_pay7 (F := Ideal) x0 x1 x2 (ix2 (0 : Fin 1) l) = Tile.mu (tokens x0) (wq x1) (am x2) inv96 l := by
  unfold k1_pay7
  show extractStridedSlice S1x3584 ![0, 0] (matmul dot_S8x96_S96x3584_S8x3584_1_0_0_1_n_n none (k1_pay6 (F := Ideal)) (k1_pay5 (F := Ideal) x0 x1 x2)
    (constant S8x3584 .f32 0x00000000#32)) slices_S8x3584_o0_0_S1x3584 (ix2 (0 : Fin 1) l) = _
  rw [firstRow_apply, mm8_apply]
  unfold Tile.mu
  refine Finset.sum_congr rfl fun k _ => ?_
  rw [pay6_apply, pay5_apply]

/-- The scale: the reciprocal square root of the clipped variance plus the offset, times the mask. -/
theorem pay8_apply (l : Fin 3584) :
    k1_pay8 (F := Ideal) x0 x1 x2 (ix2 (0 : Fin 1) l) = Tile.rfac (tokens x0) (wq x1) (am x2) wEps inv96 l := by
  have hm2 : ∑ k : Fin 96, k1_pay6 (F := Ideal) (ix2 (0 : Fin 8) k) * mulf (k1_pay5 (F := Ideal) x0 x1 x2) (k1_pay5 (F := Ideal) x0 x1 x2) (ix2 k l)
      = Tile.m2 (tokens x0) (wq x1) (am x2) inv96 l := by
    unfold Tile.m2
    refine Finset.sum_congr rfl fun k _ => ?_
    rw [pay6_apply, mulf_apply, pay5_apply]
  unfold k1_pay8
  simp only [mulf_apply, subf_apply, addf_apply, maximumf_apply, broadcast_apply, rsqrt_apply]
  rw [firstRow_apply, mm8_apply, hm2, pay7_apply, pay4_apply]
  show Ideal.rsqrt (max _ (Ideal.ofBits .f32 0x00000000#32) + _) * _ = _
  rw [Ideal.ofBits_zero_f32]
  rfl

/-- The mean spread over the features. -/
theorem pay9_apply (f : Fin 96) (l : Fin 3584) :
    k1_pay9 (F := Ideal) x0 x1 x2 (ix2 f l) = Tile.mu (tokens x0) (wq x1) (am x2) inv96 l := by
  unfold k1_pay9
  exact (broadcastTo_1b_ab_apply _ _ f l).trans (pay7_apply x0 x1 x2 l)

/-- The stored value from its six operands: deviation times scale times gamma, plus beta times the mask. -/
theorem pay1_apply (v10 : FVec Ideal S1x3584 .f32) (v24 : FVec Ideal S96x3584 .f32) (v38 : FVec Ideal S1x3584 .f32)
    (v39 : FVec Ideal S96x3584 .f32) (v43 v47 : FVec Ideal S96x1 .f32) (f : Fin 96) (l : Fin 3584) :
    k1_pay1 (F := Ideal) v10 v24 v38 v39 v43 v47 (ix3 (0 : Fin 1) f l)
      = (v24 (ix2 f l) - v39 (ix2 f l)) * v38 (ix2 (0 : Fin 1) l) * v43 (ix2 f (0 : Fin 1))
        + v47 (ix2 f (0 : Fin 1)) * v10 (ix2 (0 : Fin 1) l) := by
  unfold k1_pay1
  refine (shapeCast_ab_1ab_apply _ _ (0 : Fin 1) f l).trans ?_
  simp only [addf_apply, mulf_apply, subf_apply]
  rw [broadcastTo_1b_ab_apply, broadcastTo_1b_ab_apply, broadcastTo_a1_ab_apply, broadcastTo_a1_ab_apply,
    shapeCast_self, shapeCast_self]

/-- THE BLOCK: what the body leaves at feature f of token l is the tile form of the result. -/
theorem outBlk_apply (f : Fin 96) (l : Fin 3584) :
    Apply.outBlk (F := Ideal) x0 x1 x2 x3 x4 (ix3 (0 : Fin 1) f l)
      = Tile.res (T := Fin 3584) (tokens x0) (wq x1) (am x2) (fun f => x3 (ix2 f (0 : Fin 1)))
          (fun f => x4 (ix2 f (0 : Fin 1))) wEps inv96 l f := by
  have hz3 : (![0, 0, 0] : Fin S1x96x3584.rank → Nat) = fun _ => 0 := by funext a; fin_cases a <;> rfl
  have hz2 : (![0, 0] : Fin S96x96.rank → Nat) = fun _ => 0 := by funext a; fin_cases a <;> rfl
  have hz1 : (![0, 0] : Fin S96x1.rank → Nat) = fun _ => 0 := by funext a; fin_cases a <;> rfl
  unfold Apply.outBlk
  rw [View.canon_unit_zero hz3]
  simp only [View.ld_unit_zero (S := S1x96x3584) hz3, View.ld_unit_zero (S := S96x96) hz2,
    View.ld_unit_zero (S := S96x1) hz1]
  rw [pay1_apply, pay4_apply, pay5_apply, pay8_apply, pay9_apply]
  rfl

end Block

end Cert.KernelIdeal.ApplyValue

end
-- ==== Proof.ApplyValue3.lean ====
/- The second kernel's result depends on a token's own row only; the windows' blocks read off their arrays. -/
import proofs.«154793_g50139448213692_cont_sun_m_1014_11_alg».proof.Proof.KIApply
import proofs.«154793_g50139448213692_cont_sun_m_1014_11_alg».proof.Proof.TileSpec
import proofs.«154793_g50139448213692_cont_sun_m_1014_11_alg».proof.Proof.ApplyValue1
import proofs.«154793_g50139448213692_cont_sun_m_1014_11_alg».proof.Proof.ApplyValue2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ApplyValue

open Cert.KernelIdeal Cert.KernelIdeal.Gen Cert.Attn
open Idealize.ShloMosaic Idealize.ShloMosaic.ValueIdx

/-! ## The result at a token depends on the token's own row only -/

section Congr
variable {T T' : Type} [Fintype T] [Fintype T'] (x : T → Fin 96 → EReal) (y : T' → Fin 96 → EReal)
variable (Wq A : Fin 96 → Fin 96 → EReal) (γ β : Fin 96 → EReal) (eps inv96 : EReal)
variable {n : T} {n' : T'} (h : x n = y n')
include h

theorem absSum_congr : absSum x n = absSum y n' := by unfold absSum; rw [h]
theorem msk_congr : msk x n = msk y n' := by
  unfold msk
  exact if_congr (by unfold Live; rw [absSum_congr x y h]) rfl rfl
theorem eq_congr (c' : Fin 96) : Fused.eq x Wq n c' = Fused.eq y Wq n' c' := by unfold Fused.eq Fused.ql; rw [h]
theorem sq_congr : Fused.sq x Wq n = Fused.sq y Wq n' := by unfold Fused.sq; simp only [eq_congr x y Wq h]
theorem raw_congr (f : Fin 96) : Tile.raw x Wq A n f = Tile.raw y Wq A n' f := by
  unfold Tile.raw; simp only [eq_congr x y Wq h]
theorem out_congr (f : Fin 96) : Tile.out x Wq A n f = Tile.out y Wq A n' f := by
  unfold Tile.out; rw [raw_congr x y Wq A h, sq_congr x y Wq h, h]
theorem mu_congr : Tile.mu x Wq A inv96 n = Tile.mu y Wq A inv96 n' := by
  unfold Tile.mu; simp only [out_congr x y Wq A h]
theorem m2_congr : Tile.m2 x Wq A inv96 n = Tile.m2 y Wq A inv96 n' := by
  unfold Tile.m2; simp only [out_congr x y Wq A h]
theorem var_congr : Tile.var x Wq A inv96 n = Tile.var y Wq A inv96 n' := by
  unfold Tile.var; rw [m2_congr x y Wq A inv96 h, mu_congr x y Wq A inv96 h]
theorem rfac_congr : Tile.rfac x Wq A eps inv96 n = Tile.rfac y Wq A eps inv96 n' := by
  unfold Tile.rfac; rw [var_congr x y Wq A inv96 h, msk_congr x y h]
/-- The tile form at token n of x and at token n' of y agree when the two rows are the same. -/
theorem res_congr (f : Fin 96) : Tile.res x Wq A γ β eps inv96 n f = Tile.res y Wq A γ β eps inv96 n' f := by
  unfold Tile.res
  rw [out_congr x y Wq A h, mu_congr x y Wq A inv96 h, rfac_congr x y Wq A eps inv96 h, msk_congr x y h]

end Congr

/-! ## The windows' blocks read off their arrays -/

open Idealize.ShloMosaic.TcCoe Idealize.SL.Sem
open Idealize.ShloMosaic.Pipeline (Dat)

/-- The printed index maps, decided over the grid: at point t = b * 14 + j the feature map's and the result's
    block is (b, 0, j); the four small operands' block is always (0, 0). -/
theorem idx_facts : ∀ t : Fin cfg1.N,
    win1_5.index t (0 : Fin 3) = t.val / 14 ∧ win1_5.index t (1 : Fin 3) = 0 ∧ win1_5.index t (2 : Fin 3) = t.val % 14
    ∧ win1_0.index t (0 : Fin 3) = t.val / 14 ∧ win1_0.index t (1 : Fin 3) = 0 ∧ win1_0.index t (2 : Fin 3) = t.val % 14
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

section Region
variable (V : (c : Dev nD) → (b : Ref sig .tc) → Buf (Elt Ideal) ((c : Thread nD τ).loc b))

/-- The five arrays the region reads, as it finds them: the feature map as [2, 96, 50176], the transposed query
    weights, the folded matrix, and the columns of the scale and the shift. -/
abbrev aX (c : Dev nD) : S2x96x50176.Idx → EReal := V c main_call0_v0
abbrev aWq (c : Dev nD) : S96x96.Idx → EReal := V c main_call0_v2
abbrev aA (c : Dev nD) : S96x96.Idx → EReal := V c main_call0_v7
abbrev aGamma (c : Dev nD) : S96x1.Idx → EReal := V c main_call0_v5
abbrev aBeta (c : Dev nD) : S96x1.Idx → EReal := V c main_call0_v6

/-- The feature map's block at point t = b * 14 + j: batch b, pixels j * 3584 … j * 3584 + 3583. -/
theorem iblk0_apply (c : Dev nD) (t : Fin cfg1.N) (f : Fin 96) (l : Fin 3584) (k : S2x96x50176.Idx)
    (hk0 : (k 0).val = t.val / 14) (hk1 : (k 1).val = f.val) (hk2 : (k 2).val = t.val % 14 * 3584 + l.val) :
    (Apply.iblk V c 0 t : Vec Ideal S1x96x3584 .f32) (ix3 (0 : Fin 1) f l) = aX V c k := by
  obtain ⟨-, -, -, e0, e1, e2, -⟩ := idx_facts t
  unfold Apply.iblk
  rw [View.read_apply]
  show V c main_call0_v0 _ = V c main_call0_v0 _
  congr 1
  funext a
  apply Fin.ext
  match a with
  | ⟨0, _⟩ => show win1_0.index t (0 : Fin 3) * 1 + 1 * 0 = (k 0).val; rw [e0, hk0]; omega
  | ⟨1, _⟩ => show win1_0.index t (1 : Fin 3) * 96 + 1 * f.val = (k 1).val; rw [e1, hk1]; omega
  | ⟨2, _⟩ => show win1_0.index t (2 : Fin 3) * 3584 + 1 * l.val = (k 2).val; rw [e2, hk2]; omega

/-- The four small operands' blocks are their whole arrays. -/
theorem iblk1_apply (c : Dev nD) (t : Fin cfg1.N) (a : Fin 96) (b : Fin 96) :
    (Apply.iblk V c 1 t : S96x96.Idx → EReal) (ix2 a b) = aWq V c (ix2 a b) := by
  obtain ⟨-, -, -, -, -, -, e10, e11, e20, e21, e30, e31, e40, e41⟩ := idx_facts t
  unfold Apply.iblk
  rw [View.read_apply]
  show V c main_call0_v2 _ = V c main_call0_v2 _
  congr 1
  funext ax
  apply Fin.ext
  match ax with
  | ⟨0, _⟩ => show win1_1.index t (0 : Fin 2) * 96 + 1 * a.val = a.val; rw [e10]; omega
  | ⟨1, _⟩ => show win1_1.index t (1 : Fin 2) * 96 + 1 * b.val = b.val; rw [e11]; omega

theorem iblk2_apply (c : Dev nD) (t : Fin cfg1.N) (a : Fin 96) (b : Fin 96) :
    (Apply.iblk V c 2 t : S96x96.Idx → EReal) (ix2 a b) = aA V c (ix2 a b) := by
  obtain ⟨-, -, -, -, -, -, e10, e11, e20, e21, e30, e31, e40, e41⟩ := idx_facts t
  unfold Apply.iblk
  rw [View.read_apply]
  show V c main_call0_v7 _ = V c main_call0_v7 _
  congr 1
  funext ax
  apply Fin.ext
  match ax with
  | ⟨0, _⟩ => show win1_2.index t (0 : Fin 2) * 96 + 1 * a.val = a.val; rw [e20]; omega
  | ⟨1, _⟩ => show win1_2.index t (1 : Fin 2) * 96 + 1 * b.val = b.val; rw [e21]; omega

theorem iblk3_apply (c : Dev nD) (t : Fin cfg1.N) (a : Fin 96) (b : Fin 1) :
    (Apply.iblk V c 3 t : S96x1.Idx → EReal) (ix2 a b) = aGamma V c (ix2 a b) := by
  obtain ⟨-, -, -, -, -, -, e10, e11, e20, e21, e30, e31, e40, e41⟩ := idx_facts t
  unfold Apply.iblk
  rw [View.read_apply]
  show V c main_call0_v5 _ = V c main_call0_v5 _
  congr 1
  funext ax
  apply Fin.ext
  match ax with
  | ⟨0, _⟩ => show win1_3.index t (0 : Fin 2) * 96 + 1 * a.val = a.val; rw [e30]; omega
  | ⟨1, _⟩ => show win1_3.index t (1 : Fin 2) * 1 + 1 * b.val = b.val; rw [e31]; omega

theorem iblk4_apply (c : Dev nD) (t : Fin cfg1.N) (a : Fin 96) (b : Fin 1) :
    (Apply.iblk V c 4 t : S96x1.Idx → EReal) (ix2 a b) = aBeta V c (ix2 a b) := by
  obtain ⟨-, -, -, -, -, -, e10, e11, e20, e21, e30, e31, e40, e41⟩ := idx_facts t
  unfold Apply.iblk
  rw [View.read_apply]
  show V c main_call0_v6 _ = V c main_call0_v6 _
  congr 1
  funext ax
  apply Fin.ext
  match ax with
  | ⟨0, _⟩ => show win1_4.index t (0 : Fin 2) * 96 + 1 * a.val = a.val; rw [e40]; omega
  | ⟨1, _⟩ => show win1_4.index t (1 : Fin 2) * 1 + 1 * b.val = b.val; rw [e41]; omega

end Region

end Cert.KernelIdeal.ApplyValue

end
-- ==== Proof.KIApplyValue.lean ====
/- The second kernel's result array as one function of the arrays it reads. -/
import proofs.«154793_g50139448213692_cont_sun_m_1014_11_alg».proof.Proof.KIApply
import proofs.«154793_g50139448213692_cont_sun_m_1014_11_alg».proof.Proof.TileSpec
import proofs.«154793_g50139448213692_cont_sun_m_1014_11_alg».proof.Proof.ApplyValue1
import proofs.«154793_g50139448213692_cont_sun_m_1014_11_alg».proof.Proof.ApplyValue2
import proofs.«154793_g50139448213692_cont_sun_m_1014_11_alg».proof.Proof.ApplyValue3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ApplyValue

open Cert.KernelIdeal Cert.KernelIdeal.Gen Cert.Attn
open Idealize.ShloMosaic Idealize.ShloMosaic.ValueIdx

open Idealize.ShloMosaic.TcCoe Idealize.SL.Sem
open Idealize.ShloMosaic.Pipeline (Dat)

section Region
variable (V : (c : Dev nD) → (b : Ref sig .tc) → Buf (Elt Ideal) ((c : Thread nD τ).loc b))

/-- The result array as ONE function of the five arrays: at (b, f, p) the tile form of the result at token p of
    batch b, feature f. -/
def G (c : Dev nD) : S2x96x50176.Idx → EReal := fun i =>
  Tile.res (T := Fin 50176) (fun p c' => aX V c (ix3 (⟨(i 0).val, (i 0).isLt⟩ : Fin 2) c' p))
    (fun c0 c' => aWq V c (ix2 c' c0)) (fun f c' => aA V c (ix2 f c'))
    (fun f => aGamma V c (ix2 f (0 : Fin 1))) (fun f => aBeta V c (ix2 f (0 : Fin 1))) wEps inv96
    (⟨(i 2).val, (i 2).isLt⟩ : Fin 50176) (⟨(i 1).val, (i 1).isLt⟩ : Fin 96)

/-- What point t = b * 14 + j leaves at (0, f, l) of its block is G at (b, f, j * 3584 + l). -/
theorem block_value (c : Dev nD) (t : Fin cfg1.N) (f : Fin 96) (l : Fin 3584) (k : S2x96x50176.Idx)
    (hk0 : (k 0).val = t.val / 14) (hk1 : (k 1).val = f.val) (hk2 : (k 2).val = t.val % 14 * 3584 + l.val) :
    Apply.outBlk (F := Ideal) (Apply.iblk V c 0 t) (Apply.iblk V c 1 t) (Apply.iblk V c 2 t) (Apply.iblk V c 3 t)
      (Apply.iblk V c 4 t) (ix3 (0 : Fin 1) f l) = G V c k := by
  refine (outBlk_apply _ _ _ _ _ f l).trans ?_
  have h1 : wq (Apply.iblk V c 1 t) = fun c0 c' => aWq V c (ix2 c' c0) :=
    funext fun c0 => funext fun c' => iblk1_apply V c t c' c0
  have h2 : am (Apply.iblk V c 2 t) = fun f c' => aA V c (ix2 f c') :=
    funext fun f => funext fun c' => iblk2_apply V c t f c'
  have h3 : (fun f => (Apply.iblk V c 3 t : S96x1.Idx → EReal) (ix2 f (0 : Fin 1))) = fun f => aGamma V c (ix2 f (0 : Fin 1)) :=
    funext fun f => iblk3_apply V c t f 0
  have h4 : (fun f => (Apply.iblk V c 4 t : S96x1.Idx → EReal) (ix2 f (0 : Fin 1))) = fun f => aBeta V c (ix2 f (0 : Fin 1)) :=
    funext fun f => iblk4_apply V c t f 0
  rw [h1, h2, h3, h4]
  have hf : (⟨(k 1).val, (k 1).isLt⟩ : Fin 96) = f := Fin.ext hk1
  unfold G
  rw [hf]
  exact res_congr (tokens (Apply.iblk V c 0 t)) (fun p c' => aX V c (ix3 (⟨(k 0).val, (k 0).isLt⟩ : Fin 2) c' p)) _ _ _ _ _ _
    (n := l) (n' := (⟨(k 2).val, (k 2).isLt⟩ : Fin 50176))
    (funext fun c' => iblk0_apply V c t c' l _ hk0 rfl hk2) f

/-- WHAT POINT t WRITES BACK is block t of G of the arrays as the region finds them. -/
theorem flushed_eq (c : Dev nD) (t : Fin cfg1.N) :
    (Apply.dat V c).flushed 5 t = ((cfg1.win 5).blk t).view.read (Elt Ideal) (G V c) := by
  obtain ⟨e0, e1, e2, -⟩ := idx_facts t
  show (cfg1.win 5).cut (grid1.coords t) ((Apply.dat V c).after 5 t) = _
  rw [Apply.after_5]
  funext y
  have h0 : (y 0).val < 1 := (y 0).isLt
  have hy : y = ix3 (0 : Fin 1) (⟨(y 1).val, (y 1).isLt⟩ : Fin 96) (⟨(y 2).val, (y 2).isLt⟩ : Fin 3584) := by
    funext a; apply Fin.ext
    match a with
    | ⟨0, _⟩ => show (y 0).val = 0; omega
    | ⟨1, _⟩ => rfl
    | ⟨2, _⟩ => rfl
  show Apply.outBlk (F := Ideal) (Apply.iblk V c 0 t) (Apply.iblk V c 1 t) (Apply.iblk V c 2 t) (Apply.iblk V c 3 t)
    (Apply.iblk V c 4 t) y = G V c (((cfg1.win 5).blk t).view.emb y)
  refine (congrArg (Apply.outBlk (F := Ideal) (Apply.iblk V c 0 t) (Apply.iblk V c 1 t) (Apply.iblk V c 2 t)
    (Apply.iblk V c 3 t) (Apply.iblk V c 4 t)) hy).trans ?_
  refine block_value V c t _ _ (((cfg1.win 5).blk t).view.emb y) ?_ ?_ ?_
  · show win1_5.index t (0 : Fin 3) * 1 + 1 * (y 0).val = t.val / 14; rw [e0]; omega
  · show win1_5.index t (1 : Fin 3) * 96 + 1 * (y 1).val = (y 1).val; rw [e1]; omega
  · show win1_5.index t (2 : Fin 3) * 3584 + 1 * (y 2).val = t.val % 14 * 3584 + (y 2).val; rw [e2]; omega

/-- Every entry (b, f, p) of the result array is in the block of the point b * 14 + p / 3584. -/
theorem covered (i : S2x96x50176.Idx) :
    ∃ t : Fin cfg1.N, (cfg1.win 5).flush t = true ∧ i ∈ ((cfg1.win 5).blk t).view.set := by
  have hi0 : (i 0).val < 2 := (i 0).isLt
  have hi1 : (i 1).val < 96 := (i 1).isLt
  have hi2 : (i 2).val < 50176 := (i 2).isLt
  obtain ⟨t, ht⟩ : ∃ t : Fin cfg1.N, t.val = (i 0).val * 14 + (i 2).val / 3584 :=
    ⟨⟨(i 0).val * 14 + (i 2).val / 3584, by show _ < grid1.N; rw [N_1]; omega⟩, rfl⟩
  obtain ⟨e0, e1, e2, -⟩ := idx_facts t
  refine ⟨t, flush1_5 t, ?_⟩
  show i ∈ ((View.whole main_call0_v8).slice (win1_5.rect t)).set
  rw [View.set_slice_whole, Rect.mem_set_unit]
  intro a
  match a with
  | ⟨0, _⟩ =>
    show win1_5.index t (0 : Fin 3) * 1 ≤ (i 0).val ∧ (i 0).val < win1_5.index t (0 : Fin 3) * 1 + 1
    rw [e0]; omega
  | ⟨1, _⟩ =>
    show win1_5.index t (1 : Fin 3) * 96 ≤ (i 1).val ∧ (i 1).val < win1_5.index t (1 : Fin 3) * 96 + 96
    rw [e1]; omega
  | ⟨2, _⟩ =>
    show win1_5.index t (2 : Fin 3) * 3584 ≤ (i 2).val ∧ (i 2).val < win1_5.index t (2 : Fin 3) * 3584 + 3584
    rw [e2]; omega

/-- THE ARRAY after the region: G of the arrays as the region finds them. -/
theorem arr_eq (c : Dev nD) : (Apply.dat V c).arrAt 5 cfg1.N = G V c :=
  (Apply.dat V c).arrAt_eq_of_cover 5 (G V c) (fun t _ => flushed_eq V c t) (covered)

/-- ... read at an entry: the tile form of the result at token p of batch b, feature f. -/
theorem final (c : Dev nD) (b : Fin 2) (f : Fin 96) (p : Fin 50176) :
    ((Apply.dat V c).arrAt 5 cfg1.N : S2x96x50176.Idx → EReal) (ix3 b f p)
      = Tile.res (T := Fin 50176) (fun p c' => aX V c (ix3 b c' p)) (fun c0 c' => aWq V c (ix2 c' c0))
          (fun f c' => aA V c (ix2 f c')) (fun f => aGamma V c (ix2 f (0 : Fin 1)))
          (fun f => aBeta V c (ix2 f (0 : Fin 1))) wEps inv96 p f := by
  rw [arr_eq]
  rfl

end Region

end Cert.KernelIdeal.ApplyValue

end
-- ==== Proof.KIValue2.lean ====
/-
  The kernel program's result, entry by entry, over the extended reals: the fused form of the attention block at the token
  of the entry's batch and pixel, at the entry's feature.
-/
import proofs.«154793_g50139448213692_cont_sun_m_1014_11_alg».proof.Proof.KIValue1
import proofs.«154793_g50139448213692_cont_sun_m_1014_11_alg».proof.Proof.KIApplyValue
import proofs.«154793_g50139448213692_cont_sun_m_1014_11_alg».proof.Proof.KIReducePay

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn Cert.KernelIdeal.ApplyValue

variable (m : (ℓ : Loc nD τ sig) → Buf (Elt Ideal) ℓ) (c : Dev nD)

/-- The first kernel's tokens are the feature map's rows. -/
theorem xg_eq : Reduce.xg (V1 m) c = rows (m ((c.tc : Thread nD τ).loc main_arg0)) := by
  funext n cc
  unfold Reduce.xg rows
  refine V1_v0_apply m c (tokB n) cc (tokP n) (tokH n) (tokW n) ?_
  have := n.isLt
  simp only [tokP, tokH, tokW]; omega

/-- A transposed weight matrix read at (c', cc) is the matrix at (cc, c'). -/
theorem transposed_apply (W : S96x96.Idx → EReal) (a b : Fin 96) :
    (truncf (F := Ideal) .bf16 (transpose S96x96 [1, 0] W transposes_S96x96_S96x96_1_0) bitsLt_bf16_f32 : S96x96.Idx → EReal) (ix2 a b)
      = W (ix2 b a) := by
  rw [truncf_apply]
  exact transpose_apply [1, 0] W transposes_S96x96_S96x96_1_0 (ix2 a b) (ix2 b a) (fun i => match i with
    | ⟨0, _⟩ => rfl
    | ⟨1, _⟩ => rfl)

/-- The first kernel's key weights are the key weights. -/
theorem wk_eq : Reduce.wk (V1 m) c = mat (m ((c.tc : Thread nD τ).loc main_arg2)) := by
  funext cc c'
  unfold Reduce.wk ReducePay.wT mat
  rw [V1_v4]
  exact transposed_apply _ c' cc

/-- The second kernel's query weights are the query weights. -/
theorem wq_eq : (fun c0 c' => (V2 m c main_call0_v2 : S96x96.Idx → EReal) (ix2 c' c0)) = mat (m ((c.tc : Thread nD τ).loc main_arg1)) := by
  funext cc c'
  unfold mat
  rw [V2_v2, V1_v2]
  exact transposed_apply _ c' cc

/-- The scale and the shift. -/
theorem gamma_eq : (fun f => (V2 m c main_call0_v5 : S96x1.Idx → EReal) (ix2 f (0 : Fin 1))) = vec (m ((c.tc : Thread nD τ).loc main_arg5)) := by
  funext f
  unfold vec
  rw [V2_v5, V1_v5]
  exact ReducePay.shapeCast_a_a1_apply _ _ f 0
theorem beta_eq : (fun f => (V2 m c main_call0_v6 : S96x1.Idx → EReal) (ix2 f (0 : Fin 1))) = vec (m ((c.tc : Thread nD τ).loc main_arg6)) := by
  funext f
  unfold vec
  rw [V2_v6, V1_v6]
  exact ReducePay.shapeCast_a_a1_apply _ _ f 0

/-- The matrix the first kernel hands the second is the fused form's folded matrix. -/
theorem A_eq : (fun f c' => (V2 m c main_call0_v7 : S96x96.Idx → EReal) (ix2 f c'))
    = Fused.A (rows (m ((c.tc : Thread nD τ).loc main_arg0))) (mat (m ((c.tc : Thread nD τ).loc main_arg2)))
        (mat (m ((c.tc : Thread nD τ).loc main_arg3))) (mat (m ((c.tc : Thread nD τ).loc main_arg4))) := by
  funext f c'
  rw [V2_v7, Reduce.final_A_apply, xg_eq, wk_eq, V1_arg3, V1_arg4]
  rfl

/-- THE KERNEL'S RESULT at batch `b`, feature `f`, row `h`, column `w`: the fused form at that token and feature. -/
theorem result_apply (b : Fin 2) (f : Fin 96) (h w : Fin 224) :
    (W4 m c (Proc.devRef .tc main_v0) : S2x96x224x224.Idx → EReal) (ix4 b f h w)
      = Fused.res (rows (m ((c.tc : Thread nD τ).loc main_arg0))) (mat (m ((c.tc : Thread nD τ).loc main_arg1)))
          (mat (m ((c.tc : Thread nD τ).loc main_arg2))) (mat (m ((c.tc : Thread nD τ).loc main_arg3))) (mat (m ((c.tc : Thread nD τ).loc main_arg4)))
          (vec (m ((c.tc : Thread nD τ).loc main_arg5))) (vec (m ((c.tc : Thread nD τ).loc main_arg6)))
          (Ideal.ofBits .f32 0x3727C5AC#32) (Named.named (F := Ideal) κ "inv_96" (φ := .f32) 0x3C2AAAAB#32) (tokOf b h w) f := by
  have hp : ((⟨h.val * 224 + w.val, by have := h.isLt; have := w.isLt; omega⟩ : Fin 50176)).val = h.val * 224 + w.val := rfl
  rw [W4_v0]
  rw [shapeCast_apply _ shapeCasts_S2x96x50176_S2x96x224x224 (ix4 b f h w) (ix3 b f (⟨h.val * 224 + w.val, by have := h.isLt; have := w.isLt; omega⟩ : Fin 50176)) (by
    rw [Shape.rowMajor_val_three, Shape.rowMajor_val_four]
    show (b.val * 96 + f.val) * 50176 + (h.val * 224 + w.val) = ((b.val * 96 + f.val) * 224 + h.val) * 224 + w.val
    ring)]
  rw [show W3 m c (Proc.devRef .tc main_call0_v8) = (Apply.dat (V2 m) c).arrAt 5 cfg1.N from W3_arr m c 5]
  rw [ApplyValue.final (V2 m) c b f _]
  rw [Tile.fused_res]
  have e := A_eq m c; have eq' := wq_eq m c; have eg := gamma_eq m c; have eb := beta_eq m c
  unfold aWq aA aGamma aBeta
  rw [eq', e, eg, eb]
  refine res_congr _ _ _ _ _ _ _ _ ?_ f
  funext cc
  unfold aX rows
  rw [V2_v0, V1_v0_apply m c b cc _ h w hp, tokB_tokOf, tokH_tokOf, tokW_tokOf]

end Cert.KernelIdeal.Whole

end
-- ==== Proof.RefSide1.lean ====
/- The reference program's first stages: the token matrix, the mask, the masked tokens. -/
import proofs.«154793_g50139448213692_cont_sun_m_1014_11_alg».proof.Proof.Gen.ReferenceIdeal.Run
import proofs.«154793_g50139448213692_cont_sun_m_1014_11_alg».proof.Proof.Gen.ReferenceIdeal.Read
import proofs.«154793_g50139448213692_cont_sun_m_1014_11_alg».proof.Proof.Spec
import proofs.«154793_g50139448213692_cont_sun_m_1014_11_alg».proof.Proof.Layout

noncomputable section

namespace Cert.Attn.RefSide

open Cert.ReferenceIdeal Cert.ReferenceIdeal.Gen Cert.ReferenceIdeal.Read Idealize.ShloMosaic Idealize.ShloMosaic.ValueIdx

/-- The contents of the feature map, of a 96 x 96 matrix, of a vector of 96. -/
abbrev TX : Type := (⟨S2x96x224x224, .f32⟩ : BufTy).Contents (Elt Ideal)
abbrev TW : Type := (⟨S96x96, .f32⟩ : BufTy).Contents (Elt Ideal)
abbrev TV : Type := (⟨S96, .f32⟩ : BufTy).Contents (Elt Ideal)

/-- The word of minus infinity. -/
theorem ofBits_negInf : Ideal.ofBits .f32 0xFF800000#32 = (⊥ : EReal) := by
  simp [Ideal.ofBits, Ideal.ieee]

/-- A select on a bit that says whether a proposition holds is an if. -/
theorem select_ite {α : Type} (P : Prop) [Decidable P] (a b : α) :
    Scalar.select (if P then 1#1 else 0#1) a b = if P then a else b := by
  unfold Scalar.select
  by_cases h : P
  · rw [if_pos h, if_pos h]; exact if_pos rfl
  · rw [if_neg h, if_neg h]; exact if_neg (by decide)

/-- Row n of the token matrix is the features of the pixel (b, h, w) with n = (b * 224 + h) * 224 + w. -/
theorem v1_eq (x0 : TX) (n : Fin 100352) (c : Fin 96) :
    val_main_v1 (F := Ideal) x0 (ix2 n c) = rows x0 n c := by
  rw [val_main_v1_apply, val_main_v0_apply]
  unfold rows
  refine congrArg x0 (funext fun a => Fin.ext ?_)
  have hn := n.isLt
  have hc := c.isLt
  match a with
  | ⟨0, _⟩ => show (n.val * 96 + c.val) / 4816896 = n.val / 50176; omega
  | ⟨1, _⟩ => show (n.val * 96 + c.val) % 96 = c.val; omega
  | ⟨2, _⟩ => show (n.val * 96 + c.val) / 21504 % 224 = n.val % 50176 / 224; omega
  | ⟨3, _⟩ => show (n.val * 96 + c.val) / 96 % 224 = n.val % 224; omega

/-- The absolute values of a row, summed. -/
theorem v3_eq (x0 : TX) (n : Fin 100352) :
    val_main_v3 (F := Ideal) x0 (ix1 n) = absSum (rows x0) n := by
  rw [val_main_v3_apply, val_main_cst_apply, Ideal.ofBits_def, Ideal.ofBits_zero_f32, zero_add]
  unfold absSum
  refine Finset.sum_congr rfl fun k _ => ?_
  have e : idx_main_v3 (ix1 n) k = ix2 n k :=
    funext fun a => Fin.ext (by match a with | ⟨0, _⟩ => rfl | ⟨1, _⟩ => rfl)
  rw [val_main_v2_apply, Ideal.hostAbsf_def, e, v1_eq]
  rfl

/-- The mask bit of a row: whether the token is live. -/
theorem v5_eq (x0 : TX) (n : Fin 100352) :
    val_main_v5 (F := Ideal) x0 (ix1 n) = if Live (rows x0) n then 1#1 else 0#1 := by
  rw [val_main_v5_apply, v3_eq, val_main_v4_apply, val_main_cst_0_apply, Ideal.ofBits_def, Ideal.ofBits_zero_f32]
  show Ideal.cmp .ogt (absSum (rows x0) n) 0 = _
  unfold Ideal.cmp
  by_cases h : Live (rows x0) n
  · rw [if_pos h]; unfold Live at h; simp [h]
  · rw [if_neg h]; unfold Live at h; simp [h]

/-- The mask as a column. -/
theorem v6_eq (x0 : TX) (n : Fin 100352) (z : Fin 1) :
    val_main_v6 (F := Ideal) x0 (ix2 n z) = if Live (rows x0) n then 1#1 else 0#1 := by
  have e : idx_main_v6 (ix2 n z) = ix1 n :=
    funext fun a => Fin.ext (by match a with | ⟨0, _⟩ => rfl)
  rw [val_main_v6_apply, e, v5_eq]

/-- The mask spread over the features (the three places where the program does it). -/
theorem mask0_eq (x0 : TX) (n : Fin 100352) (c : Fin 96) :
    val_main_call0_v1 (F := Ideal) x0 (ix2 n c) = if Live (rows x0) n then 1#1 else 0#1 := by
  have e : idx_main_call0_v1 (ix2 n c) = ix2 n (0 : Fin 1) :=
    funext fun a => Fin.ext (by match a with | ⟨0, _⟩ => rfl | ⟨1, _⟩ => rfl)
  rw [val_main_call0_v1_apply, e, v6_eq]

theorem mask1_eq (x0 : TX) (n : Fin 100352) (c : Fin 96) :
    val_main_call1_v1 (F := Ideal) x0 (ix2 n c) = if Live (rows x0) n then 1#1 else 0#1 := by
  have e : idx_main_call1_v1 (ix2 n c) = ix2 n (0 : Fin 1) :=
    funext fun a => Fin.ext (by match a with | ⟨0, _⟩ => rfl | ⟨1, _⟩ => rfl)
  rw [val_main_call1_v1_apply, e, v6_eq]

theorem mask2_eq (x0 : TX) (n : Fin 100352) (c : Fin 96) :
    val_main_call2_v0 (F := Ideal) x0 (ix2 n c) = if Live (rows x0) n then 1#1 else 0#1 := by
  have e : idx_main_call2_v0 (ix2 n c) = ix2 n (0 : Fin 1) :=
    funext fun a => Fin.ext (by match a with | ⟨0, _⟩ => rfl | ⟨1, _⟩ => rfl)
  rw [val_main_call2_v0_apply, e, v6_eq]

/-- The masked tokens: a dead row is zeroed. -/
theorem v7_eq (x0 : TX) (n : Fin 100352) (c : Fin 96) :
    val_main_v7 (F := Ideal) x0 (ix2 n c) = Plain.tok (rows x0) n c := by
  rw [val_main_v7_apply, mask0_eq, v1_eq, val_main_call0_v2_apply, val_main_call0_v0_apply, val_main_cst_1_apply,
    Ideal.ofBits_def, Ideal.ofBits_zero_f32, select_ite]
  rfl

end Cert.Attn.RefSide

end
-- ==== Proof.RefSide2.lean ====
/- The reference program's query softmax, over the features of each token. -/
import proofs.«154793_g50139448213692_cont_sun_m_1014_11_alg».proof.Proof.Gen.ReferenceIdeal.Run
import proofs.«154793_g50139448213692_cont_sun_m_1014_11_alg».proof.Proof.Gen.ReferenceIdeal.Read
import proofs.«154793_g50139448213692_cont_sun_m_1014_11_alg».proof.Proof.Spec
import proofs.«154793_g50139448213692_cont_sun_m_1014_11_alg».proof.Proof.Layout
import proofs.«154793_g50139448213692_cont_sun_m_1014_11_alg».proof.Proof.RefSide1

noncomputable section

namespace Cert.Attn.RefSide

open Cert.ReferenceIdeal Cert.ReferenceIdeal.Gen Cert.ReferenceIdeal.Read Idealize.ShloMosaic Idealize.ShloMosaic.ValueIdx

/-- A fold of the maximum from minus infinity is the supremum. -/
theorem fold_max_eq_sup {ι : Type} (s : Finset ι) (f : ι → EReal) :
    s.fold (FloatOps.maximumf (F := Ideal) (φ := .f32)) (⊥ : EReal) f = s.sup f := by
  classical
  induction s using Finset.induction_on with
  | empty => rw [Finset.fold_empty, Finset.sup_empty]
  | insert a s ha ih => rw [Finset.fold_insert ha, Finset.sup_insert, ih]; rfl

/-- Row n with the feature k put back is the entry (n, k). -/
theorem lift_d1 (h : S100352x96.Reduces [1] S100352) (n : Fin 100352) (k : Fin (S100352x96.size 1)) :
    h.lift (ix1 n) k = ix2 n (⟨k.val, k.isLt⟩ : Fin 96) := by
  funext c; apply Fin.ext
  fin_cases c <;> rfl

/-- Query scores. -/
theorem v8_eq (x0 : TX) (x1 : TW) (n : Fin 100352) (c' : Fin 96) :
    val_main_v8 (F := Ideal) x0 x1 (ix2 n c') = Plain.ql (rows x0) (mat x1) n c' := by
  rw [val_main_v8_apply]
  unfold Plain.ql
  refine Finset.sum_congr rfl fun k _ => ?_
  have el : lidx_main_v8 (ix2 n c') k = ix2 n k :=
    funext fun a => Fin.ext (by match a with | ⟨0, _⟩ => rfl | ⟨1, _⟩ => rfl)
  have er : ridx_main_v8 (ix2 n c') k = ix2 k c' :=
    funext fun a => Fin.ext (by match a with | ⟨0, _⟩ => rfl | ⟨1, _⟩ => rfl)
  rw [el, er, v7_eq]
  rfl

/-- The maximum-reduction of the query scores over the features: their supremum. -/
theorem v9_eq (x0 : TX) (x1 : TW) (n : Fin 100352) :
    val_main_v9 (F := Ideal) x0 x1 (ix1 n) = Finset.univ.sup fun c' => Plain.ql (rows x0) (mat x1) n c' := by
  have h : S100352x96.Reduces [1] S100352 := by decide
  unfold val_main_v9
  rw [Host.reduce_eq_fold_single FloatOps.maximumf _ _ reducesTo_S100352x96_S100352_d1 h h_S_,
    val_main_cst_2_apply, Ideal.ofBits_def, ofBits_negInf]
  have hf : (val_main_v8 (F := Ideal) x0 x1 ∘ h.lift (ix1 n)) = fun c' : Fin 96 => Plain.ql (rows x0) (mat x1) n c' :=
    funext fun k => by
      show val_main_v8 (F := Ideal) x0 x1 (h.lift (ix1 n) k) = _
      rw [lift_d1]; exact v8_eq x0 x1 n _
  refine (congrArg (fun f => Finset.fold (FloatOps.maximumf (F := Ideal) (φ := .f32)) (⊥ : EReal) f (Finset.univ : Finset (Fin 96))) hf).trans ?_
  exact fold_max_eq_sup _ _

/-- The query maximum. -/
theorem v11_eq (x0 : TX) (x1 : TW) (n : Fin 100352) :
    val_main_v11 (F := Ideal) x0 x1 (ix1 n) = Plain.mq (rows x0) (mat x1) n := by
  rw [val_main_v11_apply, val_main_v10_apply, val_main_cst_3_apply, Ideal.ofBits_def, ofBits_negInf, v9_eq]
  rfl

/-- ... spread over the features. -/
theorem v13_eq (x0 : TX) (x1 : TW) (n : Fin 100352) (c' : Fin 96) :
    val_main_v13 (F := Ideal) x0 x1 (ix2 n c') = Plain.mq (rows x0) (mat x1) n := by
  have e13 : idx_main_v13 (ix2 n c') = ix2 n (0 : Fin 1) :=
    funext fun a => Fin.ext (by match a with | ⟨0, _⟩ => rfl | ⟨1, _⟩ => rfl)
  have e12 : idx_main_v12 (ix2 n (0 : Fin 1)) = ix1 n :=
    funext fun a => Fin.ext (by match a with | ⟨0, _⟩ => rfl)
  rw [val_main_v13_apply, e13, val_main_v12_apply, e12, v11_eq]

/-- Shifted query weights. -/
theorem v15_eq (x0 : TX) (x1 : TW) (n : Fin 100352) (c' : Fin 96) :
    val_main_v15 (F := Ideal) x0 x1 (ix2 n c') = Plain.eq (rows x0) (mat x1) n c' := by
  rw [val_main_v15_apply, val_main_v14_apply, v8_eq, v13_eq, Ideal.hostUnary_exp_def, Ideal.subf_def]
  rfl

/-- Their sum over the features. -/
theorem v16_eq (x0 : TX) (x1 : TW) (n : Fin 100352) :
    val_main_v16 (F := Ideal) x0 x1 (ix1 n) = ∑ c'', Plain.eq (rows x0) (mat x1) n c'' := by
  rw [val_main_v16_apply, val_main_cst_4_apply, Ideal.ofBits_def, Ideal.ofBits_zero_f32, zero_add]
  refine Finset.sum_congr rfl fun k _ => ?_
  have e : idx_main_v16 (ix1 n) k = ix2 n k :=
    funext fun a => Fin.ext (by match a with | ⟨0, _⟩ => rfl | ⟨1, _⟩ => rfl)
  rw [e, v15_eq]

/-- ... spread over the features. -/
theorem v18_eq (x0 : TX) (x1 : TW) (n : Fin 100352) (c' : Fin 96) :
    val_main_v18 (F := Ideal) x0 x1 (ix2 n c') = ∑ c'', Plain.eq (rows x0) (mat x1) n c'' := by
  have e18 : idx_main_v18 (ix2 n c') = ix2 n (0 : Fin 1) :=
    funext fun a => Fin.ext (by match a with | ⟨0, _⟩ => rfl | ⟨1, _⟩ => rfl)
  have e17 : idx_main_v17 (ix2 n (0 : Fin 1)) = ix1 n :=
    funext fun a => Fin.ext (by match a with | ⟨0, _⟩ => rfl)
  rw [val_main_v18_apply, e18, val_main_v17_apply, e17, v16_eq]

/-- The query softmax. -/
theorem v19_eq (x0 : TX) (x1 : TW) (n : Fin 100352) (c' : Fin 96) :
    val_main_v19 (F := Ideal) x0 x1 (ix2 n c') = Plain.q (rows x0) (mat x1) n c' := by
  rw [val_main_v19_apply, v15_eq, v18_eq, Ideal.hostDivf_def]
  rfl

end Cert.Attn.RefSide

end
-- ==== Proof.RefSide3.lean ====
/- The reference program's key softmax, over the tokens, and the context matrix. -/
import proofs.«154793_g50139448213692_cont_sun_m_1014_11_alg».proof.Proof.Gen.ReferenceIdeal.Run
import proofs.«154793_g50139448213692_cont_sun_m_1014_11_alg».proof.Proof.Gen.ReferenceIdeal.Read
import proofs.«154793_g50139448213692_cont_sun_m_1014_11_alg».proof.Proof.Spec
import proofs.«154793_g50139448213692_cont_sun_m_1014_11_alg».proof.Proof.Layout
import proofs.«154793_g50139448213692_cont_sun_m_1014_11_alg».proof.Proof.RefSide1
import proofs.«154793_g50139448213692_cont_sun_m_1014_11_alg».proof.Proof.RefSide2

noncomputable section

namespace Cert.Attn.RefSide

open Cert.ReferenceIdeal Cert.ReferenceIdeal.Gen Cert.ReferenceIdeal.Read Idealize.ShloMosaic Idealize.ShloMosaic.ValueIdx

/-- Feature c' with the token k put back is the entry (k, c'). -/
theorem lift_d0 (h : S100352x96.Reduces [0] S96) (c' : Fin 96) (k : Fin (S100352x96.size 0)) :
    h.lift (ix1 c') k = ix2 (⟨k.val, k.isLt⟩ : Fin 100352) c' := by
  funext c; apply Fin.ext
  fin_cases c <;> rfl

/-- Key scores before masking. -/
theorem v20_eq (x0 : TX) (x2 : TW) (n : Fin 100352) (c' : Fin 96) :
    val_main_v20 (F := Ideal) x0 x2 (ix2 n c') = ∑ c, Plain.tok (rows x0) n c * mat x2 c c' := by
  rw [val_main_v20_apply]
  refine Finset.sum_congr rfl fun k _ => ?_
  have el : lidx_main_v20 (ix2 n c') k = ix2 n k :=
    funext fun a => Fin.ext (by match a with | ⟨0, _⟩ => rfl | ⟨1, _⟩ => rfl)
  have er : ridx_main_v20 (ix2 n c') k = ix2 k c' :=
    funext fun a => Fin.ext (by match a with | ⟨0, _⟩ => rfl | ⟨1, _⟩ => rfl)
  rw [el, er, v7_eq]
  rfl

/-- Key scores: minus infinity at dead tokens. -/
theorem v21_eq (x0 : TX) (x2 : TW) (n : Fin 100352) (c' : Fin 96) :
    val_main_v21 (F := Ideal) x0 x2 (ix2 n c') = Plain.kl (rows x0) (mat x2) n c' := by
  rw [val_main_v21_apply, mask1_eq, v20_eq, val_main_call1_v2_apply, val_main_call1_v0_apply, val_main_cst_5_apply,
    Ideal.ofBits_def, ofBits_negInf, select_ite]
  rfl

/-- The maximum-reduction of the key scores over the tokens: their supremum. -/
theorem v22_eq (x0 : TX) (x2 : TW) (c' : Fin 96) :
    val_main_v22 (F := Ideal) x0 x2 (ix1 c') = Finset.univ.sup fun n => Plain.kl (rows x0) (mat x2) n c' := by
  have h : S100352x96.Reduces [0] S96 := by decide
  unfold val_main_v22
  rw [Host.reduce_eq_fold_single FloatOps.maximumf _ _ reducesTo_S100352x96_S96_d0 h h_S_,
    val_main_cst_6_apply, Ideal.ofBits_def, ofBits_negInf]
  have hf : (val_main_v21 (F := Ideal) x0 x2 ∘ h.lift (ix1 c')) = fun n : Fin 100352 => Plain.kl (rows x0) (mat x2) n c' :=
    funext fun k => by
      rw [Function.comp_apply, lift_d0]; exact v21_eq x0 x2 _ c'
  refine (congrArg (fun f => Finset.fold (FloatOps.maximumf (F := Ideal) (φ := .f32)) (⊥ : EReal) f (Finset.univ : Finset (Fin 100352))) hf).trans ?_
  exact fold_max_eq_sup _ _

/-- The key maximum. -/
theorem v24_eq (x0 : TX) (x2 : TW) (c' : Fin 96) :
    val_main_v24 (F := Ideal) x0 x2 (ix1 c') = Plain.mk (rows x0) (mat x2) c' := by
  rw [val_main_v24_apply, val_main_v23_apply, val_main_cst_7_apply, Ideal.ofBits_def, ofBits_negInf, v22_eq]
  rfl

/-- ... spread over the tokens. -/
theorem v26_eq (x0 : TX) (x2 : TW) (n : Fin 100352) (c' : Fin 96) :
    val_main_v26 (F := Ideal) x0 x2 (ix2 n c') = Plain.mk (rows x0) (mat x2) c' := by
  have e26 : idx_main_v26 (ix2 n c') = ix2 (0 : Fin 1) c' :=
    funext fun a => Fin.ext (by match a with | ⟨0, _⟩ => rfl | ⟨1, _⟩ => rfl)
  have e25 : idx_main_v25 (ix2 (0 : Fin 1) c') = ix1 c' :=
    funext fun a => Fin.ext (by match a with | ⟨0, _⟩ => rfl)
  rw [val_main_v26_apply, e26, val_main_v25_apply, e25, v24_eq]

/-- Shifted key weights. -/
theorem v28_eq (x0 : TX) (x2 : TW) (n : Fin 100352) (c' : Fin 96) :
    val_main_v28 (F := Ideal) x0 x2 (ix2 n c') = Plain.ek (rows x0) (mat x2) n c' := by
  rw [val_main_v28_apply, val_main_v27_apply, v21_eq, v26_eq, Ideal.hostUnary_exp_def, Ideal.subf_def]
  rfl

/-- Their sum over the tokens. -/
theorem v29_eq (x0 : TX) (x2 : TW) (c' : Fin 96) :
    val_main_v29 (F := Ideal) x0 x2 (ix1 c') = ∑ n', Plain.ek (rows x0) (mat x2) n' c' := by
  rw [val_main_v29_apply, val_main_cst_8_apply, Ideal.ofBits_def, Ideal.ofBits_zero_f32, zero_add]
  refine Finset.sum_congr rfl fun k _ => ?_
  have e : idx_main_v29 (ix1 c') k = ix2 k c' :=
    funext fun a => Fin.ext (by match a with | ⟨0, _⟩ => rfl | ⟨1, _⟩ => rfl)
  rw [e, v28_eq]

/-- ... spread over the tokens. -/
theorem v31_eq (x0 : TX) (x2 : TW) (n : Fin 100352) (c' : Fin 96) :
    val_main_v31 (F := Ideal) x0 x2 (ix2 n c') = ∑ n', Plain.ek (rows x0) (mat x2) n' c' := by
  have e31 : idx_main_v31 (ix2 n c') = ix2 (0 : Fin 1) c' :=
    funext fun a => Fin.ext (by match a with | ⟨0, _⟩ => rfl | ⟨1, _⟩ => rfl)
  have e30 : idx_main_v30 (ix2 (0 : Fin 1) c') = ix1 c' :=
    funext fun a => Fin.ext (by match a with | ⟨0, _⟩ => rfl)
  rw [val_main_v31_apply, e31, val_main_v30_apply, e30, v29_eq]

/-- The key softmax over the tokens. -/
theorem v32_eq (x0 : TX) (x2 : TW) (n : Fin 100352) (c' : Fin 96) :
    val_main_v32 (F := Ideal) x0 x2 (ix2 n c') = Plain.k (rows x0) (mat x2) n c' := by
  rw [val_main_v32_apply, v28_eq, v31_eq, Ideal.hostDivf_def]
  rfl

/-- Values. -/
theorem v33_eq (x0 : TX) (x3 : TW) (n : Fin 100352) (d : Fin 96) :
    val_main_v33 (F := Ideal) x0 x3 (ix2 n d) = Plain.v (rows x0) (mat x3) n d := by
  rw [val_main_v33_apply]
  unfold Plain.v
  refine Finset.sum_congr rfl fun k _ => ?_
  have el : lidx_main_v33 (ix2 n d) k = ix2 n k :=
    funext fun a => Fin.ext (by match a with | ⟨0, _⟩ => rfl | ⟨1, _⟩ => rfl)
  have er : ridx_main_v33 (ix2 n d) k = ix2 k d :=
    funext fun a => Fin.ext (by match a with | ⟨0, _⟩ => rfl | ⟨1, _⟩ => rfl)
  rw [el, er, v7_eq]
  rfl

/-- The key softmax, transposed. -/
theorem v34_eq (x0 : TX) (x2 : TW) (c' : Fin 96) (n : Fin 100352) :
    val_main_v34 (F := Ideal) x0 x2 (ix2 c' n) = Plain.k (rows x0) (mat x2) n c' := by
  have e : idx_main_v34 (ix2 c' n) = ix2 n c' :=
    funext fun a => Fin.ext (by match a with | ⟨0, _⟩ => rfl | ⟨1, _⟩ => rfl)
  rw [val_main_v34_apply, e, v32_eq]

/-- The context: keys against values, summed over the tokens. -/
theorem v35_eq (x0 : TX) (x2 x3 : TW) (c' d : Fin 96) :
    val_main_v35 (F := Ideal) x0 x2 x3 (ix2 c' d) = Plain.ctx (rows x0) (mat x2) (mat x3) c' d := by
  rw [val_main_v35_apply]
  unfold Plain.ctx
  refine Finset.sum_congr rfl fun k _ => ?_
  have el : lidx_main_v35 (ix2 c' d) k = ix2 c' k :=
    funext fun a => Fin.ext (by match a with | ⟨0, _⟩ => rfl | ⟨1, _⟩ => rfl)
  have er : ridx_main_v35 (ix2 c' d) k = ix2 k d :=
    funext fun a => Fin.ext (by match a with | ⟨0, _⟩ => rfl | ⟨1, _⟩ => rfl)
  rw [el, er, v34_eq, v33_eq]

end Cert.Attn.RefSide

end
-- ==== Proof.RefSide4.lean ====
/- The reference program's attention output, residual, layer normalisation and final mask. -/
import proofs.«154793_g50139448213692_cont_sun_m_1014_11_alg».proof.Proof.Gen.ReferenceIdeal.Run
import proofs.«154793_g50139448213692_cont_sun_m_1014_11_alg».proof.Proof.Gen.ReferenceIdeal.Read
import proofs.«154793_g50139448213692_cont_sun_m_1014_11_alg».proof.Proof.Spec
import proofs.«154793_g50139448213692_cont_sun_m_1014_11_alg».proof.Proof.Layout
import proofs.«154793_g50139448213692_cont_sun_m_1014_11_alg».proof.Proof.RefSide1
import proofs.«154793_g50139448213692_cont_sun_m_1014_11_alg».proof.Proof.RefSide2
import proofs.«154793_g50139448213692_cont_sun_m_1014_11_alg».proof.Proof.RefSide3

noncomputable section

namespace Cert.Attn.RefSide

open Cert.ReferenceIdeal Cert.ReferenceIdeal.Gen Cert.ReferenceIdeal.Read Idealize.ShloMosaic Idealize.ShloMosaic.ValueIdx

/-- The two constants of the layer normalisation as the program writes them: ninety-six and the variance offset. -/
abbrev w96 : EReal := Ideal.ofBits .f32 0x42C00000#32
abbrev wEps : EReal := Ideal.ofBits .f32 0x3727C5AC#32

/-- Query softmax times context. -/
theorem v36_eq (x0 : TX) (x1 x2 x3 : TW) (n : Fin 100352) (d : Fin 96) :
    val_main_v36 (F := Ideal) x0 x1 x2 x3 (ix2 n d) = Plain.t1 (rows x0) (mat x1) (mat x2) (mat x3) n d := by
  rw [val_main_v36_apply]
  unfold Plain.t1
  refine Finset.sum_congr rfl fun k _ => ?_
  have el : lidx_main_v36 (ix2 n d) k = ix2 n k :=
    funext fun a => Fin.ext (by match a with | ⟨0, _⟩ => rfl | ⟨1, _⟩ => rfl)
  have er : ridx_main_v36 (ix2 n d) k = ix2 k d :=
    funext fun a => Fin.ext (by match a with | ⟨0, _⟩ => rfl | ⟨1, _⟩ => rfl)
  rw [el, er, v19_eq, v35_eq]

/-- ... projected by the output weights. -/
theorem v37_eq (x0 : TX) (x1 x2 x3 x4 : TW) (n : Fin 100352) (f : Fin 96) :
    val_main_v37 (F := Ideal) x0 x1 x2 x3 x4 (ix2 n f)
      = Plain.attn (rows x0) (mat x1) (mat x2) (mat x3) (mat x4) n f := by
  rw [val_main_v37_apply]
  unfold Plain.attn
  refine Finset.sum_congr rfl fun k _ => ?_
  have el : lidx_main_v37 (ix2 n f) k = ix2 n k :=
    funext fun a => Fin.ext (by match a with | ⟨0, _⟩ => rfl | ⟨1, _⟩ => rfl)
  have er : ridx_main_v37 (ix2 n f) k = ix2 k f :=
    funext fun a => Fin.ext (by match a with | ⟨0, _⟩ => rfl | ⟨1, _⟩ => rfl)
  rw [el, er, v36_eq]
  rfl

/-- Residual plus attention. -/
theorem v38_eq (x0 : TX) (x1 x2 x3 x4 : TW) (n : Fin 100352) (f : Fin 96) :
    val_main_v38 (F := Ideal) x0 x1 x2 x3 x4 (ix2 n f)
      = Plain.out (rows x0) (mat x1) (mat x2) (mat x3) (mat x4) n f := by
  rw [val_main_v38_apply, v7_eq, v37_eq, Ideal.addf_def]
  rfl

/-- Its sum over the features. -/
theorem v39_eq (x0 : TX) (x1 x2 x3 x4 : TW) (n : Fin 100352) :
    val_main_v39 (F := Ideal) x0 x1 x2 x3 x4 (ix1 n)
      = ∑ f, Plain.out (rows x0) (mat x1) (mat x2) (mat x3) (mat x4) n f := by
  rw [val_main_v39_apply, val_main_cst_9_apply, Ideal.ofBits_def, Ideal.ofBits_zero_f32, zero_add]
  refine Finset.sum_congr rfl fun k _ => ?_
  have e : idx_main_v39 (ix1 n) k = ix2 n k :=
    funext fun a => Fin.ext (by match a with | ⟨0, _⟩ => rfl | ⟨1, _⟩ => rfl)
  rw [e, v38_eq]

/-- The mean over the features. -/
theorem v42_eq (x0 : TX) (x1 x2 x3 x4 : TW) (n : Fin 100352) :
    val_main_v42 (F := Ideal) x0 x1 x2 x3 x4 (ix2 n (0 : Fin 1))
      = Plain.mu (rows x0) (mat x1) (mat x2) (mat x3) (mat x4) w96 n := by
  have e40 : idx_main_v40 (ix2 n (0 : Fin 1)) = ix1 n :=
    funext fun a => Fin.ext (by match a with | ⟨0, _⟩ => rfl)
  rw [val_main_v42_apply, val_main_v40_apply, e40, v39_eq, val_main_v41_apply, val_main_cst_10_apply, Ideal.ofBits_def,
    Ideal.hostDivf_def]
  rfl

/-- The deviation from the mean (the program computes it twice). -/
theorem v44_eq (x0 : TX) (x1 x2 x3 x4 : TW) (n : Fin 100352) (f : Fin 96) :
    val_main_v44 (F := Ideal) x0 x1 x2 x3 x4 (ix2 n f)
      = Plain.dev (rows x0) (mat x1) (mat x2) (mat x3) (mat x4) w96 n f := by
  have e43 : idx_main_v43 (ix2 n f) = ix2 n (0 : Fin 1) :=
    funext fun a => Fin.ext (by match a with | ⟨0, _⟩ => rfl | ⟨1, _⟩ => rfl)
  rw [val_main_v44_apply, v38_eq, val_main_v43_apply, e43, v42_eq, Ideal.subf_def]
  rfl

theorem v51_eq (x0 : TX) (x1 x2 x3 x4 : TW) (n : Fin 100352) (f : Fin 96) :
    val_main_v51 (F := Ideal) x0 x1 x2 x3 x4 (ix2 n f)
      = Plain.dev (rows x0) (mat x1) (mat x2) (mat x3) (mat x4) w96 n f := by
  have e50 : idx_main_v50 (ix2 n f) = ix2 n (0 : Fin 1) :=
    funext fun a => Fin.ext (by match a with | ⟨0, _⟩ => rfl | ⟨1, _⟩ => rfl)
  rw [val_main_v51_apply, v38_eq, val_main_v50_apply, e50, v42_eq, Ideal.subf_def]
  rfl

/-- The squared deviations, summed over the features. -/
theorem v46_eq (x0 : TX) (x1 x2 x3 x4 : TW) (n : Fin 100352) :
    val_main_v46 (F := Ideal) x0 x1 x2 x3 x4 (ix1 n)
      = ∑ f, Plain.dev (rows x0) (mat x1) (mat x2) (mat x3) (mat x4) w96 n f
          * Plain.dev (rows x0) (mat x1) (mat x2) (mat x3) (mat x4) w96 n f := by
  rw [val_main_v46_apply, val_main_cst_11_apply, Ideal.ofBits_def, Ideal.ofBits_zero_f32, zero_add]
  refine Finset.sum_congr rfl fun k _ => ?_
  have e : idx_main_v46 (ix1 n) k = ix2 n k :=
    funext fun a => Fin.ext (by match a with | ⟨0, _⟩ => rfl | ⟨1, _⟩ => rfl)
  rw [e, val_main_v45_apply, v44_eq, Ideal.mulf_def]

/-- The variance. -/
theorem v49_eq (x0 : TX) (x1 x2 x3 x4 : TW) (n : Fin 100352) :
    val_main_v49 (F := Ideal) x0 x1 x2 x3 x4 (ix2 n (0 : Fin 1))
      = Plain.var (rows x0) (mat x1) (mat x2) (mat x3) (mat x4) w96 n := by
  have e47 : idx_main_v47 (ix2 n (0 : Fin 1)) = ix1 n :=
    funext fun a => Fin.ext (by match a with | ⟨0, _⟩ => rfl)
  rw [val_main_v49_apply, val_main_v47_apply, e47, v46_eq, val_main_v48_apply, val_main_cst_12_apply, Ideal.ofBits_def,
    Ideal.hostDivf_def]
  rfl

/-- The standard deviation, offset. -/
theorem v54_eq (x0 : TX) (x1 x2 x3 x4 : TW) (n : Fin 100352) :
    val_main_v54 (F := Ideal) x0 x1 x2 x3 x4 (ix2 n (0 : Fin 1))
      = Ideal.sqrt (Plain.var (rows x0) (mat x1) (mat x2) (mat x3) (mat x4) w96 n + wEps) := by
  rw [val_main_v54_apply, val_main_v53_apply, v49_eq, val_main_v52_apply, val_main_cst_13_apply, Ideal.ofBits_def,
    Ideal.hostUnary_sqrt_def, Ideal.addf_def]

/-- The scale and the shift, spread over the tokens. -/
theorem v58_eq (x5 : TV) (n : Fin 100352) (f : Fin 96) : val_main_v58 (F := Ideal) x5 (ix2 n f) = vec x5 f := by
  have e58 : idx_main_v58 (ix2 n f) = ix2 (0 : Fin 1) f :=
    funext fun a => Fin.ext (by match a with | ⟨0, _⟩ => rfl | ⟨1, _⟩ => rfl)
  have e57 : idx_main_v57 (ix2 (0 : Fin 1) f) = ix1 f :=
    funext fun a => Fin.ext (by match a with | ⟨0, _⟩ => rfl)
  rw [val_main_v58_apply, e58, val_main_v57_apply, e57]
  rfl

theorem v61_eq (x6 : TV) (n : Fin 100352) (f : Fin 96) : val_main_v61 (F := Ideal) x6 (ix2 n f) = vec x6 f := by
  have e61 : idx_main_v61 (ix2 n f) = ix2 (0 : Fin 1) f :=
    funext fun a => Fin.ext (by match a with | ⟨0, _⟩ => rfl | ⟨1, _⟩ => rfl)
  have e60 : idx_main_v60 (ix2 (0 : Fin 1) f) = ix1 f :=
    funext fun a => Fin.ext (by match a with | ⟨0, _⟩ => rfl)
  rw [val_main_v61_apply, e61, val_main_v60_apply, e60]
  rfl

/-- The normalised row. -/
theorem v62_eq (x0 : TX) (x1 x2 x3 x4 : TW) (x5 x6 : TV) (n : Fin 100352) (f : Fin 96) :
    val_main_v62 (F := Ideal) x0 x1 x2 x3 x4 x5 x6 (ix2 n f)
      = Plain.normed (rows x0) (mat x1) (mat x2) (mat x3) (mat x4) (vec x5) (vec x6) wEps w96 n f := by
  have e55 : idx_main_v55 (ix2 n f) = ix2 n (0 : Fin 1) :=
    funext fun a => Fin.ext (by match a with | ⟨0, _⟩ => rfl | ⟨1, _⟩ => rfl)
  rw [val_main_v62_apply, val_main_v59_apply, val_main_v56_apply, v51_eq, val_main_v55_apply, e55, v54_eq, v58_eq, v61_eq,
    Ideal.hostDivf_def, Ideal.mulf_def, Ideal.addf_def]
  rfl

/-- The result as a token matrix: dead rows zeroed. -/
theorem v64_eq (x0 : TX) (x1 x2 x3 x4 : TW) (x5 x6 : TV) (n : Fin 100352) (f : Fin 96) :
    val_main_v64 (F := Ideal) x0 x1 x2 x3 x4 x5 x6 (ix2 n f)
      = Plain.res (rows x0) (mat x1) (mat x2) (mat x3) (mat x4) (vec x5) (vec x6) wEps w96 n f := by
  rw [val_main_v64_apply, mask2_eq, v62_eq, val_main_v63_apply, val_main_cst_14_apply, Ideal.ofBits_def,
    Ideal.ofBits_zero_f32, select_ite]
  rfl

end Cert.Attn.RefSide

end
-- ==== Proof.RefSide.lean ====
/- What the reference program computes, read one operation at a time: the result at a pixel. -/
import proofs.«154793_g50139448213692_cont_sun_m_1014_11_alg».proof.Proof.Gen.ReferenceIdeal.Run
import proofs.«154793_g50139448213692_cont_sun_m_1014_11_alg».proof.Proof.Gen.ReferenceIdeal.Read
import proofs.«154793_g50139448213692_cont_sun_m_1014_11_alg».proof.Proof.Spec
import proofs.«154793_g50139448213692_cont_sun_m_1014_11_alg».proof.Proof.Layout
import proofs.«154793_g50139448213692_cont_sun_m_1014_11_alg».proof.Proof.RefSide1
import proofs.«154793_g50139448213692_cont_sun_m_1014_11_alg».proof.Proof.RefSide2
import proofs.«154793_g50139448213692_cont_sun_m_1014_11_alg».proof.Proof.RefSide3
import proofs.«154793_g50139448213692_cont_sun_m_1014_11_alg».proof.Proof.RefSide4

noncomputable section

namespace Cert.Attn.RefSide

open Cert.ReferenceIdeal Cert.ReferenceIdeal.Gen Cert.ReferenceIdeal.Read Idealize.ShloMosaic Idealize.ShloMosaic.ValueIdx

/-- What the reference program returns at the pixel (b, h, w), feature f: the textbook result at token
    b * 50176 + h * 224 + w. The last two operations regroup the token matrix into [2, 224, 224, 96] and move the
    feature axis to the second place. -/
theorem val_eq (x0 : (⟨Cert.ReferenceIdeal.S2x96x224x224, .f32⟩ : BufTy).Contents (Elt Ideal))
    (x1 x2 x3 x4 : (⟨Cert.ReferenceIdeal.S96x96, .f32⟩ : BufTy).Contents (Elt Ideal))
    (x5 x6 : (⟨Cert.ReferenceIdeal.S96, .f32⟩ : BufTy).Contents (Elt Ideal)) (b : Fin 2) (f : Fin 96) (h w : Fin 224) :
    Cert.ReferenceIdeal.Read.val_main_v66 (F := Ideal) x0 x1 x2 x3 x4 x5 x6 (ValueIdx.ix4 b f h w)
      = Cert.Attn.Plain.res (Cert.Attn.rows x0) (Cert.Attn.mat x1) (Cert.Attn.mat x2) (Cert.Attn.mat x3) (Cert.Attn.mat x4)
          (Cert.Attn.vec x5) (Cert.Attn.vec x6) (Ideal.ofBits .f32 0x3727C5AC#32) (Ideal.ofBits .f32 0x42C00000#32)
          (Cert.Attn.tokOf b h w) f := by
  have e : idx_main_v65 (idx_main_v66 (ix4 b f h w)) = ix2 (tokOf b h w) f := by
    funext a; apply Fin.ext
    have hb := b.isLt
    have hf := f.isLt
    have hh := h.isLt
    have hw := w.isLt
    match a with
    | ⟨0, _⟩ =>
      show (((b.val * 224 + h.val) * 224 + w.val) * 96 + f.val) / 96 = b.val * 50176 + h.val * 224 + w.val
      omega
    | ⟨1, _⟩ =>
      show (((b.val * 224 + h.val) * 224 + w.val) * 96 + f.val) % 96 = f.val
      omega
  rw [val_main_v66_apply, val_main_v65_apply, e]
  exact v64_eq x0 x1 x2 x3 x4 x5 x6 (tokOf b h w) f

end Cert.Attn.RefSide

end
-- ==== Proof.SpecEq1.lean ====
import proofs.«154793_g50139448213692_cont_sun_m_1014_11_alg».proof.Proof.Spec
import Mathlib.Tactic

/-!
  Real-valued forms of the quantities of the fused program, and the proof that at real inputs every
  quantity of the fused program is the coercion of its real-valued form.
-/

noncomputable section

open Classical
open Idealize.ShloMosaic

namespace Cert.Attn

/-! ### Coercions of reals into the extended reals -/

/-- The coercion commutes with finite sums. -/
theorem coe_sum {ι : Type} (s : Finset ι) (g : ι → ℝ) :
    ((∑ i ∈ s, g i : ℝ) : EReal) = ∑ i ∈ s, (g i : EReal) := by
  induction s using Finset.induction_on with
  | empty => simp
  | insert a s ha ih => rw [Finset.sum_insert ha, Finset.sum_insert ha, EReal.coe_add, ih]

/-- The coercion commutes with the maximum. -/
theorem coe_max' (a b : ℝ) : ((max a b : ℝ) : EReal) = max (a : EReal) (b : EReal) :=
  EReal.coe_strictMono.monotone.map_max

/-- The division with corners is the real division when the divisor is a non-zero real. -/
theorem div_real (a : ℝ) {b : ℝ} (hb : b ≠ 0) :
    Ideal.div (a : EReal) (b : EReal) = ((a / b : ℝ) : EReal) := by
  rw [Ideal.div_coe hb, ← EReal.coe_mul, mul_one_div]

/-- A real family of two indices seen in the extended reals. -/
def cM {α β : Type} (w : α → β → ℝ) : α → β → EReal := fun a b => (w a b : EReal)
/-- A real family of one index seen in the extended reals. -/
def cV {α : Type} (w : α → ℝ) : α → EReal := fun a => (w a : EReal)

theorem cM_apply {α β : Type} (w : α → β → ℝ) (a : α) (b : β) : cM w a b = (w a b : EReal) := rfl
theorem cV_apply {α : Type} (w : α → ℝ) (a : α) : cV w a = (w a : EReal) := rfl

/-! ### The real-valued forms -/

namespace R

variable {T : Type} [Fintype T]
variable (x : T → Fin 96 → ℝ) (wq wk wv wo : Fin 96 → Fin 96 → ℝ) (g b : Fin 96 → ℝ) (ε : ℝ)

/-- A token is live when one of its features is not zero. -/
def live (n : T) : Prop := ∃ c, x n c ≠ 0
/-- The mask. -/
def m (n : T) : ℝ := if live x n then 1 else 0
def kl (n : T) (c' : Fin 96) : ℝ := ∑ c, wk c c' * x n c
def e (n : T) (c' : Fin 96) : ℝ := Real.exp (kl x wk n c') * m x n
def S (c' : Fin 96) : ℝ := ∑ n, e x wk n c'
def G (c' c : Fin 96) : ℝ := ∑ n, e x wk n c' * x n c
def u (c' d : Fin 96) : ℝ := ∑ c, G x wk c' c * wv c d
def ssafe (c' : Fin 96) : ℝ := if 0 < S x wk c' then S x wk c' else 1
def ctx (c' d : Fin 96) : ℝ := u x wk wv c' d / ssafe x wk c'
def A (f c' : Fin 96) : ℝ := ∑ d, ctx x wk wv c' d * wo d f
def ql (n : T) (c' : Fin 96) : ℝ := ∑ c, wq c c' * x n c
def eq (n : T) (c' : Fin 96) : ℝ := Real.exp (ql x wq n c')
def sq (n : T) : ℝ := ∑ c', eq x wq n c'
def raw (n : T) (f : Fin 96) : ℝ := ∑ c', A x wk wv wo f c' * eq x wq n c'
def out (n : T) (f : Fin 96) : ℝ := x n f + raw x wq wk wv wo n f / sq x wq n
def mu (n : T) : ℝ := ∑ f, (1 / 96 : ℝ) * out x wq wk wv wo n f
def m2 (n : T) : ℝ := ∑ f, (1 / 96 : ℝ) * (out x wq wk wv wo n f * out x wq wk wv wo n f)
def var (n : T) : ℝ := max (m2 x wq wk wv wo n - mu x wq wk wv wo n * mu x wq wk wv wo n) 0
def rfac (n : T) : ℝ := (Real.sqrt (var x wq wk wv wo n + ε))⁻¹ * m x n
def res (n : T) (f : Fin 96) : ℝ :=
  (out x wq wk wv wo n f - mu x wq wk wv wo n) * rfac x wq wk wv wo ε n * g f + b f * m x n

theorem m_nonneg (n : T) : 0 ≤ m x n := by unfold m; split_ifs <;> norm_num
theorem e_nonneg (n : T) (c' : Fin 96) : 0 ≤ e x wk n c' :=
  mul_nonneg (Real.exp_pos _).le (m_nonneg x n)
theorem S_nonneg (c' : Fin 96) : 0 ≤ S x wk c' := Finset.sum_nonneg fun n _ => e_nonneg x wk n c'
theorem ssafe_pos (c' : Fin 96) : 0 < ssafe x wk c' := by
  unfold ssafe; split_ifs with h
  · exact h
  · exact one_pos
theorem sq_pos (n : T) : 0 < sq x wq n :=
  Finset.sum_pos (fun c' _ => Real.exp_pos _) Finset.univ_nonempty
theorem var_nonneg (n : T) : 0 ≤ var x wq wk wv wo n := le_max_right _ _

end R

/-! ### The mask -/

section Coe

variable {T : Type} [Fintype T]
variable (x : T → Fin 96 → ℝ) (wq wk wv wo : Fin 96 → Fin 96 → ℝ) (g b : Fin 96 → ℝ) (ε : ℝ)

/-- The sum of the absolute values of reals is positive exactly when one of them is not zero. -/
theorem live_iff (n : T) : Live (cM x) n ↔ R.live x n := by
  unfold Live absSum R.live
  have h1 : (∑ c, max (cM x n c) (-(cM x n c))) = ((∑ c, |x n c| : ℝ) : EReal) := by
    rw [coe_sum]
    refine Finset.sum_congr rfl fun c _ => ?_
    rw [cM_apply, ← EReal.coe_neg, ← coe_max']
    rfl
  rw [h1, EReal.coe_pos]
  constructor
  · intro h
    by_contra hc
    have hz : ∀ c, x n c = 0 := fun c => by
      by_contra h'
      exact hc ⟨c, h'⟩
    have h0 : ∑ c, |x n c| = 0 := Finset.sum_eq_zero fun c _ => by rw [hz c, abs_zero]
    linarith
  · rintro ⟨c, hc⟩
    exact Finset.sum_pos' (fun i _ => abs_nonneg _) ⟨c, Finset.mem_univ c, abs_pos.2 hc⟩

theorem msk_coe (n : T) : msk (cM x) n = (R.m x n : EReal) := by
  unfold msk R.m
  by_cases h : R.live x n
  · rw [if_pos ((live_iff x n).2 h), if_pos h, EReal.coe_one]
  · rw [if_neg (fun h' => h ((live_iff x n).1 h')), if_neg h, EReal.coe_zero]

/-! ### The fused program at real inputs -/

namespace Fused

theorem kl_coe (n : T) (c' : Fin 96) : Fused.kl (cM x) (cM wk) n c' = (R.kl x wk n c' : EReal) := by
  simp only [Fused.kl, R.kl, coe_sum, EReal.coe_mul, cM_apply]

theorem e_coe (n : T) (c' : Fin 96) : Fused.e (cM x) (cM wk) n c' = (R.e x wk n c' : EReal) := by
  unfold Fused.e R.e
  rw [kl_coe, msk_coe, Ideal.exp_coe, ← EReal.coe_mul]

theorem S_coe (c' : Fin 96) : Fused.S (cM x) (cM wk) c' = (R.S x wk c' : EReal) := by
  simp only [Fused.S, R.S, coe_sum, e_coe]

theorem G_coe (c' c : Fin 96) : Fused.G (cM x) (cM wk) c' c = (R.G x wk c' c : EReal) := by
  simp only [Fused.G, R.G, coe_sum, EReal.coe_mul, e_coe, cM_apply]

theorem u_coe (c' d : Fin 96) :
    Fused.u (cM x) (cM wk) (cM wv) c' d = (R.u x wk wv c' d : EReal) := by
  simp only [Fused.u, R.u, coe_sum, EReal.coe_mul, G_coe, cM_apply]

theorem ssafe_coe (c' : Fin 96) : Fused.ssafe (cM x) (cM wk) c' = (R.ssafe x wk c' : EReal) := by
  unfold Fused.ssafe R.ssafe
  rw [S_coe]
  by_cases h : 0 < R.S x wk c'
  · rw [if_pos (EReal.coe_pos.2 h), if_pos h]
  · rw [if_neg (fun h' => h (EReal.coe_pos.1 h')), if_neg h, EReal.coe_one]

theorem ctx_coe (c' d : Fin 96) :
    Fused.ctx (cM x) (cM wk) (cM wv) c' d = (R.ctx x wk wv c' d : EReal) := by
  unfold Fused.ctx R.ctx
  rw [u_coe, ssafe_coe, div_real _ (R.ssafe_pos x wk c').ne']

theorem A_coe (f c' : Fin 96) :
    Fused.A (cM x) (cM wk) (cM wv) (cM wo) f c' = (R.A x wk wv wo f c' : EReal) := by
  simp only [Fused.A, R.A, coe_sum, EReal.coe_mul, ctx_coe, cM_apply]

theorem ql_coe (n : T) (c' : Fin 96) : Fused.ql (cM x) (cM wq) n c' = (R.ql x wq n c' : EReal) := by
  simp only [Fused.ql, R.ql, coe_sum, EReal.coe_mul, cM_apply]

theorem eq_coe (n : T) (c' : Fin 96) : Fused.eq (cM x) (cM wq) n c' = (R.eq x wq n c' : EReal) := by
  unfold Fused.eq R.eq
  rw [ql_coe, Ideal.exp_coe]

theorem sq_coe (n : T) : Fused.sq (cM x) (cM wq) n = (R.sq x wq n : EReal) := by
  simp only [Fused.sq, R.sq, coe_sum, eq_coe]

theorem raw_coe (n : T) (f : Fin 96) :
    Fused.raw (cM x) (cM wq) (cM wk) (cM wv) (cM wo) n f = (R.raw x wq wk wv wo n f : EReal) := by
  simp only [Fused.raw, R.raw, coe_sum, EReal.coe_mul, A_coe, eq_coe]

theorem out_coe (n : T) (f : Fin 96) :
    Fused.out (cM x) (cM wq) (cM wk) (cM wv) (cM wo) n f = (R.out x wq wk wv wo n f : EReal) := by
  unfold Fused.out R.out
  rw [raw_coe, sq_coe, div_real _ (R.sq_pos x wq n).ne', cM_apply, ← EReal.coe_add]

theorem mu_coe (n : T) :
    Fused.mu (cM x) (cM wq) (cM wk) (cM wv) (cM wo) ((1 / 96 : ℝ) : EReal) n
      = (R.mu x wq wk wv wo n : EReal) := by
  simp only [Fused.mu, R.mu, coe_sum, EReal.coe_mul, out_coe]

theorem m2_coe (n : T) :
    Fused.m2 (cM x) (cM wq) (cM wk) (cM wv) (cM wo) ((1 / 96 : ℝ) : EReal) n
      = (R.m2 x wq wk wv wo n : EReal) := by
  simp only [Fused.m2, R.m2, coe_sum, EReal.coe_mul, out_coe]

theorem var_coe (n : T) :
    Fused.var (cM x) (cM wq) (cM wk) (cM wv) (cM wo) ((1 / 96 : ℝ) : EReal) n
      = (R.var x wq wk wv wo n : EReal) := by
  unfold Fused.var R.var
  rw [m2_coe, mu_coe, ← EReal.coe_mul, ← EReal.coe_sub, ← EReal.coe_zero, ← coe_max']

theorem rfac_coe (hε : 0 < ε) (n : T) :
    Fused.rfac (cM x) (cM wq) (cM wk) (cM wv) (cM wo) (ε : EReal) ((1 / 96 : ℝ) : EReal) n
      = (R.rfac x wq wk wv wo ε n : EReal) := by
  have hp : 0 < R.var x wq wk wv wo n + ε := add_pos_of_nonneg_of_pos (R.var_nonneg x wq wk wv wo n) hε
  unfold Fused.rfac R.rfac
  rw [var_coe, ← EReal.coe_add, Ideal.rsqrt_coe, if_neg (not_lt.2 hp.le), if_neg hp.ne', msk_coe,
    ← EReal.coe_mul]

theorem res_coe (hε : 0 < ε) (n : T) (f : Fin 96) :
    Fused.res (cM x) (cM wq) (cM wk) (cM wv) (cM wo) (cV g) (cV b) (ε : EReal) ((1 / 96 : ℝ) : EReal) n f
      = (R.res x wq wk wv wo g b ε n f : EReal) := by
  unfold Fused.res R.res
  rw [out_coe, mu_coe, rfac_coe x wq wk wv wo ε hε, msk_coe, cV_apply, cV_apply, ← EReal.coe_sub,
    ← EReal.coe_mul, ← EReal.coe_mul, ← EReal.coe_mul, ← EReal.coe_add]

/-- At a dead token the fused result is zero. -/
theorem res_dead (n : T) (f : Fin 96) (h : ¬ R.live x n) : R.res x wq wk wv wo g b ε n f = 0 := by
  unfold R.res R.rfac R.m
  rw [if_neg h]
  ring

end Fused

end Coe

end Cert.Attn

end
-- ==== Proof.SpecEq2.lean ====
import proofs.«154793_g50139448213692_cont_sun_m_1014_11_alg».proof.Proof.SpecEq1

/-!
  The plain program at real inputs: its quantities up to the residual sum are the coercions of the
  real-valued forms of the fused program, once some token is live.
-/

noncomputable section

open Classical
open Idealize.ShloMosaic

namespace Cert.Attn

/-- The supremum of finitely many reals, over a non-empty set, is a real. -/
theorem sup_coe_exists {ι : Type} (s : Finset ι) (hs : s.Nonempty) (g : ι → ℝ) :
    ∃ m : ℝ, s.sup (fun i => (g i : EReal)) = (m : EReal) := by
  obtain ⟨i, _, hi⟩ := Finset.exists_mem_eq_sup s hs (fun i => (g i : EReal))
  exact ⟨g i, hi⟩

namespace R

variable {T : Type} [Fintype T]
variable (x : T → Fin 96 → ℝ) (wq wk wv wo : Fin 96 → Fin 96 → ℝ)

/-- The values. -/
def v (n : T) (d : Fin 96) : ℝ := ∑ c, x n c * wv c d

/-- The key normaliser is positive once a token is live. -/
theorem S_pos (hex : ∃ n, live x n) (c' : Fin 96) : 0 < S x wk c' := by
  obtain ⟨n0, h0⟩ := hex
  unfold S
  refine Finset.sum_pos' (fun n _ => e_nonneg x wk n c') ⟨n0, Finset.mem_univ _, ?_⟩
  unfold e m
  rw [if_pos h0, mul_one]
  exact Real.exp_pos _

/-- The context of the plain form is the context of the fused form: the normaliser is pulled out of the
    sum over tokens and the two sums are exchanged. -/
theorem ctxP_eq (c' d : Fin 96) (hS : 0 < S x wk c') :
    ∑ n, e x wk n c' / S x wk c' * v x wv n d = ctx x wk wv c' d := by
  unfold ctx u G ssafe v
  rw [if_pos hS]
  simp only [Finset.sum_mul, Finset.mul_sum, Finset.sum_div]
  rw [Finset.sum_comm]
  refine Finset.sum_congr rfl fun c _ => Finset.sum_congr rfl fun n _ => ?_
  ring

/-- The attention output of the plain form is the unnormalised output of the fused form divided by the
    query normaliser. -/
theorem attn_eq (n : T) (f : Fin 96) :
    ∑ d, (∑ c', eq x wq n c' / sq x wq n * ctx x wk wv c' d) * wo d f
      = raw x wq wk wv wo n f / sq x wq n := by
  unfold raw A
  simp only [Finset.sum_mul, Finset.mul_sum, Finset.sum_div]
  rw [Finset.sum_comm]
  refine Finset.sum_congr rfl fun c' _ => Finset.sum_congr rfl fun d _ => ?_
  ring

end R

section Coe

variable {T : Type} [Fintype T]
variable (x : T → Fin 96 → ℝ) (wq wk wv wo : Fin 96 → Fin 96 → ℝ)

namespace Plain

/-- Zeroing a dead row changes nothing: a dead row is already zero. -/
theorem tok_coe (n : T) (c : Fin 96) : Plain.tok (cM x) n c = (x n c : EReal) := by
  unfold Plain.tok
  by_cases h : R.live x n
  · rw [if_pos ((live_iff x n).2 h), cM_apply]
  · rw [if_neg (fun h' => h ((live_iff x n).1 h'))]
    have h0 : x n c = 0 := by
      by_contra hc
      exact h ⟨c, hc⟩
    rw [h0, EReal.coe_zero]

theorem ql_coe (n : T) (c' : Fin 96) : Plain.ql (cM x) (cM wq) n c' = (R.ql x wq n c' : EReal) := by
  unfold Plain.ql R.ql
  rw [coe_sum]
  refine Finset.sum_congr rfl fun c _ => ?_
  rw [tok_coe, cM_apply, EReal.coe_mul, mul_comm]

/-- The query maximum is a real. -/
theorem mq_real (n : T) : ∃ m : ℝ, Plain.mq (cM x) (cM wq) n = (m : EReal) := by
  obtain ⟨m, hm⟩ := sup_coe_exists Finset.univ Finset.univ_nonempty (fun c' => R.ql x wq n c')
  refine ⟨m, ?_⟩
  unfold Plain.mq
  rw [max_bot_left]
  simp only [ql_coe]
  exact hm

/-- The query softmax: the common factor, the exponential of minus the maximum, cancels. -/
theorem q_coe (n : T) (c' : Fin 96) :
    Plain.q (cM x) (cM wq) n c' = ((R.eq x wq n c' / R.sq x wq n : ℝ) : EReal) := by
  obtain ⟨m, hm⟩ := mq_real x wq n
  have he : ∀ c', Plain.eq (cM x) (cM wq) n c' = ((R.eq x wq n c' * Real.exp (-m) : ℝ) : EReal) := by
    intro c'
    unfold Plain.eq R.eq
    rw [ql_coe, hm, ← EReal.coe_sub, Ideal.exp_coe, sub_eq_add_neg, Real.exp_add]
  have hpos : 0 < R.sq x wq n * Real.exp (-m) := mul_pos (R.sq_pos x wq n) (Real.exp_pos _)
  unfold Plain.q
  simp only [he]
  rw [← coe_sum, ← Finset.sum_mul]
  change Ideal.div _ ((R.sq x wq n * Real.exp (-m) : ℝ) : EReal) = _
  rw [div_real _ hpos.ne', mul_div_mul_right _ _ (Real.exp_pos _).ne']

theorem kl_live (n : T) (c' : Fin 96) (h : R.live x n) :
    Plain.kl (cM x) (cM wk) n c' = (R.kl x wk n c' : EReal) := by
  unfold Plain.kl R.kl
  rw [if_pos ((live_iff x n).2 h), coe_sum]
  refine Finset.sum_congr rfl fun c _ => ?_
  rw [tok_coe, cM_apply, EReal.coe_mul, mul_comm]

theorem kl_dead (n : T) (c' : Fin 96) (h : ¬ R.live x n) : Plain.kl (cM x) (cM wk) n c' = ⊥ := by
  unfold Plain.kl
  rw [if_neg (fun h' => h ((live_iff x n).1 h'))]

/-- The key maximum is a real once a token is live: it is attained, and not at a dead token. -/
theorem mk_real (hex : ∃ n, R.live x n) (c' : Fin 96) :
    ∃ M : ℝ, Plain.mk (cM x) (cM wk) c' = (M : EReal) := by
  obtain ⟨n0, h0⟩ := hex
  unfold Plain.mk
  rw [max_bot_left]
  obtain ⟨i, _, hi⟩ := Finset.exists_mem_eq_sup Finset.univ ⟨n0, Finset.mem_univ n0⟩
    (fun n => Plain.kl (cM x) (cM wk) n c')
  by_cases hl : R.live x i
  · refine ⟨R.kl x wk i c', ?_⟩
    rw [hi]
    exact kl_live x wk i c' hl
  · exfalso
    have h1 : Plain.kl (cM x) (cM wk) n0 c'
        ≤ Finset.univ.sup (fun n => Plain.kl (cM x) (cM wk) n c') :=
      Finset.le_sup (f := fun n => Plain.kl (cM x) (cM wk) n c') (Finset.mem_univ n0)
    rw [hi] at h1
    simp only [kl_dead x wk i c' hl, kl_live x wk n0 c' h0] at h1
    exact absurd h1 (not_le.2 (EReal.bot_lt_coe _))

/-- The shifted key weights are the unshifted ones times the exponential of minus the maximum; at a dead
    token both are zero. -/
theorem ek_coe (c' : Fin 96) (M : ℝ) (hM : Plain.mk (cM x) (cM wk) c' = (M : EReal)) (n : T) :
    Plain.ek (cM x) (cM wk) n c' = ((R.e x wk n c' * Real.exp (-M) : ℝ) : EReal) := by
  unfold Plain.ek R.e R.m
  rw [hM]
  by_cases hl : R.live x n
  · rw [kl_live x wk n c' hl, if_pos hl, ← EReal.coe_sub, Ideal.exp_coe, mul_one, sub_eq_add_neg,
      Real.exp_add]
  · rw [kl_dead x wk n c' hl, if_neg hl, EReal.bot_sub, Ideal.exp_bot, mul_zero, zero_mul,
      EReal.coe_zero]

/-- The key softmax. -/
theorem k_coe (hex : ∃ n, R.live x n) (n : T) (c' : Fin 96) :
    Plain.k (cM x) (cM wk) n c' = ((R.e x wk n c' / R.S x wk c' : ℝ) : EReal) := by
  obtain ⟨M, hM⟩ := mk_real x wk hex c'
  have hpos : 0 < R.S x wk c' * Real.exp (-M) := mul_pos (R.S_pos x wk hex c') (Real.exp_pos _)
  unfold Plain.k
  simp only [ek_coe x wk c' M hM]
  rw [← coe_sum, ← Finset.sum_mul]
  change Ideal.div _ ((R.S x wk c' * Real.exp (-M) : ℝ) : EReal) = _
  rw [div_real _ hpos.ne', mul_div_mul_right _ _ (Real.exp_pos _).ne']

theorem v_coe (n : T) (d : Fin 96) : Plain.v (cM x) (cM wv) n d = (R.v x wv n d : EReal) := by
  simp only [Plain.v, R.v, coe_sum, EReal.coe_mul, tok_coe, cM_apply]

theorem ctx_coe (hex : ∃ n, R.live x n) (c' d : Fin 96) :
    Plain.ctx (cM x) (cM wk) (cM wv) c' d = (R.ctx x wk wv c' d : EReal) := by
  rw [← R.ctxP_eq x wk wv c' d (R.S_pos x wk hex c')]
  simp only [Plain.ctx, coe_sum, EReal.coe_mul, k_coe x wk hex, v_coe]

theorem attn_coe (hex : ∃ n, R.live x n) (n : T) (f : Fin 96) :
    Plain.attn (cM x) (cM wq) (cM wk) (cM wv) (cM wo) n f
      = ((R.raw x wq wk wv wo n f / R.sq x wq n : ℝ) : EReal) := by
  rw [← R.attn_eq]
  simp only [Plain.attn, Plain.t1, coe_sum, EReal.coe_mul, q_coe, ctx_coe x wk wv hex, cM_apply]

theorem out_coe (hex : ∃ n, R.live x n) (n : T) (f : Fin 96) :
    Plain.out (cM x) (cM wq) (cM wk) (cM wv) (cM wo) n f = (R.out x wq wk wv wo n f : EReal) := by
  unfold Plain.out R.out
  rw [tok_coe, attn_coe x wq wk wv wo hex, ← EReal.coe_add]

end Plain

end Coe

end Cert.Attn

end
-- ==== Proof.SpecEq3.lean ====
import proofs.«154793_g50139448213692_cont_sun_m_1014_11_alg».proof.Proof.SpecEq2

/-!
  The layer normalisation of the two programs, and the equality of the two programs at real inputs.
-/

noncomputable section

open Classical
open Idealize.ShloMosaic

namespace Cert.Attn

namespace R

/-- The mean squared deviation is the mean of the squares minus the square of the mean. -/
theorem msd_eq (o : Fin 96 → ℝ) :
    (∑ f, (o f - ∑ f', (1 / 96 : ℝ) * o f') * (o f - ∑ f', (1 / 96 : ℝ) * o f')) / 96
      = (∑ f, (1 / 96 : ℝ) * (o f * o f)) - (∑ f', (1 / 96 : ℝ) * o f') * (∑ f', (1 / 96 : ℝ) * o f') := by
  have hμ : ∑ f', (1 / 96 : ℝ) * o f' = (∑ f', o f') / 96 := by
    rw [← Finset.mul_sum]; ring
  have h2 : ∑ f, (1 / 96 : ℝ) * (o f * o f) = (∑ f, o f * o f) / 96 := by
    rw [← Finset.mul_sum]; ring
  have hexp : ∑ f, (o f - (∑ f', o f') / 96) * (o f - (∑ f', o f') / 96)
      = (∑ f, o f * o f) - 2 * ((∑ f', o f') / 96) * (∑ f', o f')
        + 96 * (((∑ f', o f') / 96) * ((∑ f', o f') / 96)) := by
    have h3 : ∀ f, (o f - (∑ f', o f') / 96) * (o f - (∑ f', o f') / 96)
        = o f * o f - 2 * ((∑ f', o f') / 96) * o f + ((∑ f', o f') / 96) * ((∑ f', o f') / 96) :=
      fun f => by ring
    simp only [h3, Finset.sum_add_distrib, Finset.sum_sub_distrib, ← Finset.mul_sum, Finset.sum_const,
      Finset.card_univ, Fintype.card_fin, nsmul_eq_mul, Nat.cast_ofNat]
    ring
  rw [hμ, h2, hexp]
  ring

variable {T : Type} [Fintype T]
variable (x : T → Fin 96 → ℝ) (wq wk wv wo : Fin 96 → Fin 96 → ℝ) (g b : Fin 96 → ℝ) (ε : ℝ)

/-- The clipped variance of the fused form is the mean squared deviation: the latter is not negative. -/
theorem var_eq_msd (n : T) :
    var x wq wk wv wo n
      = (∑ f, (out x wq wk wv wo n f - mu x wq wk wv wo n) * (out x wq wk wv wo n f - mu x wq wk wv wo n)) / 96 := by
  have h : m2 x wq wk wv wo n - mu x wq wk wv wo n * mu x wq wk wv wo n
      = (∑ f, (out x wq wk wv wo n f - mu x wq wk wv wo n)
          * (out x wq wk wv wo n f - mu x wq wk wv wo n)) / 96 :=
    (msd_eq (fun f => out x wq wk wv wo n f)).symm
  unfold var
  rw [h]
  exact max_eq_left (div_nonneg (Finset.sum_nonneg fun f _ => mul_self_nonneg _) (by norm_num))

/-- At a live token the mask is one and the folded factor is the reciprocal of the square root. -/
theorem res_live (n : T) (f : Fin 96) (h : live x n) :
    res x wq wk wv wo g b ε n f
      = (out x wq wk wv wo n f - mu x wq wk wv wo n) / Real.sqrt (var x wq wk wv wo n + ε) * g f + b f := by
  unfold res rfac m
  rw [if_pos h, mul_one, mul_one, div_eq_mul_inv]

end R

section Coe

variable {T : Type} [Fintype T]
variable (x : T → Fin 96 → ℝ) (wq wk wv wo : Fin 96 → Fin 96 → ℝ) (g b : Fin 96 → ℝ) (ε : ℝ)

namespace Plain

theorem mu_coe (hex : ∃ n, R.live x n) (n : T) :
    Plain.mu (cM x) (cM wq) (cM wk) (cM wv) (cM wo) ((96 : ℝ) : EReal) n
      = (R.mu x wq wk wv wo n : EReal) := by
  unfold Plain.mu
  simp only [out_coe x wq wk wv wo hex]
  rw [← coe_sum, div_real _ (by norm_num : (96 : ℝ) ≠ 0)]
  congr 1
  unfold R.mu
  rw [Finset.sum_div]
  refine Finset.sum_congr rfl fun f _ => ?_
  ring

theorem dev_coe (hex : ∃ n, R.live x n) (n : T) (f : Fin 96) :
    Plain.dev (cM x) (cM wq) (cM wk) (cM wv) (cM wo) ((96 : ℝ) : EReal) n f
      = ((R.out x wq wk wv wo n f - R.mu x wq wk wv wo n : ℝ) : EReal) := by
  unfold Plain.dev
  rw [out_coe x wq wk wv wo hex, mu_coe x wq wk wv wo hex, ← EReal.coe_sub]

theorem var_coe (hex : ∃ n, R.live x n) (n : T) :
    Plain.var (cM x) (cM wq) (cM wk) (cM wv) (cM wo) ((96 : ℝ) : EReal) n
      = (R.var x wq wk wv wo n : EReal) := by
  unfold Plain.var
  simp only [dev_coe x wq wk wv wo hex, ← EReal.coe_mul]
  rw [← coe_sum, div_real _ (by norm_num : (96 : ℝ) ≠ 0), R.var_eq_msd]

theorem normed_coe (hex : ∃ n, R.live x n) (hε : 0 < ε) (n : T) (f : Fin 96) :
    Plain.normed (cM x) (cM wq) (cM wk) (cM wv) (cM wo) (cV g) (cV b) (ε : EReal) ((96 : ℝ) : EReal) n f
      = (((R.out x wq wk wv wo n f - R.mu x wq wk wv wo n)
            / Real.sqrt (R.var x wq wk wv wo n + ε) * g f + b f : ℝ) : EReal) := by
  have hp : 0 < R.var x wq wk wv wo n + ε :=
    add_pos_of_nonneg_of_pos (R.var_nonneg x wq wk wv wo n) hε
  unfold Plain.normed
  rw [dev_coe x wq wk wv wo hex, var_coe x wq wk wv wo hex, ← EReal.coe_add, Ideal.sqrt_coe,
    if_neg (not_lt.2 hp.le), div_real _ (Real.sqrt_pos.2 hp).ne', cV_apply, cV_apply, ← EReal.coe_mul,
    ← EReal.coe_add]

end Plain

end Coe

/-- The two forms of the block agree at real inputs. -/
theorem fused_eq_plain {T : Type} [Fintype T] (x : T → Fin 96 → EReal)
    (Wq Wk Wv Wo : Fin 96 → Fin 96 → EReal) (γ β : Fin 96 → EReal) (eps c96 inv96 : EReal)
    (h : Cert.Attn.Finite x Wq Wk Wv Wo γ β eps c96 inv96) (n : T) (f : Fin 96) :
    Cert.Attn.Fused.res x Wq Wk Wv Wo γ β eps inv96 n f
      = Cert.Attn.Plain.res x Wq Wk Wv Wo γ β eps c96 n f := by
  obtain ⟨hx, hWq, hWk, hWv, hWo, hγ, hβ, ⟨ε, hε, rfl⟩, rfl, rfl⟩ := h
  choose xr hxr using hx
  choose wq hwq using hWq
  choose wk hwk using hWk
  choose wv hwv using hWv
  choose wo hwo using hWo
  choose g hg using hγ
  choose b hb using hβ
  obtain rfl : x = cM xr := funext fun a => funext fun c => hxr a c
  obtain rfl : Wq = cM wq := funext fun a => funext fun c => hwq a c
  obtain rfl : Wk = cM wk := funext fun a => funext fun c => hwk a c
  obtain rfl : Wv = cM wv := funext fun a => funext fun c => hwv a c
  obtain rfl : Wo = cM wo := funext fun a => funext fun c => hwo a c
  obtain rfl : γ = cV g := funext fun a => hg a
  obtain rfl : β = cV b := funext fun a => hb a
  rw [Fused.res_coe xr wq wk wv wo g b ε hε]
  unfold Plain.res
  by_cases hl : R.live xr n
  · rw [if_pos ((live_iff xr n).2 hl), Plain.normed_coe xr wq wk wv wo g b ε ⟨n, hl⟩ hε,
      R.res_live xr wq wk wv wo g b ε n f hl]
  · rw [if_neg (fun h' => hl ((live_iff xr n).1 h')), Fused.res_dead xr wq wk wv wo g b ε n f hl,
      EReal.coe_zero]

end Cert.Attn

end
-- ==== Proof.SpecEq.lean ====
import proofs.«154793_g50139448213692_cont_sun_m_1014_11_alg».proof.Proof.SpecEq3

/-!
  The equality of the two forms of the block at real inputs, `Cert.Attn.fused_eq_plain`. The first module
  imported here treats the fused form, the second the plain form up to the residual sum, the third the layer
  normalisation and the equality itself.
-/
-- ==== Proof.FiniteInputs.lean ====
import proofs.«154793_g50139448213692_cont_sun_m_1014_11_alg».proof.Defs
import proofs.«154793_g50139448213692_cont_sun_m_1014_11_alg».proof.Proof.Layout
import Idealize.ShloMosaic.Lib.ReduceAll
import Idealize.ShloMosaic.PureOps.IdealRules
import Mathlib.Tactic

/-!
  The precondition read back: when the conjunction of the seven "every entry has absolute value below
  plus infinity" tests is one, every entry of the seven arrays is a real number; with what the three
  constants denote, this is the hypothesis under which the two forms of the block agree.
-/

noncomputable section

namespace Cert.Attn

open Idealize.ShloMosaic Idealize.ShloMosaic.ValueIdx
open Cert.Pre_finite_inputs

/-- The shape of a single number has one index. -/
instance subsingleton_S_ : Subsingleton S_.Idx := ⟨fun a b => funext fun d => d.elim0⟩

/-- The pattern of plus infinity denotes the top element. -/
theorem ofBits_inf : Ideal.ofBits .f32 0x7F800000#32 = ⊤ := by
  simp [Ideal.ofBits, Ideal.ieee]

/-- An extended real whose absolute value is below plus infinity is a real: at either infinity the maximum
    of the number and its negation is plus infinity. -/
theorem real_of_abs_lt (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

/-- One test read at an index. -/
theorem real_of_test {s : Shape} (hb : S_.BroadcastsInDim s (![] : Fin 0 → Fin s.rank)) (x : FVec Ideal s .f32)
    (i : s.Idx)
    (h : cmpf .olt (Host.absf x) (broadcastInDim s ![] hb (constant (F := Ideal) S_ .f32 0x7F800000#32)) i = 1#1) :
    ∃ r : ℝ, x i = (r : EReal) :=
  real_of_abs_lt (x i) h

/-- The literal of the variance offset denotes a positive real. -/
theorem ofBits_eps : ∃ r : ℝ, 0 < r ∧ Ideal.ofBits .f32 0x3727C5AC#32 = (r : EReal) := by
  refine ⟨10995116 * (2 : ℝ) ^ (-40 : ℤ), by positivity, ?_⟩
  simp [Ideal.ofBits, Ideal.ieee, -EReal.coe_mul]

/-- The literal of ninety-six denotes the real ninety-six. -/
theorem ofBits_96 : Ideal.ofBits .f32 0x42C00000#32 = ((96 : ℝ) : EReal) := by
  simp [Ideal.ofBits, Ideal.ieee, -EReal.coe_mul]
  norm_num

/-- The named reciprocal denotes the rational one ninety-sixth, by the table of named constants. -/
theorem named_inv96 :
    Named.named (F := Ideal) Cert.KernelIdeal.κ "inv_96" (φ := .f32) 0x3C2AAAAB#32 = ((1 / 96 : ℝ) : EReal) :=
  IdealRules.named_const.ideal_named_scalar _ _ _ _ rfl

variable [Facts]

/-- The precondition read back: every entry of the seven arrays is a real. -/
theorem entries_real (x0 : FVec Ideal S2x96x224x224 .f32) (x1 x2 x3 x4 : FVec Ideal S96x96 .f32)
    (x5 x6 : FVec Ideal S96 .f32)
    (h : Cert.Pre_finite_inputs.fn (F := Ideal) x0 x1 x2 x3 x4 x5 x6 = (fun _ => 1#1)) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal))
      ∧ (∀ i, ∃ r : ℝ, x5 i = (r : EReal)) ∧ (∀ i, ∃ r : ℝ, x6 i = (r : EReal)) := by
  have e := congrFun h ix0
  dsimp only [Cert.Pre_finite_inputs.fn, Cert.Pre_finite_inputs.fn_part1, andi] at e
  simp only [IntOp.andi_eq_one] at e
  obtain ⟨⟨⟨⟨⟨⟨h0, h1⟩, h2⟩, h3⟩, h4⟩, h5⟩, h6⟩ := e
  exact ⟨fun i => real_of_test _ x0 i (Host.reduce_andi_all _ _ _ _ _ h0 i),
    fun i => real_of_test _ x1 i (Host.reduce_andi_all _ _ _ _ _ h1 i),
    fun i => real_of_test _ x2 i (Host.reduce_andi_all _ _ _ _ _ h2 i),
    fun i => real_of_test _ x3 i (Host.reduce_andi_all _ _ _ _ _ h3 i),
    fun i => real_of_test _ x4 i (Host.reduce_andi_all _ _ _ _ _ h4 i),
    fun i => real_of_test _ x5 i (Host.reduce_andi_all _ _ _ _ _ h5 i),
    fun i => real_of_test _ x6 i (Host.reduce_andi_all _ _ _ _ _ h6 i)⟩

/-- Under the precondition the inputs, read as tokens, matrices and vectors, are real, and the three constants
    are a positive real, ninety-six and its reciprocal. -/
theorem finite_of_pre (x0 : FVec Ideal S2x96x224x224 .f32) (x1 x2 x3 x4 : FVec Ideal S96x96 .f32)
    (x5 x6 : FVec Ideal S96 .f32)
    (h : Cert.Pre_finite_inputs.fn (F := Ideal) x0 x1 x2 x3 x4 x5 x6 = (fun _ => 1#1)) :
    Cert.Attn.Finite (Cert.Attn.rows x0) (Cert.Attn.mat x1) (Cert.Attn.mat x2) (Cert.Attn.mat x3)
      (Cert.Attn.mat x4) (Cert.Attn.vec x5) (Cert.Attn.vec x6)
      (Ideal.ofBits .f32 0x3727C5AC#32) (Ideal.ofBits .f32 0x42C00000#32)
      (Named.named (F := Ideal) Cert.KernelIdeal.κ "inv_96" (φ := .f32) 0x3C2AAAAB#32) := by
  obtain ⟨h0, h1, h2, h3, h4, h5, h6⟩ := entries_real x0 x1 x2 x3 x4 x5 x6 h
  exact
    { x := fun n c => h0 _
      Wq := fun a b => h1 _
      Wk := fun a b => h2 _
      Wv := fun a b => h3 _
      Wo := fun a b => h4 _
      γ := fun a => h5 _
      β := fun a => h6 _
      eps := ofBits_eps
      c96 := ofBits_96
      inv96 := named_inv96 }

end Cert.Attn

end
-- ==== Proof.lean ====
/-
  The certificate: a linear-attention block with layer normalisation over the non-empty pillars of a [2, 96, 224, 224]
  feature map, computed by two tiled kernels (running key-softmax statistics folded into one 96 x 96 matrix; then the
  query softmax, the residual, the normalisation and the mask, tile by tile), against the plain array program.

  * Both kernel programs run to the end, fault nowhere and leave their arguments unchanged: the program is a chain of
    four segments (host layout operations, the first kernel, the second kernel, the final reshape); each kernel is a
    region whose body is run symbolically at every kind of grid point, the first one carrying its two accumulators in
    scratch memory from tile to tile.
  * The plain program's frame is its run with the result dropped.
  * The idealized kernel differs from the kernel by one named constant, 1/96.
  * Over the extended reals, on finite inputs, the two results agree entry by entry: the kernel's entry is the fused form
    of the block at the entry's token and feature, the plain program's entry is the plain form there, and the two forms are
    equal on real inputs (the softmax shifts cancel, the sums over tokens exchange with the projections, the variance
    identities hold, dead tokens are zero on both sides).
-/
import proofs.«154793_g50139448213692_cont_sun_m_1014_11_alg».proof.Defs
import proofs.«154793_g50139448213692_cont_sun_m_1014_11_alg».proof.Proof.Gen.Kernel
import proofs.«154793_g50139448213692_cont_sun_m_1014_11_alg».proof.Proof.Gen.KernelIdeal
import proofs.«154793_g50139448213692_cont_sun_m_1014_11_alg».proof.Proof.Gen.ReferenceIdeal
import proofs.«154793_g50139448213692_cont_sun_m_1014_11_alg».proof.Proof.Gen.Pre_finite_inputs
import proofs.«154793_g50139448213692_cont_sun_m_1014_11_alg».proof.Proof.KBRun
import proofs.«154793_g50139448213692_cont_sun_m_1014_11_alg».proof.Proof.KIValue2
import proofs.«154793_g50139448213692_cont_sun_m_1014_11_alg».proof.Proof.RefSide
import proofs.«154793_g50139448213692_cont_sun_m_1014_11_alg».proof.Proof.SpecEq
import proofs.«154793_g50139448213692_cont_sun_m_1014_11_alg».proof.Proof.FiniteInputs
import Idealize.ShloMosaic.PureOps.IdealRules
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Whole.frame m ρ

theorem frame_ki : Cert.frame_KernelIdeal := fun m ρ _ => Cert.KernelIdeal.Whole.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one named constant: ninety-six's reciprocal. -/
theorem preserves : Cert.preserves_Kernel_KernelIdeal :=
  IdealRules.named_const.statement Cert.KernelIdeal.κ "inv_96" .f32 0x3C2AAAAB#32 ((1 / 96 : ℝ) : EReal) rfl

/-- Both programs end with the plain form of the block, entry by entry. -/
theorem algebraic : Cert.algebraic_KernelIdeal_ReferenceIdeal := by
  intro m ρ m' ρ' hpre hagree
  refine ⟨fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Whole.run_all m ρ)
    refine ⟨?_, (h c _ (Cert.KernelIdeal.Whole.mem_uc Cert.KernelIdeal.main_arg0 (by decide))).trans (Cert.KernelIdeal.Whole.W4_main_arg0 m c),
      (h c _ (Cert.KernelIdeal.Whole.mem_uc Cert.KernelIdeal.main_arg1 (by decide))).trans (Cert.KernelIdeal.Whole.W4_main_arg1 m c),
      (h c _ (Cert.KernelIdeal.Whole.mem_uc Cert.KernelIdeal.main_arg2 (by decide))).trans (Cert.KernelIdeal.Whole.W4_main_arg2 m c),
      (h c _ (Cert.KernelIdeal.Whole.mem_uc Cert.KernelIdeal.main_arg3 (by decide))).trans (Cert.KernelIdeal.Whole.W4_main_arg3 m c),
      (h c _ (Cert.KernelIdeal.Whole.mem_uc Cert.KernelIdeal.main_arg4 (by decide))).trans (Cert.KernelIdeal.Whole.W4_main_arg4 m c),
      (h c _ (Cert.KernelIdeal.Whole.mem_uc Cert.KernelIdeal.main_arg5 (by decide))).trans (Cert.KernelIdeal.Whole.W4_main_arg5 m c),
      (h c _ (Cert.KernelIdeal.Whole.mem_uc Cert.KernelIdeal.main_arg6 (by decide))).trans (Cert.KernelIdeal.Whole.W4_main_arg6 m c)⟩
    refine (h c _ (Cert.KernelIdeal.Whole.mem_uc Cert.KernelIdeal.main_v0 (by decide))).trans ?_
    funext i
    obtain ⟨b, f, hh, w, rfl⟩ : ∃ (b : Fin 2) (f : Fin 96) (hh w : Fin 224), i = ix4 b f hh w := ⟨i 0, i 1, i 2, i 3, eq_ix4 i⟩
    refine (Cert.KernelIdeal.Whole.result_apply m c b f hh w).trans ?_
    refine (Cert.Attn.fused_eq_plain _ _ _ _ _ _ _ _ _ _ (Cert.Attn.finite_of_pre _ _ _ _ _ _ _ (hpre c)) _ _).trans ?_
    exact (Cert.Attn.RefSide.val_eq _ _ _ _ _ _ _ b f hh w).symm
  · refine (θ_run Cert.ReferenceIdeal.defs _ _).mono (fun r h c => ⟨?_, (h c).2⟩) (Cert.ReferenceIdeal.Value.run (F := Ideal) m' ρ')
    rw [(h c).1, Cert.ReferenceIdeal.Read.val_main_v66_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
